-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x4096 : Shape := ⟨3, ![1, 1, 4096]⟩
abbrev S1x4096 : Shape := ⟨2, ![1, 4096]⟩
abbrev S15x4096 : Shape := ⟨2, ![15, 4096]⟩
abbrev S4096x4096 : Shape := ⟨2, ![4096, 4096]⟩
abbrev S15x8192 : Shape := ⟨2, ![15, 8192]⟩
abbrev S15 : Shape := ⟨1, ![15]⟩
abbrev S4096x8192 : Shape := ⟨2, ![4096, 8192]⟩
abbrev S4096 : Shape := ⟨1, ![4096]⟩
abbrev S12288x4096 : Shape := ⟨2, ![12288, 4096]⟩
abbrev S12288 : Shape := ⟨1, ![12288]⟩
abbrev S_ : Shape := ⟨0, ![]⟩

class Facts : Prop where
  bcast_S_S1x1x4096 : S_.BroadcastsInDim S1x1x4096 (![] : Fin 0 → Fin S1x1x4096.rank)
  reducesTo_S1x1x4096_S_d0_1_2 : S1x1x4096.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S15x4096 : S_.BroadcastsInDim S15x4096 (![] : Fin 0 → Fin S15x4096.rank)
  reducesTo_S15x4096_S_d0_1 : S15x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S15x8192 : S_.BroadcastsInDim S15x8192 (![] : Fin 0 → Fin S15x8192.rank)
  reducesTo_S15x8192_S_d0_1 : S15x8192.ReducesTo [0, 1] S_
  bcast_S_S15 : S_.BroadcastsInDim S15 (![] : Fin 0 → Fin S15.rank)
  reducesTo_S15_S_d0 : S15.ReducesTo [0] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S12288 .f32) (main_arg13 : FVec F S4096x4096 .f32) (main_arg14 : FVec F S4096 .f32) (main_v48 : IVec S_ 1) (main_v49 : FVec F S12288 .f32) (main_v50 : FVec F S12288 .f32) : IVec S_ 1 :=
  let main_v51 : IVec S12288 1 := cmpf .olt main_v49 main_v50
  let main_c_19 : IVec S_ 1 := constantI S_ 1 1#1
  let main_v52 : IVec S_ 1 := (fun x v => Host.reduce IntOp.andi x v reducesTo_S12288_S_d0 h_S_) main_v51 main_c_19
  let main_v53 : IVec S_ 1 := andi main_v48 main_v52
  let main_v54 : FVec F S12288 .f32 := Host.absf main_arg12
  let main_cst_20 : FVec F S_ .f32 := constant S_ .f32 0x7F800000#32
  let main_v55 : FVec F S12288 .f32 := broadcastInDim S12288 ![] bcast_S_S12288 main_cst_20
  let main_v56 : IVec S12288 1 := cmpf .olt main_v54 main_v55
  let main_c_21 : IVec S_ 1 := constantI S_ 1 1#1
  let main_v57 : IVec S_ 1 := (fun x v => Host.reduce IntOp.andi x v reducesTo_S12288_S_d0 h_S_) main_v56 main_c_21
  let main_v58 : IVec S_ 1 := andi main_v53 main_v57
  let main_v59 : FVec F S4096x4096 .f32 := Host.absf main_arg13
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096 .f32 := Host.absf main_arg14
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg8 : FVec F S4096 .f32) (main_arg9 : FVec F S12288x4096 .f32) (main_arg10 : FVec F S12288x4096 .f32) (main_arg11 : FVec F S12288 .f32) (main_arg12 : FVec F S12288 .f32) (main_arg13 : FVec F S4096x4096 .f32) (main_arg14 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S12288x4096 .f32 := Host.absf main_arg9
  let main_cst_14 : FVec F S_ .f32 := constant S_ .f32 0x7F800000#32
  let main_v40 : FVec F S12288x4096 .f32 := broadcastInDim S12288x4096 ![] bcast_S_S12288x4096 main_cst_14
  let main_v41 : IVec S12288x4096 1 := cmpf .olt main_v39 main_v40
  let main_c_15 : IVec S_ 1 := constantI S_ 1 1#1
  let main_v42 : IVec S_ 1 := (fun x v => Host.reduce IntOp.andi x v reducesTo_S12288x4096_S_d0_1 h_S_) main_v41 main_c_15
  let main_v43 : IVec S_ 1 := andi main_v38 main_v42
  let main_v44 : FVec F S12288x4096 .f32 := Host.absf main_arg10
  let main_cst_16 : FVec F S_ .f32 := constant S_ .f32 0x7F800000#32
  let main_v45 : FVec F S12288x4096 .f32 := broadcastInDim S12288x4096 ![] bcast_S_S12288x4096 main_cst_16
  let main_v46 : IVec S12288x4096 1 := cmpf .olt main_v44 main_v45
  let main_c_17 : IVec S_ 1 := constantI S_ 1 1#1
  let main_v47 : IVec S_ 1 := (fun x v => Host.reduce IntOp.andi x v reducesTo_S12288x4096_S_d0_1 h_S_) main_v46 main_c_17
  let main_v48 : IVec S_ 1 := andi main_v43 main_v47
  let main_v49 : FVec F S12288 .f32 := Host.absf main_arg11
  let main_cst_18 : FVec F S_ .f32 := constant S_ .f32 0x7F800000#32
  let main_v50 : FVec F S12288 .f32 := broadcastInDim S12288 ![] bcast_S_S12288 main_cst_18
  fn_part3 (F := F) main_arg12 main_arg13 main_arg14 main_v48 main_v49 main_v50

def fn_part1 {F : FTy → Type} [FloatOps F] (main_arg5 : FVec F S15x8192 .f32) (main_arg6 : FVec F S15 .f32) (main_arg7 : FVec F S4096x8192 .f32) (main_arg8 : FVec F S4096 .f32) (main_arg9 : FVec F S12288x4096 .f32) (main_arg10 : FVec F S12288x4096 .f32) (main_arg11 : FVec F S12288 .f32) (main_arg12 : FVec F S12288 .f32) (main_arg13 : FVec F S4096x4096 .f32) (main_arg14 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S15x8192 .f32 := Host.absf main_arg5
  let main_cst_6 : FVec F S_ .f32 := constant S_ .f32 0x7F800000#32
  let main_v20 : FVec F S15x8192 .f32 := broadcastInDim S15x8192 ![] bcast_S_S15x8192 main_cst_6
  let main_v21 : IVec S15x8192 1 := cmpf .olt main_v19 main_v20
  let main_c_7 : IVec S_ 1 := constantI S_ 1 1#1
  let main_v22 : IVec S_ 1 := (fun x v => Host.reduce IntOp.andi x v reducesTo_S15x8192_S_d0_1 h_S_) main_v21 main_c_7
  let main_v23 : IVec S_ 1 := andi main_v18 main_v22
  let main_v24 : FVec F S15 .f32 := Host.absf main_arg6
  let main_cst_8 : FVec F S_ .f32 := constant S_ .f32 0x7F800000#32
  let main_v25 : FVec F S15 .f32 := broadcastInDim S15 ![] bcast_S_S15 main_cst_8
  let main_v26 : IVec S15 1 := cmpf .olt main_v24 main_v25
  let main_c_9 : IVec S_ 1 := constantI S_ 1 1#1
  let main_v27 : IVec S_ 1 := (fun x v => Host.reduce IntOp.andi x v reducesTo_S15_S_d0 h_S_) main_v26 main_c_9
  let main_v28 : IVec S_ 1 := andi main_v23 main_v27
  let main_v29 : FVec F S4096x8192 .f32 := Host.absf main_arg7
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S1 32) (main_arg1 : FVec F S1x1x4096 .f32) (main_arg2 : FVec F S1x4096 .f32) (main_arg3 : FVec F S15x4096 .f32) (main_arg4 : FVec F S4096x4096 .f32) (main_arg5 : FVec F S15x8192 .f32) (main_arg6 : FVec F S15 .f32) (main_arg7 : FVec F S4096x8192 .f32) (main_arg8 : FVec F S4096 .f32) (main_arg9 : FVec F S12288x4096 .f32) (main_arg10 : FVec F S12288x4096 .f32) (main_arg11 : FVec F S12288 .f32) (main_arg12 : FVec F S12288 .f32) (main_arg13 : FVec F S4096x4096 .f32) (main_arg14 : FVec F S4096 .f32) : IVec S_ 1 :=
  let main_v0 : FVec F S1x1x4096 .f32 := Host.absf main_arg1
  let main_cst : FVec F S_ .f32 := constant S_ .f32 0x7F800000#32
  let main_v1 : FVec F S1x1x4096 .f32 := broadcastInDim S1x1x4096 ![] bcast_S_S1x1x4096 main_cst
  let main_v2 : IVec S1x1x4096 1 := cmpf .olt main_v0 main_v1
  let main_c : IVec S_ 1 := constantI S_ 1 1#1
  let main_v3 : IVec S_ 1 := (fun x v => Host.reduce IntOp.andi x v reducesTo_S1x1x4096_S_d0_1_2 h_S_) main_v2 main_c
  let main_v4 : FVec F S1x4096 .f32 := Host.absf main_arg2
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S15x4096 .f32 := Host.absf main_arg3
  let main_cst_2 : FVec F S_ .f32 := constant S_ .f32 0x7F800000#32
  let main_v10 : FVec F S15x4096 .f32 := broadcastInDim S15x4096 ![] bcast_S_S15x4096 main_cst_2
  let main_v11 : IVec S15x4096 1 := cmpf .olt main_v9 main_v10
  let main_c_3 : IVec S_ 1 := constantI S_ 1 1#1
  let main_v12 : IVec S_ 1 := (fun x v => Host.reduce IntOp.andi x v reducesTo_S15x4096_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_arg6 main_arg7 main_arg8 main_arg9 main_arg10 main_arg11 main_arg12 main_arg13 main_arg14 main_v13 main_v16
-- ==== Kernel.lean ====
abbrev S1 : Shape := ⟨1, ![1]⟩
abbrev S1x1x4096 : Shape := ⟨3, ![1, 1, 4096]⟩
abbrev S1x4096 : Shape := ⟨2, ![1, 4096]⟩
abbrev S15x4096 : Shape := ⟨2, ![15, 4096]⟩
abbrev S4096x4096 : Shape := ⟨2, ![4096, 4096]⟩
abbrev S15x8192 : Shape := ⟨2, ![15, 8192]⟩
abbrev S15 : Shape := ⟨1, ![15]⟩
abbrev S4096x8192 : Shape := ⟨2, ![4096, 8192]⟩
abbrev S4096 : Shape := ⟨1, ![4096]⟩
abbrev S12288x4096 : Shape := ⟨2, ![12288, 4096]⟩
abbrev S12288 : Shape := ⟨1, ![12288]⟩
abbrev S1x12288 : Shape := ⟨2, ![1, 12288]⟩
abbrev S1024x4096 : Shape := ⟨2, ![1024, 4096]⟩
abbrev S1x1024 : Shape := ⟨2, ![1, 1024]⟩
abbrev S_ : Shape := ⟨0, ![]⟩
abbrev S1x8192 : Shape := ⟨2, ![1, 8192]⟩
abbrev S8192x15 : Shape := ⟨2, ![8192, 15]⟩
abbrev S1x15 : Shape := ⟨2, ![1, 15]⟩
abbrev S1x1 : Shape := ⟨2, ![1, 1]⟩

abbrev nBuf : Space → Nat
  | .hbm => 70
  | .vmem => 37
  | .smem => 0
  | _ => 0

abbrev bufTy : (tb : Table) → Fin (tcTables nBuf tb) → BufTy
  | .hbm, ⟨0, _⟩ => ⟨S1, .i32⟩
  | .hbm, ⟨1, _⟩ => ⟨S1x1x4096, .f32⟩
  | .hbm, ⟨2, _⟩ => ⟨S1x4096, .f32⟩
  | .hbm, ⟨3, _⟩ => ⟨S15x4096, .f32⟩
  | .hbm, ⟨4, _⟩ => ⟨S4096x4096, .f32⟩
  | .hbm, ⟨5, _⟩ => ⟨S15x8192, .f32⟩
  | .hbm, ⟨6, _⟩ => ⟨S15, .f32⟩
  | .hbm, ⟨7, _⟩ => ⟨S4096x8192, .f32⟩
  | .hbm, ⟨8, _⟩ => ⟨S4096, .f32⟩
  | .hbm, ⟨9, _⟩ => ⟨S12288x4096, .f32⟩
  | .hbm, ⟨10, _⟩ => ⟨S12288x4096, .f32⟩
  | .hbm, ⟨11, _⟩ => ⟨S12288, .f32⟩
  | .hbm, ⟨12, _⟩ => ⟨S12288, .f32⟩
  | .hbm, ⟨13, _⟩ => ⟨S4096x4096, .f32⟩
  | .hbm, ⟨14, _⟩ => ⟨S4096, .f32⟩
  | .hbm, ⟨15, _⟩ => ⟨S1x4096, .f32⟩
  | .hbm, ⟨16, _⟩ => ⟨S1x12288, .f32⟩
  | .hbm, ⟨17, _⟩ => ⟨S1x12288, .f32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x4096, .f32⟩
  | .hbm, ⟨26, _⟩ => ⟨S1x8192, .f32⟩
  | .hbm, ⟨27, _⟩ => ⟨S8192x15, .f32⟩
  | .hbm, ⟨28, _⟩ => ⟨S1x15, .f32⟩
  | .hbm, ⟨29, _⟩ => ⟨S1x15, .f32⟩
  | .hbm, ⟨30, _⟩ => ⟨S1x15, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x15, .f32⟩
  | .hbm, ⟨38, _⟩ => ⟨S1x15, .f32⟩
  | .hbm, ⟨39, _⟩ => ⟨S1x15, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x15, .f32⟩
  | .hbm, ⟨44, _⟩ => ⟨S1x15, .f32⟩
  | .hbm, ⟨45, _⟩ => ⟨S1x4096, .f32⟩
  | .hbm, ⟨46, _⟩ => ⟨S1x8192, .f32⟩
  | .hbm, ⟨47, _⟩ => ⟨S1x4096, .f32⟩
  | .hbm, ⟨48, _⟩ => ⟨S1x4096, .f32⟩
  | .hbm, ⟨49, _⟩ => ⟨S1x12288, .f32⟩
  | .hbm, ⟨50, _⟩ => ⟨S1x12288, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S_, .f32⟩
  | .hbm, ⟨64, _⟩ => ⟨S1, .f32⟩
  | .hbm, ⟨65, _⟩ => ⟨S1x1, .f32⟩
  | .hbm, ⟨66, _⟩ => ⟨S1x1, .f32⟩
  | .hbm, ⟨67, _⟩ => ⟨S1x4096, .f32⟩
  | .hbm, ⟨68, _⟩ => ⟨S1x4096, .f32⟩
  | .hbm, ⟨69, _⟩ => ⟨S1x1x4096, .f32⟩
  | .local _ .vmem, ⟨0, _⟩ => ⟨S1x4096, .f32⟩
  | .local _ .vmem, ⟨1, _⟩ => ⟨S1024x4096, .f32⟩
  | .local _ .vmem, ⟨2, _⟩ => ⟨S1024x4096, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x4096, .f32⟩
  | .local _ .vmem, ⟨9, _⟩ => ⟨S1x4096, .f32⟩
  | .local _ .vmem, ⟨10, _⟩ => ⟨S1024x4096, .f32⟩
  | .local _ .vmem, ⟨11, _⟩ => ⟨S1024x4096, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x4096, .f32⟩
  | .local _ .vmem, ⟨18, _⟩ => ⟨S1024x4096, .f32⟩
  | .local _ .vmem, ⟨19, _⟩ => ⟨S1024x4096, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x12288, .f32⟩
  | .local _ .vmem, ⟨26, _⟩ => ⟨S1x12288, .f32⟩
  | .local _ .vmem, ⟨27, _⟩ => ⟨S1x4096, .f32⟩
  | .local _ .vmem, ⟨28, _⟩ => ⟨S1x4096, .f32⟩
  | .local _ .vmem, ⟨29, _⟩ => ⟨S1x4096, .f32⟩
  | .local _ .vmem, ⟨30, _⟩ => ⟨S1024x4096, .f32⟩
  | .local _ .vmem, ⟨31, _⟩ => ⟨S1024x4096, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call0_cst : Ref sig .tc := ⟨.hbm, 54, rfl⟩
abbrev main_call0_v0 : Ref sig .tc := ⟨.hbm, 55, rfl⟩
abbrev main_call0_cst_0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_cst_1 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_v33 : Ref sig .tc := ⟨.hbm, 68, rfl⟩
abbrev main_v34 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc4_sem0_0 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32

abbrev nD : Nat := 1
abbrev τ : Topo := Topo.v7x

variable {F : FTy → Type} [FloatOps F]

abbrev grid0 : Pipeline.Grid := ⟨2, ![12, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![12, 1], ![false, false]⟩

def k2_cond2 (i : grid2.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S1024x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x12288 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x12288 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨2, ![4, 1], ![false, false]⟩

def k4_cond2 (i : grid4.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 1 → Memref sig .tc .vmem S1x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 2 → Memref sig .tc .vmem S1024x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  shapeCasts_S1x1x4096_S1x4096 : S1x1x4096.ShapeCasts S1x4096
  shapeCasts_S12288_S1x12288 : S12288.ShapeCasts S1x12288
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x4096_S1024x4096_0_0 : ∀ a, (![0, 0] : Fin 2 → Nat) a + S1024x4096.size a ≤ S1024x4096.size a
  h_S1024x4096 : 0 < S1024x4096.numel
  shapeCasts_S1_S_ : S1.ShapeCasts S_
  sliceFits_S4096x4096_S1x4096 : S4096x4096.Slices (fun _ => 0) S1x4096
  h_S_ : 0 < S_.numel
  concatenates_S1x4096_S1x4096_S1x8192_d1 : Shape.Concatenates [S1x4096, S1x4096] S1x8192 1
  transposes_S15x8192_S8192x15_1_0 : S15x8192.Transposes [1, 0] S8192x15
  bcast_S15_S1x15_1 : S15.BroadcastsInDim S1x15 (![1] : Fin 1 → Fin S1x15.rank)
  reducesTo_S1x15_S1_d1 : S1x15.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x15_0_1 : S1x1.BroadcastsInDim S1x15 (![0, 1] : Fin 2 → Fin S1x15.rank)
  shapeCasts_S4096_S1x4096 : S4096.ShapeCasts S1x4096
  inb_S1x12288_S1x12288_0_0 : ∀ a, (![0, 0] : Fin 2 → Nat) a + S1x12288.size a ≤ S1x12288.size a
  h_S1x12288 : 0 < S1x12288.numel
  shapeCasts_S1x12288_S1x12288 : S1x12288.ShapeCasts S1x12288
  slices_S1x12288_o0_0_S1x4096 : S1x12288.Slices ![0, 0] S1x4096
  slices_S1x12288_o0_4096_S1x4096 : S1x12288.Slices ![0, 4096] S1x4096
  slices_S1x12288_o0_8192_S1x4096 : S1x12288.Slices ![0, 8192] S1x4096
  reducesTo_S1x4096_S1_d1 : S1x4096.ReducesTo [1] S1
  bcast_S1x1_S1x4096_0_1 : S1x1.BroadcastsInDim S1x4096 (![0, 1] : Fin 2 → Fin S1x4096.rank)
  bcast_S1x4096_S1x1x4096_1_2 : S1x4096.BroadcastsInDim S1x1x4096 (![1, 2] : Fin 2 → Fin S1x1x4096.rank)
  dot_S1x4096_S1024x4096_S1x1024_1_1_0_0_n_n_wf : DotDims.WF S1x4096 S1024x4096 S1x1024 [1] [1] [0] [0] [] []
  dot_S1x8192_S8192x15_S1x15_1_0_0_1_n_n_wf : DotDims.WF S1x8192 S8192x15 S1x15 [1] [0] [0] [1] [] []
  dot_S1x15_S15x4096_S1x4096_1_0_0_1_n_n_wf : DotDims.WF S1x15 S15x4096 S1x4096 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S12288x4096.size a
  hwx0_1 : ∀ i : grid0.Coords, EltTy.bits .f32 = 32 ∨ (Rect.block (s := S12288x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x12288.size a
  hwx0_2 : ∀ i : grid0.Coords, EltTy.bits .f32 = 32 ∨ (Rect.block (s := S1x12288) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x12288.size a
  hwx0_3 : ∀ i : grid0.Coords, EltTy.bits .f32 = 32 ∨ (Rect.block (s := S1x12288) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x8192.size a
  hwx1_0 : ∀ i : grid1.Coords, EltTy.bits .f32 = 32 ∨ (Rect.block (s := S1x8192) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x8192.size a
  hwx1_1 : ∀ i : grid1.Coords, EltTy.bits .f32 = 32 ∨ (Rect.block (s := S4096x8192) S1024x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S12288x4096.size a
  hwx2_1 : ∀ i : grid2.Coords, EltTy.bits .f32 = 32 ∨ (Rect.block (s := S12288x4096) S1024x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x12288.size a
  hwx2_2 : ∀ i : grid2.Coords, EltTy.bits .f32 = 32 ∨ (Rect.block (s := S1x12288) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x12288.size a
  hwx2_3 : ∀ i : grid2.Coords, EltTy.bits .f32 = 32 ∨ (Rect.block (s := S1x12288) S1x1024.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x12288.size a ≤ S1x12288.size a
  hwx3_0 : ∀ i : grid3.Coords, EltTy.bits .f32 = 32 ∨ (Rect.block (s := S1x12288) S1x12288.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x12288.size a ≤ S1x12288.size a
  hwx3_1 : ∀ i : grid3.Coords, EltTy.bits .f32 = 32 ∨ (Rect.block (s := S1x12288) S1x12288.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4096.size a ≤ S1x4096.size a
  hwx3_3 : ∀ i : grid3.Coords, EltTy.bits .f32 = 32 ∨ (Rect.block (s := S1x4096) S1x4096.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x4096.size a
  hwx4_0 : ∀ i : grid4.Coords, EltTy.bits .f32 = 32 ∨ (Rect.block (s := S1x4096) S1x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x4096.size a ≤ S4096x4096.size a
  hwx4_1 : ∀ i : grid4.Coords, EltTy.bits .f32 = 32 ∨ (Rect.block (s := S4096x4096) S1024x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x4096.size a
  hwx4_3 : ∀ i : grid4.Coords, EltTy.bits .f32 = 32 ∨ (Rect.block (s := S1x4096) S1x1024.size (cc4_transform_3 i) (hinb4_3 i)).WholeWords (EltTy.packing .f32)

variable [Facts₀]

def dot_S1x4096_S1024x4096_S1x1024_1_1_0_0_n_n : DotDims S1x4096 S1024x4096 S1x1024 where
  lhsContracting := [1]
  rhsContracting := [1]
  lhsNonContracting := [0]
  rhsNonContracting := [0]
  lhsBatch := []
  rhsBatch := []
  wf := dot_S1x4096_S1024x4096_S1x1024_1_1_0_0_n_n_wf
def dot_S1x8192_S8192x15_S1x15_1_0_0_1_n_n : DotDims S1x8192 S8192x15 S1x15 where
  lhsContracting := [1]
  rhsContracting := [0]
  lhsNonContracting := [0]
  rhsNonContracting := [1]
  lhsBatch := []
  rhsBatch := []
  wf := dot_S1x8192_S8192x15_S1x15_1_0_0_1_n_n_wf
def dot_S1x15_S15x4096_S1x4096_1_0_0_1_n_n : DotDims S1x15 S15x4096 S1x4096 where
  lhsContracting := [1]
  rhsContracting := [0]
  lhsNonContracting := [0]
  rhsNonContracting := [1]
  lhsBatch := []
  rhsBatch := []
  wf := dot_S1x15_S15x4096_S1x4096_1_0_0_1_n_n_wf

abbrev win0_0 : Pipeline.Window sig grid0 :=
  Pipeline.Window.ofSpec (Memref.whole main_v0) S1x4096.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v25) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v27) S1x4096.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v29) S1x12288.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1x12288.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x4096.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v30) S1x4096.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S1024x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S1 : Shape := ⟨1, ![1]⟩
abbrev S1x1x4096 : Shape := ⟨3, ![1, 1, 4096]⟩
abbrev S1x4096 : Shape := ⟨2, ![1, 4096]⟩
abbrev S15x4096 : Shape := ⟨2, ![15, 4096]⟩
abbrev S4096x4096 : Shape := ⟨2, ![4096, 4096]⟩
abbrev S15x8192 : Shape := ⟨2, ![15, 8192]⟩
abbrev S15 : Shape := ⟨1, ![15]⟩
abbrev S4096x8192 : Shape := ⟨2, ![4096, 8192]⟩
abbrev S4096 : Shape := ⟨1, ![4096]⟩
abbrev S12288x4096 : Shape := ⟨2, ![12288, 4096]⟩
abbrev S12288 : Shape := ⟨1, ![12288]⟩
abbrev S_ : Shape := ⟨0, ![]⟩
abbrev S1x8192 : Shape := ⟨2, ![1, 8192]⟩
abbrev S8192x15 : Shape := ⟨2, ![8192, 15]⟩
abbrev S1x15 : Shape := ⟨2, ![1, 15]⟩
abbrev S1x1 : Shape := ⟨2, ![1, 1]⟩
abbrev S8192x4096 : Shape := ⟨2, ![8192, 4096]⟩
abbrev S4096x12288 : Shape := ⟨2, ![4096, 12288]⟩
abbrev S1x12288 : Shape := ⟨2, ![1, 12288]⟩

abbrev nBuf : Space → Nat
  | .hbm => 122
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x4096, .f32⟩
  | .hbm, ⟨2, _⟩ => ⟨S1x4096, .f32⟩
  | .hbm, ⟨3, _⟩ => ⟨S15x4096, .f32⟩
  | .hbm, ⟨4, _⟩ => ⟨S4096x4096, .f32⟩
  | .hbm, ⟨5, _⟩ => ⟨S15x8192, .f32⟩
  | .hbm, ⟨6, _⟩ => ⟨S15, .f32⟩
  | .hbm, ⟨7, _⟩ => ⟨S4096x8192, .f32⟩
  | .hbm, ⟨8, _⟩ => ⟨S4096, .f32⟩
  | .hbm, ⟨9, _⟩ => ⟨S12288x4096, .f32⟩
  | .hbm, ⟨10, _⟩ => ⟨S12288x4096, .f32⟩
  | .hbm, ⟨11, _⟩ => ⟨S12288, .f32⟩
  | .hbm, ⟨12, _⟩ => ⟨S12288, .f32⟩
  | .hbm, ⟨13, _⟩ => ⟨S4096x4096, .f32⟩
  | .hbm, ⟨14, _⟩ => ⟨S4096, .f32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x4096, .f32⟩
  | .hbm, ⟨30, _⟩ => ⟨S4096, .f32⟩
  | .hbm, ⟨31, _⟩ => ⟨S1x4096, .f32⟩
  | .hbm, ⟨32, _⟩ => ⟨S1x4096, .f32⟩
  | .hbm, ⟨33, _⟩ => ⟨S1x8192, .f32⟩
  | .hbm, ⟨34, _⟩ => ⟨S8192x15, .f32⟩
  | .hbm, ⟨35, _⟩ => ⟨S1x15, .f32⟩
  | .hbm, ⟨36, _⟩ => ⟨S1x15, .f32⟩
  | .hbm, ⟨37, _⟩ => ⟨S1x15, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1x1, .f32⟩
  | .hbm, ⟨44, _⟩ => ⟨S1x15, .f32⟩
  | .hbm, ⟨45, _⟩ => ⟨S1x15, .f32⟩
  | .hbm, ⟨46, _⟩ => ⟨S1x15, .f32⟩
  | .hbm, ⟨47, _⟩ => ⟨S_, .f32⟩
  | .hbm, ⟨48, _⟩ => ⟨S1, .f32⟩
  | .hbm, ⟨49, _⟩ => ⟨S1x1, .f32⟩
  | .hbm, ⟨50, _⟩ => ⟨S1x15, .f32⟩
  | .hbm, ⟨51, _⟩ => ⟨S1x15, .f32⟩
  | .hbm, ⟨52, _⟩ => ⟨S1x4096, .f32⟩
  | .hbm, ⟨53, _⟩ => ⟨S1x8192, .f32⟩
  | .hbm, ⟨54, _⟩ => ⟨S8192x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S4096x12288, .f32⟩
  | .hbm, ⟨62, _⟩ => ⟨S1x12288, .f32⟩
  | .hbm, ⟨63, _⟩ => ⟨S1x12288, .f32⟩
  | .hbm, ⟨64, _⟩ => ⟨S1x12288, .f32⟩
  | .hbm, ⟨65, _⟩ => ⟨S4096x12288, .f32⟩
  | .hbm, ⟨66, _⟩ => ⟨S1x12288, .f32⟩
  | .hbm, ⟨67, _⟩ => ⟨S1x12288, .f32⟩
  | .hbm, ⟨68, _⟩ => ⟨S1x12288, .f32⟩
  | .hbm, ⟨69, _⟩ => ⟨S1x4096, .f32⟩
  | .hbm, ⟨70, _⟩ => ⟨S1x4096, .f32⟩
  | .hbm, ⟨71, _⟩ => ⟨S1x4096, .f32⟩
  | .hbm, ⟨72, _⟩ => ⟨S1x4096, .f32⟩
  | .hbm, ⟨73, _⟩ => ⟨S1x4096, .f32⟩
  | .hbm, ⟨74, _⟩ => ⟨S1x4096, .f32⟩
  | .hbm, ⟨75, _⟩ => ⟨S1x4096, .f32⟩
  | .hbm, ⟨76, _⟩ => ⟨S1x4096, .f32⟩
  | .hbm, ⟨77, _⟩ => ⟨S1x4096, .f32⟩
  | .hbm, ⟨78, _⟩ => ⟨S_, .f32⟩
  | .hbm, ⟨79, _⟩ => ⟨S1x4096, .f32⟩
  | .hbm, ⟨80, _⟩ => ⟨S1x4096, .f32⟩
  | .hbm, ⟨81, _⟩ => ⟨S_, .f32⟩
  | .hbm, ⟨82, _⟩ => ⟨S1x4096, .f32⟩
  | .hbm, ⟨83, _⟩ => ⟨S1x4096, .f32⟩
  | .hbm, ⟨84, _⟩ => ⟨S1x4096, .f32⟩
  | .hbm, ⟨85, _⟩ => ⟨S1x4096, .f32⟩
  | .hbm, ⟨86, _⟩ => ⟨S1x4096, .f32⟩
  | .hbm, ⟨87, _⟩ => ⟨S_, .f32⟩
  | .hbm, ⟨88, _⟩ => ⟨S1x4096, .f32⟩
  | .hbm, ⟨89, _⟩ => ⟨S1x4096, .f32⟩
  | .hbm, ⟨90, _⟩ => ⟨S_, .f32⟩
  | .hbm, ⟨91, _⟩ => ⟨S1x4096, .f32⟩
  | .hbm, ⟨92, _⟩ => ⟨S1x4096, .f32⟩
  | .hbm, ⟨93, _⟩ => ⟨S1x4096, .f32⟩
  | .hbm, ⟨94, _⟩ => ⟨S1x4096, .f32⟩
  | .hbm, ⟨95, _⟩ => ⟨S1x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S1x4096, .f32⟩
  | .hbm, ⟨100, _⟩ => ⟨S1x4096, .f32⟩
  | .hbm, ⟨101, _⟩ => ⟨S1x4096, .f32⟩
  | .hbm, ⟨102, _⟩ => ⟨S4096x4096, .f32⟩
  | .hbm, ⟨103, _⟩ => ⟨S1x4096, .f32⟩
  | .hbm, ⟨104, _⟩ => ⟨S1x4096, .f32⟩
  | .hbm, ⟨105, _⟩ => ⟨S1x4096, .f32⟩
  | .hbm, ⟨106, _⟩ => ⟨S_, .f32⟩
  | .hbm, ⟨107, _⟩ => ⟨S1, .f32⟩
  | .hbm, ⟨108, _⟩ => ⟨S_, .f32⟩
  | .hbm, ⟨109, _⟩ => ⟨S1, .f32⟩
  | .hbm, ⟨110, _⟩ => ⟨S1, .f32⟩
  | .hbm, ⟨111, _⟩ => ⟨S1x1, .f32⟩
  | .hbm, ⟨112, _⟩ => ⟨S1x4096, .f32⟩
  | .hbm, ⟨113, _⟩ => ⟨S1x4096, .f32⟩
  | .hbm, ⟨114, _⟩ => ⟨S1x4096, .f32⟩
  | .hbm, ⟨115, _⟩ => ⟨S_, .f32⟩
  | .hbm, ⟨116, _⟩ => ⟨S1, .f32⟩
  | .hbm, ⟨117, _⟩ => ⟨S1x1, .f32⟩
  | .hbm, ⟨118, _⟩ => ⟨S1x1, .f32⟩
  | .hbm, ⟨119, _⟩ => ⟨S1x4096, .f32⟩
  | .hbm, ⟨120, _⟩ => ⟨S1x4096, .f32⟩
  | .hbm, ⟨121, _⟩ => ⟨S1x1x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_c_2 : Ref sig .tc := ⟨.hbm, 22, rfl⟩
abbrev main_v4 : Ref sig .tc := ⟨.hbm, 23, rfl⟩
abbrev main_c_3 : Ref sig .tc := ⟨.hbm, 24, rfl⟩
abbrev main_c_4 : Ref sig .tc := ⟨.hbm, 25, rfl⟩
abbrev main_v5 : Ref sig .tc := ⟨.hbm, 26, rfl⟩
abbrev main_c_5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_cst : Ref sig .tc := ⟨.hbm, 106, rfl⟩
abbrev main_call1_v0 : Ref sig .tc := ⟨.hbm, 107, rfl⟩
abbrev main_call1_cst_0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_cst_1 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_v74 : Ref sig .tc := ⟨.hbm, 120, rfl⟩
abbrev main_v75 : Ref sig .tc := ⟨.hbm, 121, rfl⟩

abbrev nD : Nat := 1
abbrev τ : Topo := Topo.v7x

variable {F : FTy → Type} [FloatOps F]

class Facts₀ : Prop where
  shapeCasts_S1_S_ : S1.ShapeCasts S_
  sliceFits_S4096x4096_S1x4096 : S4096x4096.Slices (fun _ => 0) S1x4096
  h_S_ : 0 < S_.numel
  shapeCasts_S1x4096_S4096 : S1x4096.ShapeCasts S4096
  bcast_S4096_S1x4096_1 : S4096.BroadcastsInDim S1x4096 (![1] : Fin 1 → Fin S1x4096.rank)
  shapeCasts_S1x1x4096_S1x4096 : S1x1x4096.ShapeCasts S1x4096
  concatenates_S1x4096_S1x4096_S1x8192_d1 : Shape.Concatenates [S1x4096, S1x4096] S1x8192 1
  transposes_S15x8192_S8192x15_1_0 : S15x8192.Transposes [1, 0] S8192x15
  bcast_S15_S1x15_1 : S15.BroadcastsInDim S1x15 (![1] : Fin 1 → Fin S1x15.rank)
  reducesTo_S1x15_S1_d1 : S1x15.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x15_0_1 : S1x1.BroadcastsInDim S1x15 (![0, 1] : Fin 2 → Fin S1x15.rank)
  transposes_S4096x8192_S8192x4096_1_0 : S4096x8192.Transposes [1, 0] S8192x4096
  bcast_S_S1x4096 : S_.BroadcastsInDim S1x4096 (![] : Fin 0 → Fin S1x4096.rank)
  transposes_S12288x4096_S4096x12288_1_0 : S12288x4096.Transposes [1, 0] S4096x12288
  bcast_S12288_S1x12288_1 : S12288.BroadcastsInDim S1x12288 (![1] : Fin 1 → Fin S1x12288.rank)
  slices_S1x12288_S1x4096_0_0 : S1x12288.Slices ![0, 0] S1x4096
  slices_S1x12288_S1x4096_0_4096 : S1x12288.Slices ![0, 4096] S1x4096
  slices_S1x12288_S1x4096_0_8192 : S1x12288.Slices ![0, 8192] S1x4096
  transposes_S4096x4096_S4096x4096_1_0 : S4096x4096.Transposes [1, 0] S4096x4096
  reducesTo_S1x4096_S1_d1 : S1x4096.ReducesTo [1] S1
  bcast_S1x1_S1x4096_0_1 : S1x1.BroadcastsInDim S1x4096 (![0, 1] : Fin 2 → Fin S1x4096.rank)
  bcast_S1x4096_S1x1x4096_1_2 : S1x4096.BroadcastsInDim S1x1x4096 (![1, 2] : Fin 2 → Fin S1x1x4096.rank)
  dot_S1x8192_S8192x15_S1x15_1_0_0_1_n_n_wf : DotDims.WF S1x8192 S8192x15 S1x15 [1] [0] [0] [1] [] []
  dot_S1x15_S15x4096_S1x4096_1_0_0_1_n_n_wf : DotDims.WF S1x15 S15x4096 S1x4096 [1] [0] [0] [1] [] []
  dot_S1x8192_S8192x4096_S1x4096_1_0_0_1_n_n_wf : DotDims.WF S1x8192 S8192x4096 S1x4096 [1] [0] [0] [1] [] []
  dot_S1x4096_S4096x12288_S1x12288_1_0_0_1_n_n_wf : DotDims.WF S1x4096 S4096x12288 S1x12288 [1] [0] [0] [1] [] []
  dot_S1x4096_S4096x4096_S1x4096_1_0_0_1_n_n_wf : DotDims.WF S1x4096 S4096x4096 S1x4096 [1] [0] [0] [1] [] []

variable [Facts₀]

def dot_S1x8192_S8192x15_S1x15_1_0_0_1_n_n : DotDims S1x8192 S8192x15 S1x15 where
  lhsContracting := [1]
  rhsContracting := [0]
  lhsNonContracting := [0]
  rhsNonContracting := [1]
  lhsBatch := []
  rhsBatch := []
  wf := dot_S1x8192_S8192x15_S1x15_1_0_0_1_n_n_wf
def dot_S1x15_S15x4096_S1x4096_1_0_0_1_n_n : DotDims S1x15 S15x4096 S1x4096 where
  lhsContracting := [1]
  rhsContracting := [0]
  lhsNonContracting := [0]
  rhsNonContracting := [1]
  lhsBatch := []
  rhsBatch := []
  wf := dot_S1x15_S15x4096_S1x4096_1_0_0_1_n_n_wf
def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf
def dot_S1x4096_S4096x12288_S1x12288_1_0_0_1_n_n : DotDims S1x4096 S4096x12288 S1x12288 where
  lhsContracting := [1]
  rhsContracting := [0]
  lhsNonContracting := [0]
  rhsNonContracting := [1]
  lhsBatch := []
  rhsBatch := []
  wf := dot_S1x4096_S4096x12288_S1x12288_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.Kernel.Region0.lean ====
/-
  Region 0 of @main: one call of the tiled matrix–vector kernel whose contraction fits ONE K-tile, so that the grid's
  second coordinate is always 0 and both of the body's conditionals hold at every point: the VMEM accumulator is reset to
  zero, receives the product of the row block x[0, :] with the weight block W[n·1024 … (n+1)·1024, :] (contracted along the
  4096 columns), and is added to the bias block and stored into the output block, all within the point. Nothing is
  carried from one point to the next: the accumulator is overwritten before it is read, so the invariant between points
  is the region's scoped buffers at SOME contents.

  What the output block holds after a point is read back from the stores the body's run performs (its pieces), over
  the three input blocks of the point; the input windows' staging buffers hold their blocks at every point, fetched
  there or not (window 0's block index never moves, so it is fetched once).
-/
import proofs.«101019_j40913858462225_2_alg».proof.Proof.Gen.Kernel.Launch
import proofs.«101019_j40913858462225_2_alg».proof.Proof.Gen.Kernel.Skeleton
import proofs.«101019_j40913858462225_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals: both hold at every point of this grid -/

/-- "This is the first K-tile": the grid's second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))
/-- "This is the last K-tile": the same coordinate is the last of its axis, which has extent 1. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- No window is idle at any point: the output block is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The kernel body on any staging memrefs -/

/-- One staging buffer of the output window, through which its contents are stated. -/
abbrev VO0_3 : View sig .tc .vmem S1x1024 .f32 := (Memref.whole cc0_stg3_0 : Memref sig .tc .vmem S1x1024 .f32).view
/-- Each window's current staging memref at point `t`, and its wholeness. -/
abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1x1024 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

-- (the run's proof term is large)
set_option maxHeartbeats 4000000 in
/-- The pieces the body's stores leave in the output block's staging memref and in the accumulator (last first), WITH the
    proof that on whole staging memrefs — the three inputs' at their contents, the output's and the accumulator's at
    anything — the body runs to the continuation holding the inputs' as they were and those two with their pieces
    written: both conditionals are decided by the point's hypotheses. -/
noncomputable def kernelRun0 (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__mv_kernel i arg2 harg2 arg3 harg3 arg4 harg4 arg5 harg5 arg6 harg6) K } := by
  refine ⟨?_, ?_, fun E K => ?run⟩
  case run =>
    simp only [cc0__mv_kernel_eq_skeleton]; unfold cc0__mv_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The output's pieces tile its block (one whole-block store), so they cover it. -/
theorem cover0_3 (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) (y : S1x1024.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1x1024.size (by sl_kernel_rfl) y

/-- What the body leaves in the output block's staging buffer: its pieces read back. -/
def out0_3 (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) : Vec F S1x1024 .f32 :=
  VO0_3.read (Elt F) (VO0_3.writes (Elt F) VO0_3.junk (kernelRun0 c i arg2 harg2 arg3 harg3 arg4 harg4 arg5 harg5 arg6 harg6 hc0 hc1 x0 x1 x2).1)

/-- The output block after the body at point `t`: the run at the point's memrefs and input blocks. -/
def outAt0 (c : Dev nD) (t : Fin cfg0.N) : Vec F S1x1024 .f32 :=
  out0_3 c (grid0.coords t) (ms0_0 t) (hs0_0 t) (ms0_1 t) (hs0_1 t) (ms0_2 t) (hs0_2 t) (ms0_3 t) (hs0_3 t) scM0 (Memref.isWhole_whole _)
    (hcond0_0 t) (hcond0_1 t) (iblk0 V c 0 t) (iblk0 V c 1 t) (iblk0 V c 2 t)

/-! ## The pipeline's proof data -/

/-- The arrays as the region finds them; after the body at point `t` each input's buffer at its block and the output's
    at `outAt0`; the invariant the region's scoped buffers at some contents and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the invariant hands the body the accumulator at some
    contents and takes it back at some contents; the output's buffer ends with the run's pieces written, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  unfold outAt0 out0_3; (try dsimp only)
  rw [PhiA0_eq]
  iintro ⟨⟨⟨HS0, Hrest⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  Region 1 of @main: the tiled matrix–vector kernel whose contraction over 8192 columns is cut into TWO K-tiles of 4096,
  on a grid of 4 output tiles × 2 K-tiles, the K-tile the fast coordinate: point t works on output tile t / 2 and
  K-tile t % 2.

  At an EVEN point (the first K-tile) the VMEM accumulator is reset to zero and receives the product of the row block
  x[0, 0 … 4096) with the weight block W[n-tile, 0 … 4096); the output block is not stored and not written back. At the
  ODD point that follows (the last K-tile) the accumulator — still holding what the even point left: it is carried — is
  increased by the product of x[0, 4096 … 8192) with W[n-tile, 4096 … 8192), added to the bias block, clamped below at
  zero and stored into the output block, which is then written back. So the invariant between points names the
  accumulator's contents: before the first point anything, after point t what point t's run left in it.
-/
import proofs.«101019_j40913858462225_2_alg».proof.Proof.Gen.Kernel.Launch
import proofs.«101019_j40913858462225_2_alg».proof.Proof.Gen.Kernel.Skeleton
import proofs.«101019_j40913858462225_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias window's
    block index does not move between an even point and the odd one after it, so it is fetched at even points only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, decided over the grid -/

/-- "This is the first K-tile": the grid's second coordinate is 0 — at the even points. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last K-tile": the same coordinate is 1 — at the odd points. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-- The input windows are never idle; the output window is idle, and not written back, exactly at the even points. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The kernel body on any staging memrefs -/

abbrev VO1_3 : View sig .tc .vmem S1x1024 .f32 := (Memref.whole cc1_stg3_0 : Memref sig .tc .vmem S1x1024 .f32).view
abbrev ms1_0 (t : Fin cfg1.N) : Memref sig .tc .vmem S1x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from an even point to the odd one after it. -/
abbrev scM1 : Memref sig .tc .vmem S1x1024 .f32 := Memref.whole cc1_scratch0
abbrev VS1 : View sig .tc .vmem S1x1024 .f32 := scM1.view

/-- What else of the region's scoped buffers rides along unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA; rw [scopedRest1_split]; simp only [scM1, owns_whole]; try rfl

set_option maxHeartbeats 4000000 in
/-- THE FIRST K-TILE (first conditional taken, second not): the accumulator at anything is reset and ends with its pieces
    written; the output's buffer is handed back untouched. -/
noncomputable def kernelRun1_A (c : Dev nD) (i : grid1.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__mv_kernel i arg2 harg2 arg3 harg3 arg4 harg4 arg5 harg5 arg6 harg6) K } := by
  refine ⟨[], ?_, fun xi3 E K => ?run⟩
  case run =>
    simp only [cc1__mv_kernel_eq_skeleton]; unfold cc1__mv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST K-TILE (first conditional not taken, second taken): the accumulator at what the point before left (`xs0`)
    ends with its pieces written, the output's buffer at anything ends with its pieces written. -/
noncomputable def kernelRun1_C (c : Dev nD) (i : grid1.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__mv_kernel i arg2 harg2 arg3 harg3 arg4 harg4 arg5 harg5 arg6 harg6) K } := by
  refine ⟨?_, ?_, fun E K => ?run⟩
  case run =>
    simp only [cc1__mv_kernel_eq_skeleton]; unfold cc1__mv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What the output block and the accumulator hold per case -/

/-- An even point stores nothing into the output block: a placeholder nothing consults (the window is neither written
    back there nor read at the next point). -/
def out1_A_3 (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) : Vec F S1x1024 .f32 :=
  VO1_3.read (Elt F) (VO1_3.writes (Elt F) VO1_3.junk (kernelRun1_A c i arg2 harg2 arg3 harg3 arg4 harg4 arg5 harg5 arg6 harg6 hc0 hc1 x0 x1 x2).1)
theorem scover1_A (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) (y : S1x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1024.size (by sl_kernel_rfl) y
/-- What an even point leaves in the accumulator: its pieces read back. -/
def sout1_A (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) : Vec F S1x1024 .f32 :=
  VS1.read (Elt F) (VS1.writes (Elt F) VS1.junk (kernelRun1_A c i arg2 harg2 arg3 harg3 arg4 harg4 arg5 harg5 arg6 harg6 hc0 hc1 x0 x1 x2).2.1)

theorem cover1_C_3 (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) (y : S1x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1024.size (by sl_kernel_rfl) y
/-- What an odd point leaves in the output block's staging buffer: its pieces read back. -/
def out1_C_3 (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) : Vec F S1x1024 .f32 :=
  VO1_3.read (Elt F) (VO1_3.writes (Elt F) VO1_3.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) (y : S1x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x1024.size (by sl_kernel_rfl) y
/-- What an odd point leaves in the accumulator: its pieces read back. -/
def sout1_C (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) : Vec F S1x1024 .f32 :=
  VS1.read (Elt F) (VS1.writes (Elt F) VS1.junk (kernelRun1_C c i arg2 harg2 arg3 harg3 arg4 harg4 arg5 harg5 arg6 harg6 hc0 hc1 x0 x1 x2 xs0).2.1)

/-! ## What they hold after each point -/

/-- THE ACCUMULATION, by recursion on the point: (the output block's staging buffer, the accumulator) after point `n` —
    an even point's run at its blocks; an odd point's run at its blocks and at the accumulator the point before left. -/
def outsAt1 (c : Dev nD) : (n : ℕ) → n < cfg1.N → Vec F S1x1024 .f32 × Vec F S1x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2,
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2)

/-- `outsAt1` at an even point. -/
theorem outsAt1_A (c : Dev nD) (t : Fin cfg1.N) (h0 : t.val % 2 = 0) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => (fun h => by (try dsimp only at h); omega) ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => (fun h => by (try dsimp only at h); omega) ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at an odd point: over what the point before left in the accumulator. -/
theorem outsAt1_C (c : Dev nD) (t : Fin cfg1.N) (h0 : ¬t.val % 2 = 0) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the accumulator at anything; afterwards at what the
    point before left in it; the other scoped buffers and the generator register at something throughout. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point, by the point's parity: the invariant hands the run the accumulator (at anything at the first
    point, at what the point before left otherwise) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have hA0 : cond1_0 (grid1.coords t) := (hcond1_0 t).mpr h0
    have hA1 : ¬cond1_1 (grid1.coords t) := fun h => (fun h => by (try dsimp only at h); omega) ((hcond1_1 t).mp h)
    rw [Dat.leavesExact_idle (dat1 V c) 3 t (idleAt1_3_A t hA0 hA1) (noFlush1_3_A t hA0 hA1)]
    rw [outsAt1_A V c t h0]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ hA0 hA1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ hA0 hA1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hC0 : ¬cond1_0 (grid1.coords t) := fun h => h0 ((hcond1_0 t).mp h)
    have hC1 : cond1_1 (grid1.coords t) := (hcond1_1 t).mpr (by (try dsimp only); omega)
    rw [show (dat1 V c).leavesExact 3 t = owns (c : Thread nD τ) (ms1_3 t) fullShare ((dat1 V c).after 3 t) from by
      unfold Dat.leavesExact; rw [liveAt1_3_C t hC0 hC1], after1_3]
    rw [outsAt1_C V c t h0]
    unfold out1_C_3 sout1_C; (try dsimp only)
    have hz : t.val ≠ 0 := fun h => h0 (by rw [h])
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩⟩
    iapply ((kernelRun1_C c (grid1.coords t) _ _ _ _ _ _ _ _ _ _ hC0 hC1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Cert.Kernel.Hand

end
-- ==== Proof.Kernel.Region2.lean ====
/-
  Region 2 of @main: one call of the tiled matrix–vector kernel whose contraction fits ONE K-tile, so that the grid's
  second coordinate is always 0 and both of the body's conditionals hold at every point: the VMEM accumulator is reset to
  zero, receives the product of the row block x[0, :] with the weight block W[n·1024 … (n+1)·1024, :] (contracted along the
  4096 columns), and is added to the bias block and stored into the output block, all within the point. Nothing is
  carried from one point to the next: the accumulator is overwritten before it is read, so the invariant between points
  is the region's scoped buffers at SOME contents.

  What the output block holds after a point is read back from the stores the body's run performs (its pieces), over
  the three input blocks of the point; the input windows' staging buffers hold their blocks at every point, fetched
  there or not (window 0's block index never moves, so it is fetched once).
-/
import proofs.«101019_j40913858462225_2_alg».proof.Proof.Gen.Kernel.Launch
import proofs.«101019_j40913858462225_2_alg».proof.Proof.Gen.Kernel.Skeleton
import proofs.«101019_j40913858462225_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditionals: both hold at every point of this grid -/

/-- "This is the first K-tile": the grid's second coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) :=
  (by decide +kernel : ∀ t : Fin grid2.N, cond2_0 (grid2.coords t))
/-- "This is the last K-tile": the same coordinate is the last of its axis, which has extent 1. -/
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

/-- No window is idle at any point: the output block is stored at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The kernel body on any staging memrefs -/

/-- One staging buffer of the output window, through which its contents are stated. -/
abbrev VO2_3 : View sig .tc .vmem S1x1024 .f32 := (Memref.whole cc2_stg3_0 : Memref sig .tc .vmem S1x1024 .f32).view
/-- Each window's current staging memref at point `t`, and its wholeness. -/
abbrev ms2_0 (t : Fin cfg2.N) : Memref sig .tc .vmem S1x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1x1024 .f32 := Memref.whole cc2_scratch0

/-- The region's invariant with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- (the run's proof term is large)
set_option maxHeartbeats 4000000 in
/-- The pieces the body's stores leave in the output block's staging memref and in the accumulator (last first), WITH the
    proof that on whole staging memrefs — the three inputs' at their contents, the output's and the accumulator's at
    anything — the body runs to the continuation holding the inputs' as they were and those two with their pieces
    written: both conditionals are decided by the point's hypotheses. -/
noncomputable def kernelRun2 (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__mv_kernel i arg2 harg2 arg3 harg3 arg4 harg4 arg5 harg5 arg6 harg6) K } := by
  refine ⟨?_, ?_, fun E K => ?run⟩
  case run =>
    simp only [cc2__mv_kernel_eq_skeleton]; unfold cc2__mv_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The output's pieces tile its block (one whole-block store), so they cover it. -/
theorem cover2_3 (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) (y : S1x1024.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S1x1024.size (by sl_kernel_rfl) y

/-- What the body leaves in the output block's staging buffer: its pieces read back. -/
def out2_3 (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) : Vec F S1x1024 .f32 :=
  VO2_3.read (Elt F) (VO2_3.writes (Elt F) VO2_3.junk (kernelRun2 c i arg2 harg2 arg3 harg3 arg4 harg4 arg5 harg5 arg6 harg6 hc0 hc1 x0 x1 x2).1)

/-- The output block after the body at point `t`: the run at the point's memrefs and input blocks. -/
def outAt2 (c : Dev nD) (t : Fin cfg2.N) : Vec F S1x1024 .f32 :=
  out2_3 c (grid2.coords t) (ms2_0 t) (hs2_0 t) (ms2_1 t) (hs2_1 t) (ms2_2 t) (hs2_2 t) (ms2_3 t) (hs2_3 t) scM2 (Memref.isWhole_whole _)
    (hcond2_0 t) (hcond2_1 t) (iblk2 V c 0 t) (iblk2 V c 1 t) (iblk2 V c 2 t)

/-! ## The pipeline's proof data -/

/-- The arrays as the region finds them; after the body at point `t` each input's buffer at its block and the output's
    at `outAt2`; the invariant the region's scoped buffers at some contents and the generator register; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: the inputs' memrefs hold their blocks; the invariant hands the body the accumulator at some
    contents and takes it back at some contents; the output's buffer ends with the run's pieces written, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  unfold outAt2 out2_3; (try dsimp only)
  rw [PhiA2_eq]
  iintro ⟨⟨⟨HS0, Hrest⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Region3.lean ====
/- REGION 3 of @main, the GRU gate kernel: the class-A half of its frame, at any float instance and at any
   contents of the TensorCore's buffers when the region is entered.

   The kernel has one grid point. It loads its three whole input blocks — gi and gh, each 1 x 12288 and read as three
   consecutive 1 x 4096 thirds (reset, update, candidate), and the previous state h, 1 x 4096 —, computes
       r = logistic (gi_r + gh_r),  z = logistic (gi_z + gh_z),  n = tanh (gi_n + r * gh_n),
       h' = (1 - z) * n + z * h
   elementwise, and stores h' over the whole output block. So what the body leaves in the output window's buffer
   is the one store's payload, a function of the three input blocks alone, and the input buffers are left as read. -/
import proofs.«101019_j40913858462225_2_alg».proof.Proof.Gen.Kernel.Launch
import proofs.«101019_j40913858462225_2_alg».proof.Proof.Gen.Kernel.Skeleton
import proofs.«101019_j40913858462225_2_alg».proof.Proof.Gen.Kernel.Points
import Idealize.ShloMosaic.Lib.Pipeline.FrameBody
import Idealize.ShloMosaic.Lib.Ring
import Idealize.ShloMosaic.Lib.Tactic

-- membership in a rectangle of 4096 and 12288 lanes: the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window gi's staging buffer holds its block at every point, fetched there or not, for any proof data
    whose array is the entry contents and whose body leaves the block in place: the window is whole and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for the input window gh. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same for the input window h, the previous state. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

/-- The whole 1 x 12288 buffer (gi's and gh's loads). -/
abbrev r3_0 : Rect S1x12288 := Rect.unit (s := S1x12288) ![0, 0] S1x12288.size inb_S1x12288_S1x12288_0_0
/-- The whole 1 x 4096 buffer (h's load, and the store of the new state). -/
abbrev r3_1 : Rect S1x4096 := Rect.unit (s := S1x4096) ![0, 0] S1x4096.size inb_S1x4096_S1x4096_0_0

/-! ## What the body leaves in the output window's buffer -/

/-- The output window's staging buffer after the body, from the three input blocks: its one store, whose payload is the
    gate arithmetic h' = (1 - z) * n + z * h over what the three loads read. -/
def out3_3 (x0 x1 : Vec F S1x12288 .f32) (x2 : Vec F S1x4096 .f32) : Vec F S1x4096 .f32 :=
  View.canon [⟨r3_1, k3_pay1 (View.ld x0 r3_0) (View.ld x1 r3_0) (View.ld x2 r3_1)⟩]

/-- The one store is through the whole buffer, so it covers it. -/
theorem cover3_3 (p0 : Vec F S1x4096 .f32) (y : S1x4096.Idx) :
    ∃ pc ∈ ([⟨r3_1, p0⟩] : List (View.Piece (Elt F) S1x4096 .f32)), y ∈ pc.1.set :=
  View.cover_of_tiled [⟨r3_1, p0⟩] S1x4096.size (by rfl) y

/-! ## The body's triple -/

set_option maxHeartbeats 1000000 in
/-- The kernel body on whole staging memrefs, the three inputs' at read contents and the output's at anything, runs to
    the continuation holding the inputs' as they were and the output's at `out3_3` of the inputs'. -/
theorem sound_kernel3 (c : Dev nD) (E : Set ℕ) (i : grid3.Coords)
    (arg1 : Memref sig .tc .vmem S1x12288 .f32) (harg1 : arg1.IsWhole) (arg2 : Memref sig .tc .vmem S1x12288 .f32) (harg2 : arg2.IsWhole)
    (arg3 : Memref sig .tc .vmem S1x4096 .f32) (harg3 : arg3.IsWhole) (arg4 : Memref sig .tc .vmem S1x4096 .f32) (harg4 : arg4.IsWhole)
    (x0 : Vec F S1x12288 .f32) (x1 : Vec F S1x12288 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__gru_gate_kernel i arg1 harg1 arg2 harg2 arg3 harg3 arg4 harg4) K := by
  simp only [cc3__gru_gate_kernel_eq_skeleton]; unfold cc3__gru_gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the gate kernel's pipeline on core `c`: the arrays as the region finds them; after the body at
    point `t` each input's buffer at its block and the output's at `out3_3` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Region4.lean ====
/-
  Region 4 of @main: one call of the tiled matrix–vector kernel whose contraction fits ONE K-tile, so that the grid's
  second coordinate is always 0 and both of the body's conditionals hold at every point: the VMEM accumulator is reset to
  zero, receives the product of the row block x[0, :] with the weight block W[n·1024 … (n+1)·1024, :] (contracted along the
  4096 columns), and is added to the bias block and stored into the output block, all within the point. Nothing is
  carried from one point to the next: the accumulator is overwritten before it is read, so the invariant between points
  is the region's scoped buffers at SOME contents.

  What the output block holds after a point is read back from the stores the body's run performs (its pieces), over
  the three input blocks of the point; the input windows' staging buffers hold their blocks at every point, fetched
  there or not (window 0's block index never moves, so it is fetched once).
-/
import proofs.«101019_j40913858462225_2_alg».proof.Proof.Gen.Kernel.Launch
import proofs.«101019_j40913858462225_2_alg».proof.Proof.Gen.Kernel.Skeleton
import proofs.«101019_j40913858462225_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditionals: both hold at every point of this grid -/

/-- "This is the first K-tile": the grid's second coordinate is 0. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) :=
  (by decide +kernel : ∀ t : Fin grid4.N, cond4_0 (grid4.coords t))
/-- "This is the last K-tile": the same coordinate is the last of its axis, which has extent 1. -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- No window is idle at any point: the output block is stored at every point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-! ## The kernel body on any staging memrefs -/

/-- One staging buffer of the output window, through which its contents are stated. -/
abbrev VO4_3 : View sig .tc .vmem S1x1024 .f32 := (Memref.whole cc4_stg3_0 : Memref sig .tc .vmem S1x1024 .f32).view
/-- Each window's current staging memref at point `t`, and its wholeness. -/
abbrev ms4_0 (t : Fin cfg4.N) : Memref sig .tc .vmem S1x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024 .f32 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows. -/
abbrev scM4 : Memref sig .tc .vmem S1x1024 .f32 := Memref.whole cc4_scratch0

/-- The region's invariant with the accumulator as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- (the run's proof term is large)
set_option maxHeartbeats 4000000 in
/-- The pieces the body's stores leave in the output block's staging memref and in the accumulator (last first), WITH the
    proof that on whole staging memrefs — the three inputs' at their contents, the output's and the accumulator's at
    anything — the body runs to the continuation holding the inputs' as they were and those two with their pieces
    written: both conditionals are decided by the point's hypotheses. -/
noncomputable def kernelRun4 (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc4__mv_kernel i arg2 harg2 arg3 harg3 arg4 harg4 arg5 harg5 arg6 harg6) K } := by
  refine ⟨?_, ?_, fun E K => ?run⟩
  case run =>
    simp only [cc4__mv_kernel_eq_skeleton]; unfold cc4__mv_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The output's pieces tile its block (one whole-block store), so they cover it. -/
theorem cover4_3 (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) (y : S1x1024.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S1x1024.size (by sl_kernel_rfl) y

/-- What the body leaves in the output block's staging buffer: its pieces read back. -/
def out4_3 (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) : Vec F S1x1024 .f32 :=
  VO4_3.read (Elt F) (VO4_3.writes (Elt F) VO4_3.junk (kernelRun4 c i arg2 harg2 arg3 harg3 arg4 harg4 arg5 harg5 arg6 harg6 hc0 hc1 x0 x1 x2).1)

/-- The output block after the body at point `t`: the run at the point's memrefs and input blocks. -/
def outAt4 (c : Dev nD) (t : Fin cfg4.N) : Vec F S1x1024 .f32 :=
  out4_3 c (grid4.coords t) (ms4_0 t) (hs4_0 t) (ms4_1 t) (hs4_1 t) (ms4_2 t) (hs4_2 t) (ms4_3 t) (hs4_3 t) scM4 (Memref.isWhole_whole _)
    (hcond4_0 t) (hcond4_1 t) (iblk4 V c 0 t) (iblk4 V c 1 t) (iblk4 V c 2 t)

/-! ## The pipeline's proof data -/

/-- The arrays as the region finds them; after the body at point `t` each input's buffer at its block and the output's
    at `outAt4`; the invariant the region's scoped buffers at some contents and the generator register; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point: the inputs' memrefs hold their blocks; the invariant hands the body the accumulator at some
    contents and takes it back at some contents; the output's buffer ends with the run's pieces written, which cover it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Pipeline.ΦA spec4 c from rfl, show (dat4 V c).Φ t.castSucc = Pipeline.ΦA spec4 c from rfl]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  unfold outAt4 out4_3; (try dsimp only)
  rw [PhiA4_eq]
  iintro ⟨⟨⟨HS0, Hrest⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Run.lean ====
/-
  The run of @main: five kernel regions with host operations between them and after them.

  The contents of the TensorCore's unscoped buffers are followed from the launch through the eleven items of @main:
  a stretch of host operations maps a valuation to the operations' fold over it; a region replaces its arrays by
  what its pipeline leaves (each input's array as entered, the output's array with every point's block written back)
  and changes nothing else. Each region is entered with every unscoped buffer at the valuation before it and left with
  every unscoped buffer at the valuation after it, so the items chain, and at the end every unscoped buffer holds the
  last valuation: the three results and the fifteen arguments are read off it. No item writes an argument.
-/
import proofs.«101019_j40913858462225_2_alg».proof.Proof.Kernel.Region0
import proofs.«101019_j40913858462225_2_alg».proof.Proof.Kernel.Region1
import proofs.«101019_j40913858462225_2_alg».proof.Proof.Kernel.Region2
import proofs.«101019_j40913858462225_2_alg».proof.Proof.Kernel.Region3
import proofs.«101019_j40913858462225_2_alg».proof.Proof.Kernel.Region4
import proofs.«101019_j40913858462225_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After region 0: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes no buffer but its output's array `main_v2`: an input's array ends as entered. -/
theorem W2_keep (c : Dev nD) (r : Ref sig .tc) (h : r ≠ main_v2) :
    W2 m ρ c (Proc.devRef .tc r) = W1 m ρ c (Proc.devRef .tc r) := by
  by_cases hw : ∃ w, Pipeline.arrRef spec0 w = r
  · obtain ⟨w, rfl⟩ := hw
    have key : ∀ w : Fin cfg0.W, Pipeline.arrRef spec0 w ≠ main_v2 →
        W2 m ρ c (Proc.devRef .tc (Pipeline.arrRef spec0 w)) = W1 m ρ c (Proc.devRef .tc (Pipeline.arrRef spec0 w)) := fun
      | ⟨0, _⟩, _ => (W2_arr m ρ c 0).trans (((dat0 (V1 m ρ) c).arrAt_in 0 rfl _).trans (A_eq0 (V1 m ρ) c 0))
      | ⟨1, _⟩, _ => (W2_arr m ρ c 1).trans (((dat0 (V1 m ρ) c).arrAt_in 1 rfl _).trans (A_eq0 (V1 m ρ) c 1))
      | ⟨2, _⟩, _ => (W2_arr m ρ c 2).trans (((dat0 (V1 m ρ) c).arrAt_in 2 rfl _).trans (A_eq0 (V1 m ρ) c 2))
      | ⟨3, _⟩, h3 => absurd rfl h3
    exact key w h
  · exact W2_of_ne m ρ c r fun w e => hw ⟨w, e⟩

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After region 1: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes no buffer but its output's array `main_v27`: an input's array ends as entered. -/
theorem W4_keep (c : Dev nD) (r : Ref sig .tc) (h : r ≠ main_v27) :
    W4 m ρ c (Proc.devRef .tc r) = W3 m ρ c (Proc.devRef .tc r) := by
  by_cases hw : ∃ w, Pipeline.arrRef spec1 w = r
  · obtain ⟨w, rfl⟩ := hw
    have key : ∀ w : Fin cfg1.W, Pipeline.arrRef spec1 w ≠ main_v27 →
        W4 m ρ c (Proc.devRef .tc (Pipeline.arrRef spec1 w)) = W3 m ρ c (Proc.devRef .tc (Pipeline.arrRef spec1 w)) := fun
      | ⟨0, _⟩, _ => (W4_arr m ρ c 0).trans (((dat1 (V3 m ρ) c).arrAt_in 0 rfl _).trans (A_eq1 (V3 m ρ) c 0))
      | ⟨1, _⟩, _ => (W4_arr m ρ c 1).trans (((dat1 (V3 m ρ) c).arrAt_in 1 rfl _).trans (A_eq1 (V3 m ρ) c 1))
      | ⟨2, _⟩, _ => (W4_arr m ρ c 2).trans (((dat1 (V3 m ρ) c).arrAt_in 2 rfl _).trans (A_eq1 (V3 m ρ) c 2))
      | ⟨3, _⟩, h3 => absurd rfl h3
    exact key w h
  · exact W4_of_ne m ρ c r fun w e => hw ⟨w, e⟩

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After region 2: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes no buffer but its output's array `main_v29`: an input's array ends as entered. -/
theorem W6_keep (c : Dev nD) (r : Ref sig .tc) (h : r ≠ main_v29) :
    W6 m ρ c (Proc.devRef .tc r) = W5 m ρ c (Proc.devRef .tc r) := by
  by_cases hw : ∃ w, Pipeline.arrRef spec2 w = r
  · obtain ⟨w, rfl⟩ := hw
    have key : ∀ w : Fin cfg2.W, Pipeline.arrRef spec2 w ≠ main_v29 →
        W6 m ρ c (Proc.devRef .tc (Pipeline.arrRef spec2 w)) = W5 m ρ c (Proc.devRef .tc (Pipeline.arrRef spec2 w)) := fun
      | ⟨0, _⟩, _ => (W6_arr m ρ c 0).trans (((dat2 (V5 m ρ) c).arrAt_in 0 rfl _).trans (A_eq2 (V5 m ρ) c 0))
      | ⟨1, _⟩, _ => (W6_arr m ρ c 1).trans (((dat2 (V5 m ρ) c).arrAt_in 1 rfl _).trans (A_eq2 (V5 m ρ) c 1))
      | ⟨2, _⟩, _ => (W6_arr m ρ c 2).trans (((dat2 (V5 m ρ) c).arrAt_in 2 rfl _).trans (A_eq2 (V5 m ρ) c 2))
      | ⟨3, _⟩, h3 => absurd rfl h3
    exact key w h
  · exact W6_of_ne m ρ c r fun w e => hw ⟨w, e⟩

/-- After region 3: its arrays at what the pipeline leaves (the inputs as entered, the output's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 changes no buffer but its output's array `main_v30`: an input's array ends as entered. -/
theorem W7_keep (c : Dev nD) (r : Ref sig .tc) (h : r ≠ main_v30) :
    W7 m ρ c (Proc.devRef .tc r) = W6 m ρ c (Proc.devRef .tc r) := by
  by_cases hw : ∃ w, Pipeline.arrRef spec3 w = r
  · obtain ⟨w, rfl⟩ := hw
    have key : ∀ w : Fin cfg3.W, Pipeline.arrRef spec3 w ≠ main_v30 →
        W7 m ρ c (Proc.devRef .tc (Pipeline.arrRef spec3 w)) = W6 m ρ c (Proc.devRef .tc (Pipeline.arrRef spec3 w)) := fun
      | ⟨0, _⟩, _ => (W7_arr m ρ c 0).trans (((dat3 (V6 m ρ) c).arrAt_in 0 rfl _).trans (A_eq3 (V6 m ρ) c 0))
      | ⟨1, _⟩, _ => (W7_arr m ρ c 1).trans (((dat3 (V6 m ρ) c).arrAt_in 1 rfl _).trans (A_eq3 (V6 m ρ) c 1))
      | ⟨2, _⟩, _ => (W7_arr m ρ c 2).trans (((dat3 (V6 m ρ) c).arrAt_in 2 rfl _).trans (A_eq3 (V6 m ρ) c 2))
      | ⟨3, _⟩, h3 => absurd rfl h3
    exact key w h
  · exact W7_of_ne m ρ c r fun w e => hw ⟨w, e⟩

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- After region 4: its arrays at what the pipeline leaves (the inputs as entered, the output's write-backs folded),
    every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- Region 4 changes no buffer but its output's array `main_v32`: an input's array ends as entered. -/
theorem W9_keep (c : Dev nD) (r : Ref sig .tc) (h : r ≠ main_v32) :
    W9 m ρ c (Proc.devRef .tc r) = W8 m ρ c (Proc.devRef .tc r) := by
  by_cases hw : ∃ w, Pipeline.arrRef spec4 w = r
  · obtain ⟨w, rfl⟩ := hw
    have key : ∀ w : Fin cfg4.W, Pipeline.arrRef spec4 w ≠ main_v32 →
        W9 m ρ c (Proc.devRef .tc (Pipeline.arrRef spec4 w)) = W8 m ρ c (Proc.devRef .tc (Pipeline.arrRef spec4 w)) := fun
      | ⟨0, _⟩, _ => (W9_arr m ρ c 0).trans (((dat4 (V8 m ρ) c).arrAt_in 0 rfl _).trans (A_eq4 (V8 m ρ) c 0))
      | ⟨1, _⟩, _ => (W9_arr m ρ c 1).trans (((dat4 (V8 m ρ) c).arrAt_in 1 rfl _).trans (A_eq4 (V8 m ρ) c 1))
      | ⟨2, _⟩, _ => (W9_arr m ρ c 2).trans (((dat4 (V8 m ρ) c).arrAt_in 2 rfl _).trans (A_eq4 (V8 m ρ) c 2))
      | ⟨3, _⟩, h3 => absurd rfl h3
    exact key w h
  · exact W9_of_ne m ρ c r fun w e => hw ⟨w, e⟩

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- After the host stretch `hostOps5_1`. -/
abbrev W11 : Dev nD → Valuation τ sig (Elt F) := fun c => StableHlo.after hostOps5_1 (W10 m ρ c)
abbrev V11 : (c : Dev nD) → (b : Ref sig .tc) → Buf (Elt F) ((c : Thread nD τ).loc b) := fun c b => W11 m ρ c b
theorem W11_keep (c : Dev nD) (r : Ref sig .tc) (h : r ∉ hostOps5_1_W) :
    W11 m ρ c (Proc.devRef .tc r) = W10 m ρ c (Proc.devRef .tc r) :=
  StableHlo.after_of_writes_sub hostOps5_1 _ hostOps5_1_writes h

/-! ## No item writes an argument -/

/-- A buffer that no host stretch writes and that is no region's output holds at the end what it held at launch. -/
theorem W11_kept (c : Dev nD) (r : Ref sig .tc)
    (h1 : r ∉ hostOps0_W) (h2 : r ≠ main_v2) (h3 : r ∉ hostOps1_W) (h4 : r ≠ main_v27) (h5 : r ∉ hostOps2_W) (h6 : r ≠ main_v29)
    (h7 : r ≠ main_v30) (h8 : r ∉ hostOps4_W) (h9 : r ≠ main_v32) (h10 : r ∉ hostOps5_W) (h11 : r ∉ hostOps5_1_W) :
    W11 m ρ c (Proc.devRef .tc r) = m ((c : Thread nD τ).loc r) :=
  (W11_keep m ρ c r h11).trans <| (W10_keep m ρ c r h10).trans <| (W9_keep m ρ c r h9).trans <| (W8_keep m ρ c r h8).trans <|
    (W7_keep m ρ c r h7).trans <| (W6_keep m ρ c r h6).trans <| (W5_keep m ρ c r h5).trans <| (W4_keep m ρ c r h4).trans <|
    (W3_keep m ρ c r h3).trans <| (W2_keep m ρ c r h2).trans <| (W1_keep m ρ c r h1).trans rfl

theorem W11_main_arg0 (c : Dev nD) : W11 m ρ c (Proc.devRef .tc main_arg0) = m ((c : Thread nD τ).loc main_arg0) :=
  W11_kept m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  W11_kept m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  W11_kept m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  W11_kept m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  W11_kept m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  W11_kept m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  W11_kept m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  W11_kept m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  W11_kept m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  W11_kept m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  W11_kept m ρ c main_arg10 (by decide) (by decide) (by decide) (by decide) (by decide) (by decide) (by decide) (by decide) (by decide) (by decide) (by decide)
theorem W11_main_arg11 (c : Dev nD) : W11 m ρ c (Proc.devRef .tc main_arg11) = m ((c : Thread nD τ).loc main_arg11) :=
  W11_kept m ρ c main_arg11 (by decide) (by decide) (by decide) (by decide) (by decide) (by decide) (by decide) (by decide) (by decide) (by decide) (by decide)
theorem W11_main_arg12 (c : Dev nD) : W11 m ρ c (Proc.devRef .tc main_arg12) = m ((c : Thread nD τ).loc main_arg12) :=
  W11_kept m ρ c main_arg12 (by decide) (by decide) (by decide) (by decide) (by decide) (by decide) (by decide) (by decide) (by decide) (by decide) (by decide)
theorem W11_main_arg13 (c : Dev nD) : W11 m ρ c (Proc.devRef .tc main_arg13) = m ((c : Thread nD τ).loc main_arg13) :=
  W11_kept m ρ c main_arg13 (by decide) (by decide) (by decide) (by decide) (by decide) (by decide) (by decide) (by decide) (by decide) (by decide) (by decide)
theorem W11_main_arg14 (c : Dev nD) : W11 m ρ c (Proc.devRef .tc main_arg14) = m ((c : Thread nD τ).loc main_arg14) :=
  W11_kept m ρ c main_arg14 (by decide) (by decide) (by decide) (by decide) (by decide) (by decide) (by decide) (by decide) (by decide) (by decide) (by decide)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last valuation, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. Its arrays are split
    out of the unscoped buffers and put back at their exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at their exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at their exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split
    out of the unscoped buffers and put back at their exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. Its arrays are split
    out of the unscoped buffers and put back at their exit contents; the generator register goes into the region's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .host (hseg hostOps5_1 hostOps5_1_sub hostOps5_1_fresh (W10 m ρ)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters, every weakly fair execution of @main on the
    TensorCores terminates, nothing faulting, and in every final state every unscoped buffer holds the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c)⟩) (run_all m ρ)

end Cert.Kernel.Hand

end
-- ==== Proof.KernelIdeal.Region0.lean ====
/-
  Region 0 of @main: one call of the tiled matrix–vector kernel whose contraction fits ONE K-tile, so that the grid's
  second coordinate is always 0 and both of the body's conditionals hold at every point: the VMEM accumulator is reset to
  zero, receives the product of the row block x[0, :] with the weight block W[n·1024 … (n+1)·1024, :] (contracted along the
  4096 columns), and is added to the bias block and stored into the output block, all within the point. Nothing is
  carried from one point to the next: the accumulator is overwritten before it is read, so the invariant between points
  is the region's scoped buffers at SOME contents.

  What the output block holds after a point is read back from the stores the body's run performs (its pieces), over
  the three input blocks of the point; the input windows' staging buffers hold their blocks at every point, fetched
  there or not (window 0's block index never moves, so it is fetched once).
-/
import proofs.«101019_j40913858462225_2_alg».proof.Proof.Gen.KernelIdeal.Launch
import proofs.«101019_j40913858462225_2_alg».proof.Proof.Gen.KernelIdeal.Skeleton
import proofs.«101019_j40913858462225_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals: both hold at every point of this grid -/

/-- "This is the first K-tile": the grid's second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))
/-- "This is the last K-tile": the same coordinate is the last of its axis, which has extent 1. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- No window is idle at any point: the output block is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The kernel body on any staging memrefs -/

/-- One staging buffer of the output window, through which its contents are stated. -/
abbrev VO0_3 : View sig .tc .vmem S1x1024 .f32 := (Memref.whole cc0_stg3_0 : Memref sig .tc .vmem S1x1024 .f32).view
/-- Each window's current staging memref at point `t`, and its wholeness. -/
abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1x1024 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

-- (the run's proof term is large)
set_option maxHeartbeats 4000000 in
/-- The pieces the body's stores leave in the output block's staging memref and in the accumulator (last first), WITH the
    proof that on whole staging memrefs — the three inputs' at their contents, the output's and the accumulator's at
    anything — the body runs to the continuation holding the inputs' as they were and those two with their pieces
    written: both conditionals are decided by the point's hypotheses. -/
noncomputable def kernelRun0 (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__mv_kernel i arg2 harg2 arg3 harg3 arg4 harg4 arg5 harg5 arg6 harg6) K } := by
  refine ⟨?_, ?_, fun E K => ?run⟩
  case run =>
    simp only [cc0__mv_kernel_eq_skeleton]; unfold cc0__mv_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The output's pieces tile its block (one whole-block store), so they cover it. -/
theorem cover0_3 (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) (y : S1x1024.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1x1024.size (by sl_kernel_rfl) y

/-- What the body leaves in the output block's staging buffer: its pieces read back. -/
def out0_3 (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) : Vec F S1x1024 .f32 :=
  VO0_3.read (Elt F) (VO0_3.writes (Elt F) VO0_3.junk (kernelRun0 c i arg2 harg2 arg3 harg3 arg4 harg4 arg5 harg5 arg6 harg6 hc0 hc1 x0 x1 x2).1)

/-- The output block after the body at point `t`: the run at the point's memrefs and input blocks. -/
def outAt0 (c : Dev nD) (t : Fin cfg0.N) : Vec F S1x1024 .f32 :=
  out0_3 c (grid0.coords t) (ms0_0 t) (hs0_0 t) (ms0_1 t) (hs0_1 t) (ms0_2 t) (hs0_2 t) (ms0_3 t) (hs0_3 t) scM0 (Memref.isWhole_whole _)
    (hcond0_0 t) (hcond0_1 t) (iblk0 V c 0 t) (iblk0 V c 1 t) (iblk0 V c 2 t)

/-! ## The pipeline's proof data -/

/-- The arrays as the region finds them; after the body at point `t` each input's buffer at its block and the output's
    at `outAt0`; the invariant the region's scoped buffers at some contents and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the invariant hands the body the accumulator at some
    contents and takes it back at some contents; the output's buffer ends with the run's pieces written, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  unfold outAt0 out0_3; (try dsimp only)
  rw [PhiA0_eq]
  iintro ⟨⟨⟨HS0, Hrest⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  Region 1 of @main: the tiled matrix–vector kernel whose contraction over 8192 columns is cut into TWO K-tiles of 4096,
  on a grid of 4 output tiles × 2 K-tiles, the K-tile the fast coordinate: point t works on output tile t / 2 and
  K-tile t % 2.

  At an EVEN point (the first K-tile) the VMEM accumulator is reset to zero and receives the product of the row block
  x[0, 0 … 4096) with the weight block W[n-tile, 0 … 4096); the output block is not stored and not written back. At the
  ODD point that follows (the last K-tile) the accumulator — still holding what the even point left: it is carried — is
  increased by the product of x[0, 4096 … 8192) with W[n-tile, 4096 … 8192), added to the bias block, clamped below at
  zero and stored into the output block, which is then written back. So the invariant between points names the
  accumulator's contents: before the first point anything, after point t what point t's run left in it.
-/
import proofs.«101019_j40913858462225_2_alg».proof.Proof.Gen.KernelIdeal.Launch
import proofs.«101019_j40913858462225_2_alg».proof.Proof.Gen.KernelIdeal.Skeleton
import proofs.«101019_j40913858462225_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias window's
    block index does not move between an even point and the odd one after it, so it is fetched at even points only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, decided over the grid -/

/-- "This is the first K-tile": the grid's second coordinate is 0 — at the even points. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last K-tile": the same coordinate is 1 — at the odd points. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-- The input windows are never idle; the output window is idle, and not written back, exactly at the even points. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The kernel body on any staging memrefs -/

abbrev VO1_3 : View sig .tc .vmem S1x1024 .f32 := (Memref.whole cc1_stg3_0 : Memref sig .tc .vmem S1x1024 .f32).view
abbrev ms1_0 (t : Fin cfg1.N) : Memref sig .tc .vmem S1x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from an even point to the odd one after it. -/
abbrev scM1 : Memref sig .tc .vmem S1x1024 .f32 := Memref.whole cc1_scratch0
abbrev VS1 : View sig .tc .vmem S1x1024 .f32 := scM1.view

/-- What else of the region's scoped buffers rides along unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA; rw [scopedRest1_split]; simp only [scM1, owns_whole]; try rfl

set_option maxHeartbeats 4000000 in
/-- THE FIRST K-TILE (first conditional taken, second not): the accumulator at anything is reset and ends with its pieces
    written; the output's buffer is handed back untouched. -/
noncomputable def kernelRun1_A (c : Dev nD) (i : grid1.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__mv_kernel i arg2 harg2 arg3 harg3 arg4 harg4 arg5 harg5 arg6 harg6) K } := by
  refine ⟨[], ?_, fun xi3 E K => ?run⟩
  case run =>
    simp only [cc1__mv_kernel_eq_skeleton]; unfold cc1__mv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST K-TILE (first conditional not taken, second taken): the accumulator at what the point before left (`xs0`)
    ends with its pieces written, the output's buffer at anything ends with its pieces written. -/
noncomputable def kernelRun1_C (c : Dev nD) (i : grid1.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__mv_kernel i arg2 harg2 arg3 harg3 arg4 harg4 arg5 harg5 arg6 harg6) K } := by
  refine ⟨?_, ?_, fun E K => ?run⟩
  case run =>
    simp only [cc1__mv_kernel_eq_skeleton]; unfold cc1__mv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What the output block and the accumulator hold per case -/

/-- An even point stores nothing into the output block: a placeholder nothing consults (the window is neither written
    back there nor read at the next point). -/
def out1_A_3 (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) : Vec F S1x1024 .f32 :=
  VO1_3.read (Elt F) (VO1_3.writes (Elt F) VO1_3.junk (kernelRun1_A c i arg2 harg2 arg3 harg3 arg4 harg4 arg5 harg5 arg6 harg6 hc0 hc1 x0 x1 x2).1)
theorem scover1_A (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) (y : S1x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1024.size (by sl_kernel_rfl) y
/-- What an even point leaves in the accumulator: its pieces read back. -/
def sout1_A (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) : Vec F S1x1024 .f32 :=
  VS1.read (Elt F) (VS1.writes (Elt F) VS1.junk (kernelRun1_A c i arg2 harg2 arg3 harg3 arg4 harg4 arg5 harg5 arg6 harg6 hc0 hc1 x0 x1 x2).2.1)

theorem cover1_C_3 (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) (y : S1x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1024.size (by sl_kernel_rfl) y
/-- What an odd point leaves in the output block's staging buffer: its pieces read back. -/
def out1_C_3 (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) : Vec F S1x1024 .f32 :=
  VO1_3.read (Elt F) (VO1_3.writes (Elt F) VO1_3.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) (y : S1x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x1024.size (by sl_kernel_rfl) y
/-- What an odd point leaves in the accumulator: its pieces read back. -/
def sout1_C (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) : Vec F S1x1024 .f32 :=
  VS1.read (Elt F) (VS1.writes (Elt F) VS1.junk (kernelRun1_C c i arg2 harg2 arg3 harg3 arg4 harg4 arg5 harg5 arg6 harg6 hc0 hc1 x0 x1 x2 xs0).2.1)

/-! ## What they hold after each point -/

/-- THE ACCUMULATION, by recursion on the point: (the output block's staging buffer, the accumulator) after point `n` —
    an even point's run at its blocks; an odd point's run at its blocks and at the accumulator the point before left. -/
def outsAt1 (c : Dev nD) : (n : ℕ) → n < cfg1.N → Vec F S1x1024 .f32 × Vec F S1x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2,
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2)

/-- `outsAt1` at an even point. -/
theorem outsAt1_A (c : Dev nD) (t : Fin cfg1.N) (h0 : t.val % 2 = 0) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => (fun h => by (try dsimp only at h); omega) ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => (fun h => by (try dsimp only at h); omega) ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at an odd point: over what the point before left in the accumulator. -/
theorem outsAt1_C (c : Dev nD) (t : Fin cfg1.N) (h0 : ¬t.val % 2 = 0) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the accumulator at anything; afterwards at what the
    point before left in it; the other scoped buffers and the generator register at something throughout. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point, by the point's parity: the invariant hands the run the accumulator (at anything at the first
    point, at what the point before left otherwise) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have hA0 : cond1_0 (grid1.coords t) := (hcond1_0 t).mpr h0
    have hA1 : ¬cond1_1 (grid1.coords t) := fun h => (fun h => by (try dsimp only at h); omega) ((hcond1_1 t).mp h)
    rw [Dat.leavesExact_idle (dat1 V c) 3 t (idleAt1_3_A t hA0 hA1) (noFlush1_3_A t hA0 hA1)]
    rw [outsAt1_A V c t h0]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ hA0 hA1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ hA0 hA1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hC0 : ¬cond1_0 (grid1.coords t) := fun h => h0 ((hcond1_0 t).mp h)
    have hC1 : cond1_1 (grid1.coords t) := (hcond1_1 t).mpr (by (try dsimp only); omega)
    rw [show (dat1 V c).leavesExact 3 t = owns (c : Thread nD τ) (ms1_3 t) fullShare ((dat1 V c).after 3 t) from by
      unfold Dat.leavesExact; rw [liveAt1_3_C t hC0 hC1], after1_3]
    rw [outsAt1_C V c t h0]
    unfold out1_C_3 sout1_C; (try dsimp only)
    have hz : t.val ≠ 0 := fun h => h0 (by rw [h])
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩⟩
    iapply ((kernelRun1_C c (grid1.coords t) _ _ _ _ _ _ _ _ _ _ hC0 hC1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Cert.KernelIdeal.Hand

end
-- ==== Proof.KernelIdeal.Region2.lean ====
/-
  Region 2 of @main: one call of the tiled matrix–vector kernel whose contraction fits ONE K-tile, so that the grid's
  second coordinate is always 0 and both of the body's conditionals hold at every point: the VMEM accumulator is reset to
  zero, receives the product of the row block x[0, :] with the weight block W[n·1024 … (n+1)·1024, :] (contracted along the
  4096 columns), and is added to the bias block and stored into the output block, all within the point. Nothing is
  carried from one point to the next: the accumulator is overwritten before it is read, so the invariant between points
  is the region's scoped buffers at SOME contents.

  What the output block holds after a point is read back from the stores the body's run performs (its pieces), over
  the three input blocks of the point; the input windows' staging buffers hold their blocks at every point, fetched
  there or not (window 0's block index never moves, so it is fetched once).
-/
import proofs.«101019_j40913858462225_2_alg».proof.Proof.Gen.KernelIdeal.Launch
import proofs.«101019_j40913858462225_2_alg».proof.Proof.Gen.KernelIdeal.Skeleton
import proofs.«101019_j40913858462225_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditionals: both hold at every point of this grid -/

/-- "This is the first K-tile": the grid's second coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) :=
  (by decide +kernel : ∀ t : Fin grid2.N, cond2_0 (grid2.coords t))
/-- "This is the last K-tile": the same coordinate is the last of its axis, which has extent 1. -/
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

/-- No window is idle at any point: the output block is stored at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The kernel body on any staging memrefs -/

/-- One staging buffer of the output window, through which its contents are stated. -/
abbrev VO2_3 : View sig .tc .vmem S1x1024 .f32 := (Memref.whole cc2_stg3_0 : Memref sig .tc .vmem S1x1024 .f32).view
/-- Each window's current staging memref at point `t`, and its wholeness. -/
abbrev ms2_0 (t : Fin cfg2.N) : Memref sig .tc .vmem S1x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1x1024 .f32 := Memref.whole cc2_scratch0

/-- The region's invariant with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- (the run's proof term is large)
set_option maxHeartbeats 4000000 in
/-- The pieces the body's stores leave in the output block's staging memref and in the accumulator (last first), WITH the
    proof that on whole staging memrefs — the three inputs' at their contents, the output's and the accumulator's at
    anything — the body runs to the continuation holding the inputs' as they were and those two with their pieces
    written: both conditionals are decided by the point's hypotheses. -/
noncomputable def kernelRun2 (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__mv_kernel i arg2 harg2 arg3 harg3 arg4 harg4 arg5 harg5 arg6 harg6) K } := by
  refine ⟨?_, ?_, fun E K => ?run⟩
  case run =>
    simp only [cc2__mv_kernel_eq_skeleton]; unfold cc2__mv_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The output's pieces tile its block (one whole-block store), so they cover it. -/
theorem cover2_3 (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) (y : S1x1024.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S1x1024.size (by sl_kernel_rfl) y

/-- What the body leaves in the output block's staging buffer: its pieces read back. -/
def out2_3 (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) : Vec F S1x1024 .f32 :=
  VO2_3.read (Elt F) (VO2_3.writes (Elt F) VO2_3.junk (kernelRun2 c i arg2 harg2 arg3 harg3 arg4 harg4 arg5 harg5 arg6 harg6 hc0 hc1 x0 x1 x2).1)

/-- The output block after the body at point `t`: the run at the point's memrefs and input blocks. -/
def outAt2 (c : Dev nD) (t : Fin cfg2.N) : Vec F S1x1024 .f32 :=
  out2_3 c (grid2.coords t) (ms2_0 t) (hs2_0 t) (ms2_1 t) (hs2_1 t) (ms2_2 t) (hs2_2 t) (ms2_3 t) (hs2_3 t) scM2 (Memref.isWhole_whole _)
    (hcond2_0 t) (hcond2_1 t) (iblk2 V c 0 t) (iblk2 V c 1 t) (iblk2 V c 2 t)

/-! ## The pipeline's proof data -/

/-- The arrays as the region finds them; after the body at point `t` each input's buffer at its block and the output's
    at `outAt2`; the invariant the region's scoped buffers at some contents and the generator register; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: the inputs' memrefs hold their blocks; the invariant hands the body the accumulator at some
    contents and takes it back at some contents; the output's buffer ends with the run's pieces written, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  unfold outAt2 out2_3; (try dsimp only)
  rw [PhiA2_eq]
  iintro ⟨⟨⟨HS0, Hrest⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Region3.lean ====
/- REGION 3 of @main, the GRU gate kernel: the class-A half of its frame, at any float instance and at any
   contents of the TensorCore's buffers when the region is entered.

   The kernel has one grid point. It loads its three whole input blocks — gi and gh, each 1 x 12288 and read as three
   consecutive 1 x 4096 thirds (reset, update, candidate), and the previous state h, 1 x 4096 —, computes
       r = logistic (gi_r + gh_r),  z = logistic (gi_z + gh_z),  n = tanh (gi_n + r * gh_n),
       h' = (1 - z) * n + z * h
   elementwise, and stores h' over the whole output block. So what the body leaves in the output window's buffer
   is the one store's payload, a function of the three input blocks alone, and the input buffers are left as read. -/
import proofs.«101019_j40913858462225_2_alg».proof.Proof.Gen.KernelIdeal.Launch
import proofs.«101019_j40913858462225_2_alg».proof.Proof.Gen.KernelIdeal.Skeleton
import proofs.«101019_j40913858462225_2_alg».proof.Proof.Gen.KernelIdeal.Points
import Idealize.ShloMosaic.Lib.Pipeline.FrameBody
import Idealize.ShloMosaic.Lib.Ring
import Idealize.ShloMosaic.Lib.Tactic

-- membership in a rectangle of 4096 and 12288 lanes: the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window gi's staging buffer holds its block at every point, fetched there or not, for any proof data
    whose array is the entry contents and whose body leaves the block in place: the window is whole and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for the input window gh. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same for the input window h, the previous state. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

/-- The whole 1 x 12288 buffer (gi's and gh's loads). -/
abbrev r3_0 : Rect S1x12288 := Rect.unit (s := S1x12288) ![0, 0] S1x12288.size inb_S1x12288_S1x12288_0_0
/-- The whole 1 x 4096 buffer (h's load, and the store of the new state). -/
abbrev r3_1 : Rect S1x4096 := Rect.unit (s := S1x4096) ![0, 0] S1x4096.size inb_S1x4096_S1x4096_0_0

/-! ## What the body leaves in the output window's buffer -/

/-- The output window's staging buffer after the body, from the three input blocks: its one store, whose payload is the
    gate arithmetic h' = (1 - z) * n + z * h over what the three loads read. -/
def out3_3 (x0 x1 : Vec F S1x12288 .f32) (x2 : Vec F S1x4096 .f32) : Vec F S1x4096 .f32 :=
  View.canon [⟨r3_1, k3_pay1 (View.ld x0 r3_0) (View.ld x1 r3_0) (View.ld x2 r3_1)⟩]

/-- The one store is through the whole buffer, so it covers it. -/
theorem cover3_3 (p0 : Vec F S1x4096 .f32) (y : S1x4096.Idx) :
    ∃ pc ∈ ([⟨r3_1, p0⟩] : List (View.Piece (Elt F) S1x4096 .f32)), y ∈ pc.1.set :=
  View.cover_of_tiled [⟨r3_1, p0⟩] S1x4096.size (by rfl) y

/-! ## The body's triple -/

set_option maxHeartbeats 1000000 in
/-- The kernel body on whole staging memrefs, the three inputs' at read contents and the output's at anything, runs to
    the continuation holding the inputs' as they were and the output's at `out3_3` of the inputs'. -/
theorem sound_kernel3 (c : Dev nD) (E : Set ℕ) (i : grid3.Coords)
    (arg1 : Memref sig .tc .vmem S1x12288 .f32) (harg1 : arg1.IsWhole) (arg2 : Memref sig .tc .vmem S1x12288 .f32) (harg2 : arg2.IsWhole)
    (arg3 : Memref sig .tc .vmem S1x4096 .f32) (harg3 : arg3.IsWhole) (arg4 : Memref sig .tc .vmem S1x4096 .f32) (harg4 : arg4.IsWhole)
    (x0 : Vec F S1x12288 .f32) (x1 : Vec F S1x12288 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__gru_gate_kernel i arg1 harg1 arg2 harg2 arg3 harg3 arg4 harg4) K := by
  simp only [cc3__gru_gate_kernel_eq_skeleton]; unfold cc3__gru_gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the gate kernel's pipeline on core `c`: the arrays as the region finds them; after the body at
    point `t` each input's buffer at its block and the output's at `out3_3` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Region4.lean ====
/-
  Region 4 of @main: one call of the tiled matrix–vector kernel whose contraction fits ONE K-tile, so that the grid's
  second coordinate is always 0 and both of the body's conditionals hold at every point: the VMEM accumulator is reset to
  zero, receives the product of the row block x[0, :] with the weight block W[n·1024 … (n+1)·1024, :] (contracted along the
  4096 columns), and is added to the bias block and stored into the output block, all within the point. Nothing is
  carried from one point to the next: the accumulator is overwritten before it is read, so the invariant between points
  is the region's scoped buffers at SOME contents.

  What the output block holds after a point is read back from the stores the body's run performs (its pieces), over
  the three input blocks of the point; the input windows' staging buffers hold their blocks at every point, fetched
  there or not (window 0's block index never moves, so it is fetched once).
-/
import proofs.«101019_j40913858462225_2_alg».proof.Proof.Gen.KernelIdeal.Launch
import proofs.«101019_j40913858462225_2_alg».proof.Proof.Gen.KernelIdeal.Skeleton
import proofs.«101019_j40913858462225_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditionals: both hold at every point of this grid -/

/-- "This is the first K-tile": the grid's second coordinate is 0. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) :=
  (by decide +kernel : ∀ t : Fin grid4.N, cond4_0 (grid4.coords t))
/-- "This is the last K-tile": the same coordinate is the last of its axis, which has extent 1. -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- No window is idle at any point: the output block is stored at every point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-! ## The kernel body on any staging memrefs -/

/-- One staging buffer of the output window, through which its contents are stated. -/
abbrev VO4_3 : View sig .tc .vmem S1x1024 .f32 := (Memref.whole cc4_stg3_0 : Memref sig .tc .vmem S1x1024 .f32).view
/-- Each window's current staging memref at point `t`, and its wholeness. -/
abbrev ms4_0 (t : Fin cfg4.N) : Memref sig .tc .vmem S1x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024 .f32 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows. -/
abbrev scM4 : Memref sig .tc .vmem S1x1024 .f32 := Memref.whole cc4_scratch0

/-- The region's invariant with the accumulator as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- (the run's proof term is large)
set_option maxHeartbeats 4000000 in
/-- The pieces the body's stores leave in the output block's staging memref and in the accumulator (last first), WITH the
    proof that on whole staging memrefs — the three inputs' at their contents, the output's and the accumulator's at
    anything — the body runs to the continuation holding the inputs' as they were and those two with their pieces
    written: both conditionals are decided by the point's hypotheses. -/
noncomputable def kernelRun4 (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) :
    Σ' (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc4__mv_kernel i arg2 harg2 arg3 harg3 arg4 harg4 arg5 harg5 arg6 harg6) K } := by
  refine ⟨?_, ?_, fun E K => ?run⟩
  case run =>
    simp only [cc4__mv_kernel_eq_skeleton]; unfold cc4__mv_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The output's pieces tile its block (one whole-block store), so they cover it. -/
theorem cover4_3 (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) (y : S1x1024.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S1x1024.size (by sl_kernel_rfl) y

/-- What the body leaves in the output block's staging buffer: its pieces read back. -/
def out4_3 (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) : Vec F S1x1024 .f32 :=
  VO4_3.read (Elt F) (VO4_3.writes (Elt F) VO4_3.junk (kernelRun4 c i arg2 harg2 arg3 harg3 arg4 harg4 arg5 harg5 arg6 harg6 hc0 hc1 x0 x1 x2).1)

/-- The output block after the body at point `t`: the run at the point's memrefs and input blocks. -/
def outAt4 (c : Dev nD) (t : Fin cfg4.N) : Vec F S1x1024 .f32 :=
  out4_3 c (grid4.coords t) (ms4_0 t) (hs4_0 t) (ms4_1 t) (hs4_1 t) (ms4_2 t) (hs4_2 t) (ms4_3 t) (hs4_3 t) scM4 (Memref.isWhole_whole _)
    (hcond4_0 t) (hcond4_1 t) (iblk4 V c 0 t) (iblk4 V c 1 t) (iblk4 V c 2 t)

/-! ## The pipeline's proof data -/

/-- The arrays as the region finds them; after the body at point `t` each input's buffer at its block and the output's
    at `outAt4`; the invariant the region's scoped buffers at some contents and the generator register; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point: the inputs' memrefs hold their blocks; the invariant hands the body the accumulator at some
    contents and takes it back at some contents; the output's buffer ends with the run's pieces written, which cover it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Pipeline.ΦA spec4 c from rfl, show (dat4 V c).Φ t.castSucc = Pipeline.ΦA spec4 c from rfl]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  unfold outAt4 out4_3; (try dsimp only)
  rw [PhiA4_eq]
  iintro ⟨⟨⟨HS0, Hrest⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Run.lean ====
/-
  The run of @main: five kernel regions with host operations between them and after them.

  The contents of the TensorCore's unscoped buffers are followed from the launch through the eleven items of @main:
  a stretch of host operations maps a valuation to the operations' fold over it; a region replaces its arrays by
  what its pipeline leaves (each input's array as entered, the output's array with every point's block written back)
  and changes nothing else. Each region is entered with every unscoped buffer at the valuation before it and left with
  every unscoped buffer at the valuation after it, so the items chain, and at the end every unscoped buffer holds the
  last valuation: the three results and the fifteen arguments are read off it. No item writes an argument.
-/
import proofs.«101019_j40913858462225_2_alg».proof.Proof.KernelIdeal.Region0
import proofs.«101019_j40913858462225_2_alg».proof.Proof.KernelIdeal.Region1
import proofs.«101019_j40913858462225_2_alg».proof.Proof.KernelIdeal.Region2
import proofs.«101019_j40913858462225_2_alg».proof.Proof.KernelIdeal.Region3
import proofs.«101019_j40913858462225_2_alg».proof.Proof.KernelIdeal.Region4
import proofs.«101019_j40913858462225_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After region 0: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes no buffer but its output's array `main_v2`: an input's array ends as entered. -/
theorem W2_keep (c : Dev nD) (r : Ref sig .tc) (h : r ≠ main_v2) :
    W2 m ρ c (Proc.devRef .tc r) = W1 m ρ c (Proc.devRef .tc r) := by
  by_cases hw : ∃ w, Pipeline.arrRef spec0 w = r
  · obtain ⟨w, rfl⟩ := hw
    have key : ∀ w : Fin cfg0.W, Pipeline.arrRef spec0 w ≠ main_v2 →
        W2 m ρ c (Proc.devRef .tc (Pipeline.arrRef spec0 w)) = W1 m ρ c (Proc.devRef .tc (Pipeline.arrRef spec0 w)) := fun
      | ⟨0, _⟩, _ => (W2_arr m ρ c 0).trans (((dat0 (V1 m ρ) c).arrAt_in 0 rfl _).trans (A_eq0 (V1 m ρ) c 0))
      | ⟨1, _⟩, _ => (W2_arr m ρ c 1).trans (((dat0 (V1 m ρ) c).arrAt_in 1 rfl _).trans (A_eq0 (V1 m ρ) c 1))
      | ⟨2, _⟩, _ => (W2_arr m ρ c 2).trans (((dat0 (V1 m ρ) c).arrAt_in 2 rfl _).trans (A_eq0 (V1 m ρ) c 2))
      | ⟨3, _⟩, h3 => absurd rfl h3
    exact key w h
  · exact W2_of_ne m ρ c r fun w e => hw ⟨w, e⟩

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After region 1: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes no buffer but its output's array `main_v27`: an input's array ends as entered. -/
theorem W4_keep (c : Dev nD) (r : Ref sig .tc) (h : r ≠ main_v27) :
    W4 m ρ c (Proc.devRef .tc r) = W3 m ρ c (Proc.devRef .tc r) := by
  by_cases hw : ∃ w, Pipeline.arrRef spec1 w = r
  · obtain ⟨w, rfl⟩ := hw
    have key : ∀ w : Fin cfg1.W, Pipeline.arrRef spec1 w ≠ main_v27 →
        W4 m ρ c (Proc.devRef .tc (Pipeline.arrRef spec1 w)) = W3 m ρ c (Proc.devRef .tc (Pipeline.arrRef spec1 w)) := fun
      | ⟨0, _⟩, _ => (W4_arr m ρ c 0).trans (((dat1 (V3 m ρ) c).arrAt_in 0 rfl _).trans (A_eq1 (V3 m ρ) c 0))
      | ⟨1, _⟩, _ => (W4_arr m ρ c 1).trans (((dat1 (V3 m ρ) c).arrAt_in 1 rfl _).trans (A_eq1 (V3 m ρ) c 1))
      | ⟨2, _⟩, _ => (W4_arr m ρ c 2).trans (((dat1 (V3 m ρ) c).arrAt_in 2 rfl _).trans (A_eq1 (V3 m ρ) c 2))
      | ⟨3, _⟩, h3 => absurd rfl h3
    exact key w h
  · exact W4_of_ne m ρ c r fun w e => hw ⟨w, e⟩

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After region 2: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes no buffer but its output's array `main_v29`: an input's array ends as entered. -/
theorem W6_keep (c : Dev nD) (r : Ref sig .tc) (h : r ≠ main_v29) :
    W6 m ρ c (Proc.devRef .tc r) = W5 m ρ c (Proc.devRef .tc r) := by
  by_cases hw : ∃ w, Pipeline.arrRef spec2 w = r
  · obtain ⟨w, rfl⟩ := hw
    have key : ∀ w : Fin cfg2.W, Pipeline.arrRef spec2 w ≠ main_v29 →
        W6 m ρ c (Proc.devRef .tc (Pipeline.arrRef spec2 w)) = W5 m ρ c (Proc.devRef .tc (Pipeline.arrRef spec2 w)) := fun
      | ⟨0, _⟩, _ => (W6_arr m ρ c 0).trans (((dat2 (V5 m ρ) c).arrAt_in 0 rfl _).trans (A_eq2 (V5 m ρ) c 0))
      | ⟨1, _⟩, _ => (W6_arr m ρ c 1).trans (((dat2 (V5 m ρ) c).arrAt_in 1 rfl _).trans (A_eq2 (V5 m ρ) c 1))
      | ⟨2, _⟩, _ => (W6_arr m ρ c 2).trans (((dat2 (V5 m ρ) c).arrAt_in 2 rfl _).trans (A_eq2 (V5 m ρ) c 2))
      | ⟨3, _⟩, h3 => absurd rfl h3
    exact key w h
  · exact W6_of_ne m ρ c r fun w e => hw ⟨w, e⟩

/-- After region 3: its arrays at what the pipeline leaves (the inputs as entered, the output's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 changes no buffer but its output's array `main_v30`: an input's array ends as entered. -/
theorem W7_keep (c : Dev nD) (r : Ref sig .tc) (h : r ≠ main_v30) :
    W7 m ρ c (Proc.devRef .tc r) = W6 m ρ c (Proc.devRef .tc r) := by
  by_cases hw : ∃ w, Pipeline.arrRef spec3 w = r
  · obtain ⟨w, rfl⟩ := hw
    have key : ∀ w : Fin cfg3.W, Pipeline.arrRef spec3 w ≠ main_v30 →
        W7 m ρ c (Proc.devRef .tc (Pipeline.arrRef spec3 w)) = W6 m ρ c (Proc.devRef .tc (Pipeline.arrRef spec3 w)) := fun
      | ⟨0, _⟩, _ => (W7_arr m ρ c 0).trans (((dat3 (V6 m ρ) c).arrAt_in 0 rfl _).trans (A_eq3 (V6 m ρ) c 0))
      | ⟨1, _⟩, _ => (W7_arr m ρ c 1).trans (((dat3 (V6 m ρ) c).arrAt_in 1 rfl _).trans (A_eq3 (V6 m ρ) c 1))
      | ⟨2, _⟩, _ => (W7_arr m ρ c 2).trans (((dat3 (V6 m ρ) c).arrAt_in 2 rfl _).trans (A_eq3 (V6 m ρ) c 2))
      | ⟨3, _⟩, h3 => absurd rfl h3
    exact key w h
  · exact W7_of_ne m ρ c r fun w e => hw ⟨w, e⟩

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- After region 4: its arrays at what the pipeline leaves (the inputs as entered, the output's write-backs folded),
    every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- Region 4 changes no buffer but its output's array `main_v32`: an input's array ends as entered. -/
theorem W9_keep (c : Dev nD) (r : Ref sig .tc) (h : r ≠ main_v32) :
    W9 m ρ c (Proc.devRef .tc r) = W8 m ρ c (Proc.devRef .tc r) := by
  by_cases hw : ∃ w, Pipeline.arrRef spec4 w = r
  · obtain ⟨w, rfl⟩ := hw
    have key : ∀ w : Fin cfg4.W, Pipeline.arrRef spec4 w ≠ main_v32 →
        W9 m ρ c (Proc.devRef .tc (Pipeline.arrRef spec4 w)) = W8 m ρ c (Proc.devRef .tc (Pipeline.arrRef spec4 w)) := fun
      | ⟨0, _⟩, _ => (W9_arr m ρ c 0).trans (((dat4 (V8 m ρ) c).arrAt_in 0 rfl _).trans (A_eq4 (V8 m ρ) c 0))
      | ⟨1, _⟩, _ => (W9_arr m ρ c 1).trans (((dat4 (V8 m ρ) c).arrAt_in 1 rfl _).trans (A_eq4 (V8 m ρ) c 1))
      | ⟨2, _⟩, _ => (W9_arr m ρ c 2).trans (((dat4 (V8 m ρ) c).arrAt_in 2 rfl _).trans (A_eq4 (V8 m ρ) c 2))
      | ⟨3, _⟩, h3 => absurd rfl h3
    exact key w h
  · exact W9_of_ne m ρ c r fun w e => hw ⟨w, e⟩

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- After the host stretch `hostOps5_1`. -/
abbrev W11 : Dev nD → Valuation τ sig (Elt F) := fun c => StableHlo.after hostOps5_1 (W10 m ρ c)
abbrev V11 : (c : Dev nD) → (b : Ref sig .tc) → Buf (Elt F) ((c : Thread nD τ).loc b) := fun c b => W11 m ρ c b
theorem W11_keep (c : Dev nD) (r : Ref sig .tc) (h : r ∉ hostOps5_1_W) :
    W11 m ρ c (Proc.devRef .tc r) = W10 m ρ c (Proc.devRef .tc r) :=
  StableHlo.after_of_writes_sub hostOps5_1 _ hostOps5_1_writes h

/-! ## No item writes an argument -/

/-- A buffer that no host stretch writes and that is no region's output holds at the end what it held at launch. -/
theorem W11_kept (c : Dev nD) (r : Ref sig .tc)
    (h1 : r ∉ hostOps0_W) (h2 : r ≠ main_v2) (h3 : r ∉ hostOps1_W) (h4 : r ≠ main_v27) (h5 : r ∉ hostOps2_W) (h6 : r ≠ main_v29)
    (h7 : r ≠ main_v30) (h8 : r ∉ hostOps4_W) (h9 : r ≠ main_v32) (h10 : r ∉ hostOps5_W) (h11 : r ∉ hostOps5_1_W) :
    W11 m ρ c (Proc.devRef .tc r) = m ((c : Thread nD τ).loc r) :=
  (W11_keep m ρ c r h11).trans <| (W10_keep m ρ c r h10).trans <| (W9_keep m ρ c r h9).trans <| (W8_keep m ρ c r h8).trans <|
    (W7_keep m ρ c r h7).trans <| (W6_keep m ρ c r h6).trans <| (W5_keep m ρ c r h5).trans <| (W4_keep m ρ c r h4).trans <|
    (W3_keep m ρ c r h3).trans <| (W2_keep m ρ c r h2).trans <| (W1_keep m ρ c r h1).trans rfl

theorem W11_main_arg0 (c : Dev nD) : W11 m ρ c (Proc.devRef .tc main_arg0) = m ((c : Thread nD τ).loc main_arg0) :=
  W11_kept m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  W11_kept m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  W11_kept m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  W11_kept m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  W11_kept m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  W11_kept m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  W11_kept m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  W11_kept m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  W11_kept m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  W11_kept m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  W11_kept m ρ c main_arg10 (by decide) (by decide) (by decide) (by decide) (by decide) (by decide) (by decide) (by decide) (by decide) (by decide) (by decide)
theorem W11_main_arg11 (c : Dev nD) : W11 m ρ c (Proc.devRef .tc main_arg11) = m ((c : Thread nD τ).loc main_arg11) :=
  W11_kept m ρ c main_arg11 (by decide) (by decide) (by decide) (by decide) (by decide) (by decide) (by decide) (by decide) (by decide) (by decide) (by decide)
theorem W11_main_arg12 (c : Dev nD) : W11 m ρ c (Proc.devRef .tc main_arg12) = m ((c : Thread nD τ).loc main_arg12) :=
  W11_kept m ρ c main_arg12 (by decide) (by decide) (by decide) (by decide) (by decide) (by decide) (by decide) (by decide) (by decide) (by decide) (by decide)
theorem W11_main_arg13 (c : Dev nD) : W11 m ρ c (Proc.devRef .tc main_arg13) = m ((c : Thread nD τ).loc main_arg13) :=
  W11_kept m ρ c main_arg13 (by decide) (by decide) (by decide) (by decide) (by decide) (by decide) (by decide) (by decide) (by decide) (by decide) (by decide)
theorem W11_main_arg14 (c : Dev nD) : W11 m ρ c (Proc.devRef .tc main_arg14) = m ((c : Thread nD τ).loc main_arg14) :=
  W11_kept m ρ c main_arg14 (by decide) (by decide) (by decide) (by decide) (by decide) (by decide) (by decide) (by decide) (by decide) (by decide) (by decide)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last valuation, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. Its arrays are split
    out of the unscoped buffers and put back at their exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at their exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at their exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split
    out of the unscoped buffers and put back at their exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. Its arrays are split
    out of the unscoped buffers and put back at their exit contents; the generator register goes into the region's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .host (hseg hostOps5_1 hostOps5_1_sub hostOps5_1_fresh (W10 m ρ)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters, every weakly fair execution of @main on the
    TensorCores terminates, nothing faulting, and in every final state every unscoped buffer holds the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c)⟩) (run_all m ρ)

end Cert.KernelIdeal.Hand

end
-- ==== Proof.KernelIdeal.Region0Value.lean ====
/- REGION 0 of @main (one tile of contraction per point): the block a point leaves in the output window, as a term of
   the point's three input blocks, at any float instance.

   The body resets the accumulator, adds the product of the row block with the weight block into it, reads it back,
   adds the bias block and stores the sum: so the output block is the bias-add payload of the accumulate payload of the
   reset payload — the read-backs of the accumulator are covered by the stores before them, whatever it held. -/
import proofs.«101019_j40913858462225_2_alg».proof.Proof.KernelIdeal.Region0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz0 : (![0, 0] : Fin 2 → Nat) = fun _ => 0 := funext fun a => by fin_cases a <;> rfl

/-- What the body leaves in the output block's staging buffer, as a term of the three input blocks: the last store's
    payload — the accumulator it reads back is the accumulation store's payload over the reset store's, whatever the
    accumulator held before. -/
theorem out0_3_eq {F : FTy → Type} [FloatOps F] (c : Dev nD) (i : grid0.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond0_0 i) (hc1 : cond0_1 i)
    (x0 : Vec F S1x4096 .f32) (x1 : Vec F S1024x4096 .f32) (x2 : Vec F S1x1024 .f32) :
    out0_3 c i arg2 harg2 arg3 harg3 arg4 harg4 arg5 harg5 arg6 harg6 hc0 hc1 x0 x1 x2 = k0_pay3 (k0_pay2 x0 x1 k0_pay1) x2 := by
  unfold out0_3
  rw [View.read_writes_eq_canon _ _ _ (cover0_3 c i arg2 harg2 arg3 harg3 arg4 harg4 arg5 harg5 arg6 harg6 hc0 hc1 x0 x1 x2)]
  unfold kernelRun0
  dsimp only
  sl_unfold_words
  rw [View.canon_unit_zero (S := S1x1024) hz0]
  simp only [View.readCov_cons_toLoadRect]
  simp only [View.readAt_eq_ld, harg2.read_unread, harg3.read_unread, harg4.read_unread,
    View.ld_unit_zero (S := S1x4096) hz0, View.ld_unit_zero (S := S1024x4096) hz0, View.ld_unit_zero (S := S1x1024) hz0]

end Cert.KernelIdeal.Hand

end
-- ==== Proof.KernelIdeal.MatVecValue.lean ====
/- The tiled matrix-vector kernels (regions 0, 2 and 4 of @main), at the ideal instance: what one grid point stores.

   Each of these regions contracts over ONE tile: at a point the accumulator is reset to the zero block, receives the
   product of the 1 x 4096 row block x with the transpose of a 1024 x 4096 block of weight rows, and the bias block is
   added. At lane q of the stored 1 x 1024 block that is  (0 + sum over the 4096 columns k of x (0, k) * W (q, k)) + b (0, q),
   the zero the extended real the zero word denotes. -/
import proofs.«101019_j40913858462225_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The matrix product's operand indices

The one matrix product contracts axis 1 of the row block x (1 x 4096) with axis 1 of the weight block W (1024 x 4096):
output lane (0, q) sums, over the 4096 columns k, x (0, k) * W (q, k). -/

/-- On its free axis the left operand's index is the output's row. -/
theorem lhs_mv_0 (i : S1x1024.Idx) (q : dot_S1x4096_S1024x4096_S1x1024_1_1_0_0_n_n.contr.Idx) :
    (dot_S1x4096_S1024x4096_S1x1024_1_1_0_0_n_n.lhsIdx i q 0).val = (i 0).val := by
  unfold DotDims.lhsIdx
  rw [dif_neg (show ¬(0 : Fin S1x4096.rank) ∈ dot_S1x4096_S1024x4096_S1x1024_1_1_0_0_n_n.lhsBatch by decide), dif_pos (show (0 : Fin S1x4096.rank) ∈ dot_S1x4096_S1024x4096_S1x1024_1_1_0_0_n_n.lhsNonContracting by decide)]
  rfl
/-- On its contracted axis it is the contraction position. -/
theorem lhs_mv_1 (i : S1x1024.Idx) (q : dot_S1x4096_S1024x4096_S1x1024_1_1_0_0_n_n.contr.Idx) :
    (dot_S1x4096_S1024x4096_S1x1024_1_1_0_0_n_n.lhsIdx i q 1).val = (q ⟨0, by decide⟩).val :=
  dot_S1x4096_S1024x4096_S1x1024_1_1_0_0_n_n.lhsIdx_val_of_single rfl i q
/-- On its free axis the right operand's index is the output's lane. -/
theorem rhs_mv_0 (i : S1x1024.Idx) (q : dot_S1x4096_S1024x4096_S1x1024_1_1_0_0_n_n.contr.Idx) :
    (dot_S1x4096_S1024x4096_S1x1024_1_1_0_0_n_n.rhsIdx i q 0).val = (i 1).val := by
  unfold DotDims.rhsIdx
  rw [dif_neg (show ¬(0 : Fin S1024x4096.rank) ∈ dot_S1x4096_S1024x4096_S1x1024_1_1_0_0_n_n.rhsBatch by decide), dif_pos (show (0 : Fin S1024x4096.rank) ∈ dot_S1x4096_S1024x4096_S1x1024_1_1_0_0_n_n.rhsNonContracting by decide)]
  rfl
/-- On its contracted axis it is the contraction position. -/
theorem rhs_mv_1 (i : S1x1024.Idx) (q : dot_S1x4096_S1024x4096_S1x1024_1_1_0_0_n_n.contr.Idx) :
    (dot_S1x4096_S1024x4096_S1x1024_1_1_0_0_n_n.rhsIdx i q 1).val = (q ⟨0, by decide⟩).val :=
  dot_S1x4096_S1024x4096_S1x1024_1_1_0_0_n_n.rhsIdx_val_of_single rfl i q

/-- The product of a 1 x 4096 row block with the transpose of a 1024 x 4096 weight block, accumulated into the zero
    block, at lane `q`: the sum over the 4096 columns. -/
theorem matmul_mv_apply (x0 : FVec Ideal S1x4096 .f32) (x1 : FVec Ideal S1024x4096 .f32) (q : Fin 1024) :
    FloatOps.matmul dot_S1x4096_S1024x4096_S1x1024_1_1_0_0_n_n none x0 x1 (constant (F := Ideal) S1x1024 .f32 0x00000000#32) (ix2 0 q)
      = ∑ k : Fin 4096, x0 (ix2 0 k) * x1 (ix2 q k) := by
  rw [Ideal.matmul_constant_zero_apply, ← Equiv.sum_comp (contrEquiv1 dot_S1x4096_S1024x4096_S1x1024_1_1_0_0_n_n 4096 rfl rfl).symm]
  refine Finset.sum_congr rfl fun k _ => ?_
  have hk := contrEquiv1_symm_val dot_S1x4096_S1024x4096_S1x1024_1_1_0_0_n_n 4096 rfl rfl k
  have el : dot_S1x4096_S1024x4096_S1x1024_1_1_0_0_n_n.lhsIdx (ix2 0 q) ((contrEquiv1 dot_S1x4096_S1024x4096_S1x1024_1_1_0_0_n_n 4096 rfl rfl).symm k) = ix2 0 k := funext fun a => Fin.ext (by
    match a with
    | ⟨0, _⟩ => exact lhs_mv_0 _ _
    | ⟨1, _⟩ => exact (lhs_mv_1 _ _).trans hk)
  have er : dot_S1x4096_S1024x4096_S1x1024_1_1_0_0_n_n.rhsIdx (ix2 0 q) ((contrEquiv1 dot_S1x4096_S1024x4096_S1x1024_1_1_0_0_n_n 4096 rfl rfl).symm k) = ix2 q k := funext fun a => Fin.ext (by
    match a with
    | ⟨0, _⟩ => exact rhs_mv_0 _ _
    | ⟨1, _⟩ => exact (rhs_mv_1 _ _).trans hk)
  rw [el, er]

/-! ## The stored block at a lane -/

/-- What a point stores, of a zeroed accumulator: at lane `q` the zero word plus the row's product with weight row
    `q` of the block, plus the bias there. -/
def mv (x0 : Vec Ideal S1x4096 .f32) (x1 : Vec Ideal S1024x4096 .f32) (x2 : Vec Ideal S1x1024 .f32) (q : Fin 1024) : Ideal .f32 :=
  (Ideal.ofBits .f32 0x00000000#32 + ∑ k : Fin 4096, x0 (ix2 0 k) * x1 (ix2 q k)) + x2 (ix2 0 q)

/-- Region 0's payload chain reset -> accumulate -> add bias, at lane `q`. -/
theorem k0_pay_apply (x0 : Vec Ideal S1x4096 .f32) (x1 : Vec Ideal S1024x4096 .f32) (x2 : Vec Ideal S1x1024 .f32) (q : Fin 1024) :
    k0_pay3 (F := Ideal) (k0_pay2 x0 x1 (k0_pay1 (F := Ideal))) x2 (ix2 0 q) = mv x0 x1 x2 q := by
  unfold k0_pay3 k0_pay2 k0_pay1 mv
  simp only [shapeCast_self]
  simp only [addf_apply, broadcast_apply]
  simp only [matmul]
  rw [matmul_mv_apply]
  rfl
/-- Region 2's, the same arithmetic. -/
theorem k2_pay_apply (x0 : Vec Ideal S1x4096 .f32) (x1 : Vec Ideal S1024x4096 .f32) (x2 : Vec Ideal S1x1024 .f32) (q : Fin 1024) :
    k2_pay3 (F := Ideal) (k2_pay2 x0 x1 (k2_pay1 (F := Ideal))) x2 (ix2 0 q) = mv x0 x1 x2 q := by
  unfold k2_pay3 k2_pay2 k2_pay1 mv
  simp only [shapeCast_self]
  simp only [addf_apply, broadcast_apply]
  simp only [matmul]
  rw [matmul_mv_apply]
  rfl
/-- Region 4's, the same arithmetic. -/
theorem k4_pay_apply (x0 : Vec Ideal S1x4096 .f32) (x1 : Vec Ideal S1024x4096 .f32) (x2 : Vec Ideal S1x1024 .f32) (q : Fin 1024) :
    k4_pay3 (F := Ideal) (k4_pay2 x0 x1 (k4_pay1 (F := Ideal))) x2 (ix2 0 q) = mv x0 x1 x2 q := by
  unfold k4_pay3 k4_pay2 k4_pay1 mv
  simp only [shapeCast_self]
  simp only [addf_apply, broadcast_apply]
  simp only [matmul]
  rw [matmul_mv_apply]
  rfl

end Cert.KernelIdeal.Hand

end
-- ==== Proof.KernelIdeal.Region0Array.lean ====
/- REGION 0 of @main, gh = h0 · W_hhᵀ + b_hh: from the 12 blocks to the array, at the ideal instance.

   Point t holds the whole 1 x 4096 row x, rows 1024 t … 1024 t + 1023 of the 12288 x 4096 weight matrix and lanes
   1024 t … 1024 t + 1023 of the bias row, and writes back lanes 1024 t … 1024 t + 1023 of the result row; the 12 blocks
   tile the row. So lane j of the result row after the region is
       (0 + sum over the 4096 columns k of x (0, k) * W (j, k)) + b (0, j). -/
import proofs.«101019_j40913858462225_2_alg».proof.Proof.KernelIdeal.Region0Value
import proofs.«101019_j40913858462225_2_alg».proof.Proof.KernelIdeal.MatVecValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The blocks of the windows at a point -/

/-- At point `t` the row x is block (0, 0) of its array, the weight rows are block (t, 0), the bias and the result are
    block (0, t). -/
theorem idx0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The row block is the whole row x. -/
theorem iblk0_0_apply (c : Dev nD) (t : Fin cfg0.N) (k : Fin 4096) :
    (iblk0 V c 0 t : Vec F S1x4096 .f32) (ix2 0 k) = V c (Pipeline.arrRef spec0 0) (ix2 0 k) := by
  obtain ⟨e0, e1, -⟩ := idx0 t
  show V c (Pipeline.arrRef spec0 0) (((cfg0.win 0).blk t).view.emb (ix2 0 k)) = _
  refine congrArg _ (funext fun a => Fin.ext ?_)
  match a with
  | ⟨0, _⟩ => show win0_0.index t (0 : Fin 2) * 1 + 1 * 0 = 0; omega
  | ⟨1, _⟩ => show win0_0.index t (1 : Fin 2) * 4096 + 1 * k.val = k.val; omega

/-- Row `q` of the weight block at point `t` is row `1024 t + q` of the weight matrix. -/
theorem iblk0_1_apply (c : Dev nD) (t : Fin cfg0.N) (q : Fin 1024) (k : Fin 4096) (r : Fin 12288) (hr : r.val = 1024 * t.val + q.val) :
    (iblk0 V c 1 t : Vec F S1024x4096 .f32) (ix2 q k) = V c (Pipeline.arrRef spec0 1) (ix2 r k) := by
  obtain ⟨-, -, e0, e1, -⟩ := idx0 t
  show V c (Pipeline.arrRef spec0 1) (((cfg0.win 1).blk t).view.emb (ix2 q k)) = _
  refine congrArg _ (funext fun a => Fin.ext ?_)
  match a with
  | ⟨0, _⟩ => show win0_1.index t (0 : Fin 2) * 1024 + 1 * q.val = r.val; omega
  | ⟨1, _⟩ => show win0_1.index t (1 : Fin 2) * 4096 + 1 * k.val = k.val; omega

/-- Lane `q` of the bias block at point `t` is lane `1024 t + q` of the bias row. -/
theorem iblk0_2_apply (c : Dev nD) (t : Fin cfg0.N) (q : Fin 1024) (r : Fin 12288) (hr : r.val = 1024 * t.val + q.val) :
    (iblk0 V c 2 t : Vec F S1x1024 .f32) (ix2 0 q) = V c (Pipeline.arrRef spec0 2) (ix2 0 r) := by
  obtain ⟨-, -, -, -, e0, e1, -⟩ := idx0 t
  show V c (Pipeline.arrRef spec0 2) (((cfg0.win 2).blk t).view.emb (ix2 0 q)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = r.val; omega

/-- An index of the result row is in point `t`'s block iff each coordinate is in the block's range on its axis. -/
theorem mem_blk0_3 (t : Fin cfg0.N) (i : S1x12288.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v2).slice (win0_3.rect t)).set ↔ _
  rw [View.set_slice_whole, Rect.mem_set_unit]
  exact Iff.rfl

/-- The 12 blocks of 1024 lanes cover the result row: lane `j` is in the block of point `j / 1024`. -/
theorem covered0_3 (i : S1x12288.Idx) : ∃ t : Fin cfg0.N, (cfg0.win 3).flush t = true ∧ i ∈ ((cfg0.win 3).blk t).view.set := by
  have h0 : (i 0).val < 1 := (i 0).isLt
  have h1 : (i 1).val < 12288 := (i 1).isLt
  have hN : cfg0.N = 12 := N_0
  obtain ⟨t, ht⟩ : ∃ t : Fin cfg0.N, t.val = (i 1).val / 1024 := ⟨⟨(i 1).val / 1024, by rw [hN]; omega⟩, rfl⟩
  obtain ⟨-, -, -, -, -, -, e0, e1⟩ := idx0 t
  refine ⟨t, flush0_3 t, ?_⟩
  rw [mem_blk0_3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1024 ≤ (i 1).val ∧ (i 1).val < win0_3.index t (1 : Fin 2) * 1024 + 1024; omega

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The array the region leaves, at the ideal instance -/

/-- Lane `j` of the matrix-vector product with bias: the zero word plus the sum over the 4096 columns of the row
    times weight row `j`, plus the bias at `j`. -/
def mvArr0 (X : Vec Ideal S1x4096 .f32) (W : Vec Ideal S12288x4096 .f32) (B : Vec Ideal S1x12288 .f32) (j : Fin 12288) : Ideal .f32 :=
  (Ideal.ofBits .f32 0x00000000#32 + ∑ k : Fin 4096, X (ix2 0 k) * W (ix2 j k)) + B (ix2 0 j)

/-- The whole result row. -/
def mvRow0 (X : Vec Ideal S1x4096 .f32) (W : Vec Ideal S12288x4096 .f32) (B : Vec Ideal S1x12288 .f32) : Vec Ideal S1x12288 .f32 :=
  fun i => mvArr0 X W B ⟨(i 1).val, idx2_lt1 i⟩

variable (V : (c : Dev nD) → (b : Ref sig .tc) → Buf (Elt Ideal) ((c : Thread nD τ).loc b))

/-- What point `t` writes back is block `t` of the result row of the three arrays as the region finds them. -/
theorem flushed0_3 (c : Dev nD) (t : Fin cfg0.N) :
    (dat0 (F := Ideal) V c).flushed 3 t = ((cfg0.win 3).blk t).view.read (Elt Ideal)
      (mvRow0 (V c (Pipeline.arrRef spec0 0)) (V c (Pipeline.arrRef spec0 1)) (V c (Pipeline.arrRef spec0 2))) := by
  obtain ⟨-, -, -, -, -, -, e0, e1⟩ := idx0 t
  have hN : cfg0.N = 12 := N_0
  have ht : t.val < 12 := hN ▸ t.isLt
  show (cfg0.win 3).cut (grid0.coords t) ((dat0 V c).after 3 t) = _
  rw [after0_3]
  unfold outAt0
  rw [out0_3_eq]
  funext y
  obtain ⟨p, q, rfl⟩ : ∃ (p : Fin 1) (q : Fin 1024), y = ix2 p q := ⟨y 0, y 1, eq_ix2 y⟩
  obtain rfl : p = 0 := Subsingleton.elim _ _
  have hr : 1024 * t.val + q.val < 12288 := by have := q.isLt; omega
  show k0_pay3 (F := Ideal) (k0_pay2 (iblk0 V c 0 t) (iblk0 V c 1 t) (k0_pay1 (F := Ideal))) (iblk0 V c 2 t) (ix2 0 q)
    = mvRow0 (V c (Pipeline.arrRef spec0 0)) (V c (Pipeline.arrRef spec0 1)) (V c (Pipeline.arrRef spec0 2)) (((cfg0.win 3).blk t).view.emb (ix2 0 q))
  refine (k0_pay_apply (iblk0 V c 0 t) (iblk0 V c 1 t) (iblk0 V c 2 t) q).trans ?_
  have eG : mvRow0 (V c (Pipeline.arrRef spec0 0)) (V c (Pipeline.arrRef spec0 1)) (V c (Pipeline.arrRef spec0 2)) (((cfg0.win 3).blk t).view.emb (ix2 0 q))
      = mvArr0 (V c (Pipeline.arrRef spec0 0)) (V c (Pipeline.arrRef spec0 1)) (V c (Pipeline.arrRef spec0 2)) ⟨1024 * t.val + q.val, hr⟩ := by
    unfold mvRow0
    refine congrArg _ (Fin.ext ?_)
    show win0_3.index t (1 : Fin 2) * 1024 + 1 * q.val = 1024 * t.val + q.val
    omega
  rw [eG]
  unfold mv mvArr0
  rw [iblk0_2_apply V c t q ⟨1024 * t.val + q.val, hr⟩ rfl]
  refine congrArg (· + _) (congrArg (_ + ·) (Finset.sum_congr rfl fun k _ => ?_))
  rw [iblk0_0_apply V c t k, iblk0_1_apply V c t q k ⟨1024 * t.val + q.val, hr⟩ rfl]

/-- The result row after the region, whole. -/
theorem arr0_row (c : Dev nD) :
    (dat0 (F := Ideal) V c).arrAt 3 cfg0.N
      = mvRow0 (V c (Pipeline.arrRef spec0 0)) (V c (Pipeline.arrRef spec0 1)) (V c (Pipeline.arrRef spec0 2)) :=
  (dat0 V c).arrAt_eq_of_cover 3
    (mvRow0 (V c (Pipeline.arrRef spec0 0)) (V c (Pipeline.arrRef spec0 1)) (V c (Pipeline.arrRef spec0 2)))
    (fun t _ => flushed0_3 V c t) covered0_3

/-- Lane `j` of the result row after the region: the row's product with weight row `j`, plus the bias. -/
theorem arr0 (c : Dev nD) (j : Fin 12288) :
    (dat0 (F := Ideal) V c).arrAt 3 cfg0.N (ix2 0 j)
      = mvArr0 (V c (Pipeline.arrRef spec0 0)) (V c (Pipeline.arrRef spec0 1)) (V c (Pipeline.arrRef spec0 2)) j := by
  rw [arr0_row]
  rfl

end Cert.KernelIdeal.Hand

end
-- ==== Proof.KernelIdeal.Region1Value.lean ====
/-
  Region 1, the two-K-tile matrix–vector call: what its two kinds of point leave, as the body's arithmetic of the
  point's blocks. The run's stores are whole-block stores, so the last store into a buffer is what it holds, and a load
  of the accumulator after a store into it reads the stored value; a load of the accumulator that no store of the point
  precedes reads what the point before left.
-/
import proofs.«101019_j40913858462225_2_alg».proof.Proof.KernelIdeal.Region1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the two kinds of point leave, as the body's arithmetic of the blocks -/

theorem hz1 : (![0, 0] : Fin 2 → Nat) = fun _ => 0 := funext fun a => by fin_cases a <;> rfl

/-- After the first K-tile the accumulator holds zero plus the tile's product. -/
theorem sout1_A_eq (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond1_0 i) (hc1 : ¬cond1_1 i)
    (x0 : Vec F S1x4096 .f32) (x1 : Vec F S1024x4096 .f32) (x2 : Vec F S1x1024 .f32) :
    sout1_A c i arg2 harg2 arg3 harg3 arg4 harg4 arg5 harg5 arg6 harg6 hc0 hc1 x0 x1 x2 = k1_pay2 x0 x1 k1_pay1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1x1024) hz1]
  simp only [View.readCov_cons_toLoadRect]
  simp only [View.readAt_eq_ld, harg2.read_unread, harg3.read_unread, harg4.read_unread, harg6.read_unread,
    View.ld_unit_zero (S := S1x4096) hz1, View.ld_unit_zero (S := S1024x4096) hz1, View.ld_unit_zero (S := S1x1024) hz1]

/-- After the last K-tile the accumulator holds what it held plus the tile's product, -/
theorem sout1_C_eq (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) :
    sout1_C c i arg2 harg2 arg3 harg3 arg4 harg4 arg5 harg5 arg6 harg6 hc0 hc1 x0 x1 x2 xs0 = k1_pay2 x0 x1 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S1x1024) hz1]
  simp only [View.readAt_eq_ld, harg2.read_unread, harg3.read_unread, harg6.read_unread,
    View.ld_unit_zero (S := S1x4096) hz1, View.ld_unit_zero (S := S1024x4096) hz1, View.ld_unit_zero (S := S1x1024) hz1]

/-- and the output block that sum plus the bias block, clamped below at zero. -/
theorem out1_C_3_eq (c : Dev nD) (i : grid1.Coords) (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : ¬cond1_0 i) (hc1 : cond1_1 i)
    (x0 : Vec F S1x4096 .f32) (x1 : Vec F S1024x4096 .f32) (x2 : Vec F S1x1024 .f32) (xs0 : Vec F S1x1024 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1x1024) hz1]
  simp only [View.readCov_cons_toLoadRect]
  simp only [View.readAt_eq_ld, harg2.read_unread, harg3.read_unread, harg4.read_unread, harg6.read_unread,
    View.ld_unit_zero (S := S1x4096) hz1, View.ld_unit_zero (S := S1024x4096) hz1, View.ld_unit_zero (S := S1x1024) hz1]

end Cert.KernelIdeal.Hand

end
-- ==== Proof.KernelIdeal.Region1Array.lean ====
/-
  Region 1, x = max (combined · comb_Wᵀ + comb_b, 0): from the 8 points to the array, at the extended reals.

  Point t works on output tile n = t / 2 and K-tile t % 2: it holds columns 4096 (t % 2) … of the 1 x 8192 row,
  rows 1024 n … and the same columns of the 4096 x 8192 weight matrix, lanes 1024 n … of the bias row. Only the odd
  points write the result's block back, lanes 1024 n … 1024 n + 1023, and the four of them tile the result row. At an
  odd point the accumulator holds what the even point before left — the zero word plus the first half-sum —, so lane j
  of the result after the region is
      max (((0 + Σ_{k < 4096} x (0, k) · W (j, k)) + Σ_{k < 4096} x (0, 4096 + k) · W (j, 4096 + k)) + b (0, j), 0).
-/
import proofs.«101019_j40913858462225_2_alg».proof.Proof.KernelIdeal.Region1Value
import proofs.«101019_j40913858462225_2_alg».proof.Proof.KernelIdeal.MatVecValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The blocks of the windows at a point -/

/-- At point `t`: the row's block is (0, t % 2), the weight's (t / 2, t % 2), the bias's and the result's (0, t / 2). -/
theorem idx1 : ∀ t : Fin cfg1.N,
    win1_0.index t (0 : Fin 2) = 0 ∧ win1_0.index t (1 : Fin 2) = t.val % 2
    ∧ win1_1.index t (0 : Fin 2) = t.val / 2 ∧ win1_1.index t (1 : Fin 2) = t.val % 2
    ∧ win1_2.index t (0 : Fin 2) = 0 ∧ win1_2.index t (1 : Fin 2) = t.val / 2
    ∧ win1_3.index t (0 : Fin 2) = 0 ∧ win1_3.index t (1 : Fin 2) = t.val / 2 :=
  (by decide +kernel : ∀ t : Fin grid1.N, _)

/-- Column `k` of the row block at point `t` is column `4096 (t % 2) + k` of the row. -/
theorem iblk1_0_apply (c : Dev nD) (t : Fin cfg1.N) (k : Fin 4096) (s : Fin 8192) (hs : s.val = 4096 * (t.val % 2) + k.val) :
    (iblk1 V c 0 t : Vec F S1x4096 .f32) (ix2 0 k) = V c (Pipeline.arrRef spec1 0) (ix2 0 s) := by
  obtain ⟨e0, e1, -⟩ := idx1 t
  show V c (Pipeline.arrRef spec1 0) (((cfg1.win 0).blk t).view.emb (ix2 0 k)) = _
  refine congrArg _ (funext fun a => Fin.ext ?_)
  match a with
  | ⟨0, _⟩ => show win1_0.index t (0 : Fin 2) * 1 + 1 * 0 = 0; omega
  | ⟨1, _⟩ => show win1_0.index t (1 : Fin 2) * 4096 + 1 * k.val = s.val; omega

/-- Entry (q, k) of the weight block at point `t` is entry (1024 (t / 2) + q, 4096 (t % 2) + k) of the weight matrix. -/
theorem iblk1_1_apply (c : Dev nD) (t : Fin cfg1.N) (q : Fin 1024) (k : Fin 4096) (r : Fin 4096) (hr : r.val = 1024 * (t.val / 2) + q.val)
    (s : Fin 8192) (hs : s.val = 4096 * (t.val % 2) + k.val) :
    (iblk1 V c 1 t : Vec F S1024x4096 .f32) (ix2 q k) = V c (Pipeline.arrRef spec1 1) (ix2 r s) := by
  obtain ⟨-, -, e0, e1, -⟩ := idx1 t
  show V c (Pipeline.arrRef spec1 1) (((cfg1.win 1).blk t).view.emb (ix2 q k)) = _
  refine congrArg _ (funext fun a => Fin.ext ?_)
  match a with
  | ⟨0, _⟩ => show win1_1.index t (0 : Fin 2) * 1024 + 1 * q.val = r.val; omega
  | ⟨1, _⟩ => show win1_1.index t (1 : Fin 2) * 4096 + 1 * k.val = s.val; omega

/-- Lane `q` of the bias block at point `t` is lane `1024 (t / 2) + q` of the bias row. -/
theorem iblk1_2_apply (c : Dev nD) (t : Fin cfg1.N) (q : Fin 1024) (r : Fin 4096) (hr : r.val = 1024 * (t.val / 2) + q.val) :
    (iblk1 V c 2 t : Vec F S1x1024 .f32) (ix2 0 q) = V c (Pipeline.arrRef spec1 2) (ix2 0 r) := by
  obtain ⟨-, -, -, -, e0, e1, -⟩ := idx1 t
  show V c (Pipeline.arrRef spec1 2) (((cfg1.win 2).blk t).view.emb (ix2 0 q)) = _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = r.val; omega

/-- An index of the result row is in point `t`'s block iff each coordinate is in the block's range on its axis. -/
theorem mem_blk1_3 (t : Fin cfg1.N) (i : S1x4096.Idx) :
    i ∈ ((cfg1.win 3).blk t).view.set ↔ ∀ a : Fin 2, win1_3.index t a * S1x1024.size a ≤ (i a).val ∧ (i a).val < win1_3.index t a * S1x1024.size a + S1x1024.size a := by
  show i ∈ ((View.whole main_v27).slice (win1_3.rect t)).set ↔ _
  rw [View.set_slice_whole, Rect.mem_set_unit]
  exact Iff.rfl

/-- The four blocks the odd points write back cover the result row: lane `j` is in the block of point `2 (j / 1024) + 1`. -/
theorem covered1_3 (i : S1x4096.Idx) : ∃ t : Fin cfg1.N, (cfg1.win 3).flush t = true ∧ i ∈ ((cfg1.win 3).blk t).view.set := by
  have h0 : (i 0).val < 1 := (i 0).isLt
  have h1 : (i 1).val < 4096 := (i 1).isLt
  have hN : cfg1.N = 8 := N_1
  obtain ⟨t, ht⟩ : ∃ t : Fin cfg1.N, t.val = 2 * ((i 1).val / 1024) + 1 := ⟨⟨2 * ((i 1).val / 1024) + 1, by rw [hN]; omega⟩, rfl⟩
  obtain ⟨-, -, -, -, -, -, e0, e1⟩ := idx1 t
  refine ⟨t, (flush1_3 t).mpr (by omega), ?_⟩
  rw [mem_blk1_3]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 1024 ≤ (i 1).val ∧ (i 1).val < win1_3.index t (1 : Fin 2) * 1024 + 1024; omega

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The stored block at a lane, at the extended reals -/

/-- What an odd point stores over an even point's accumulator: at lane `q`, the zero word plus the first tile's
    product, plus the second tile's, plus the bias, clamped below at the zero word. -/
def mv2 (xa0 : Vec Ideal S1x4096 .f32) (xa1 : Vec Ideal S1024x4096 .f32) (xb0 : Vec Ideal S1x4096 .f32) (xb1 : Vec Ideal S1024x4096 .f32)
    (xb2 : Vec Ideal S1x1024 .f32) (q : Fin 1024) : Ideal .f32 :=
  max (((Ideal.ofBits .f32 0x00000000#32 + ∑ k : Fin 4096, xa0 (ix2 0 k) * xa1 (ix2 q k)) + ∑ k : Fin 4096, xb0 (ix2 0 k) * xb1 (ix2 q k)) + xb2 (ix2 0 q))
    (Ideal.ofBits .f32 0x00000000#32)

/-- The body's chain reset → accumulate (even point) → accumulate → add bias → clamp (odd point), at lane `q`. -/
theorem k1_pay_apply (xa0 : Vec Ideal S1x4096 .f32) (xa1 : Vec Ideal S1024x4096 .f32) (xb0 : Vec Ideal S1x4096 .f32) (xb1 : Vec Ideal S1024x4096 .f32)
    (xb2 : Vec Ideal S1x1024 .f32) (q : Fin 1024) :
    k1_pay3 (F := Ideal) (k1_pay2 xb0 xb1 (k1_pay2 xa0 xa1 (k1_pay1 (F := Ideal)))) xb2 (ix2 0 q) = mv2 xa0 xa1 xb0 xb1 xb2 q := by
  unfold k1_pay3 k1_pay2 k1_pay1 mv2
  simp only [shapeCast_self]
  simp only [maximumf_apply, addf_apply, broadcast_apply]
  simp only [matmul]
  rw [matmul_mv_apply, matmul_mv_apply]
  rfl

/-! ## The array the region leaves -/

/-- Lane `j` of the result: the two half-sums over the 8192 columns, the bias, the clamp. -/
def mvArr1 (X : Vec Ideal S1x8192 .f32) (W : Vec Ideal S4096x8192 .f32) (B : Vec Ideal S1x4096 .f32) (j : Fin 4096) : Ideal .f32 :=
  max (((Ideal.ofBits .f32 0x00000000#32 + ∑ k : Fin 4096, X (ix2 0 (⟨k.val, by omega⟩ : Fin 8192)) * W (ix2 j (⟨k.val, by omega⟩ : Fin 8192)))
      + ∑ k : Fin 4096, X (ix2 0 (⟨k.val + 4096, by omega⟩ : Fin 8192)) * W (ix2 j (⟨k.val + 4096, by omega⟩ : Fin 8192))) + B (ix2 0 j))
    (Ideal.ofBits .f32 0x00000000#32)

/-- The whole result row. -/
def mvRow1 (X : Vec Ideal S1x8192 .f32) (W : Vec Ideal S4096x8192 .f32) (B : Vec Ideal S1x4096 .f32) : Vec Ideal S1x4096 .f32 :=
  fun i => mvArr1 X W B ⟨(i 1).val, idx2_lt1 i⟩

variable (V : (c : Dev nD) → (b : Ref sig .tc) → Buf (Elt Ideal) ((c : Thread nD τ).loc b))

/-- What an odd point `t` writes back is block `t` of the result row of the three arrays as the region finds them. -/
theorem flushed1_3 (c : Dev nD) (t : Fin cfg1.N) (hodd : (cfg1.win 3).flush t = true) :
    (dat1 (F := Ideal) V c).flushed 3 t = ((cfg1.win 3).blk t).view.read (Elt Ideal)
      (mvRow1 (V c (Pipeline.arrRef spec1 0)) (V c (Pipeline.arrRef spec1 1)) (V c (Pipeline.arrRef spec1 2))) := by
  obtain ⟨-, -, -, -, -, -, e0, e1⟩ := idx1 t
  have hN : cfg1.N = 8 := N_1
  have ht : t.val < 8 := hN ▸ t.isLt
  have h1 : t.val % 2 = 1 := (flush1_3 t).mp hodd
  have h0 : ¬t.val % 2 = 0 := by omega
  have hpos : 0 < t.val := by omega
  -- the point before: even
  obtain ⟨t', ht'⟩ : ∃ t' : Fin cfg1.N, t'.val = t.val - 1 := ⟨⟨t.val - 1, by omega⟩, rfl⟩
  have h0' : t'.val % 2 = 0 := by omega
  show (cfg1.win 3).cut (grid1.coords t) ((dat1 V c).after 3 t) = _
  rw [after1_3, outsAt1_C V c t h0]
  dsimp only
  rw [out1_C_3_eq]
  have hprev : (outsAt1 V c (t.val - 1) (Nat.lt_of_le_of_lt (Nat.sub_le _ _) t.isLt)).2
      = k1_pay2 (iblk1 V c 0 t') (iblk1 V c 1 t') (k1_pay1 (F := Ideal)) := by
    have e : outsAt1 V c (t.val - 1) (Nat.lt_of_le_of_lt (Nat.sub_le _ _) t.isLt) = outsAt1 V c t'.val t'.isLt := by
      congr 1 <;> first | exact ht'.symm | skip
    rw [e, outsAt1_A V c t' h0']
    dsimp only
    rw [sout1_A_eq]
  rw [hprev]
  funext y
  obtain ⟨p, q, rfl⟩ : ∃ (p : Fin 1) (q : Fin 1024), y = ix2 p q := ⟨y 0, y 1, eq_ix2 y⟩
  obtain rfl : p = 0 := Subsingleton.elim _ _
  have hr : 1024 * (t.val / 2) + q.val < 4096 := by have := q.isLt; omega
  show k1_pay3 (F := Ideal) (k1_pay2 (iblk1 V c 0 t) (iblk1 V c 1 t) (k1_pay2 (iblk1 V c 0 t') (iblk1 V c 1 t') (k1_pay1 (F := Ideal)))) (iblk1 V c 2 t) (ix2 0 q)
    = mvRow1 (V c (Pipeline.arrRef spec1 0)) (V c (Pipeline.arrRef spec1 1)) (V c (Pipeline.arrRef spec1 2)) (((cfg1.win 3).blk t).view.emb (ix2 0 q))
  refine (k1_pay_apply (iblk1 V c 0 t') (iblk1 V c 1 t') (iblk1 V c 0 t) (iblk1 V c 1 t) (iblk1 V c 2 t) q).trans ?_
  have eG : mvRow1 (V c (Pipeline.arrRef spec1 0)) (V c (Pipeline.arrRef spec1 1)) (V c (Pipeline.arrRef spec1 2)) (((cfg1.win 3).blk t).view.emb (ix2 0 q))
      = mvArr1 (V c (Pipeline.arrRef spec1 0)) (V c (Pipeline.arrRef spec1 1)) (V c (Pipeline.arrRef spec1 2)) ⟨1024 * (t.val / 2) + q.val, hr⟩ := by
    unfold mvRow1
    refine congrArg _ (Fin.ext ?_)
    show win1_3.index t (1 : Fin 2) * 1024 + 1 * q.val = 1024 * (t.val / 2) + q.val
    omega
  rw [eG]
  unfold mv2 mvArr1
  rw [iblk1_2_apply V c t q ⟨1024 * (t.val / 2) + q.val, hr⟩ rfl]
  have hq' : t'.val / 2 = t.val / 2 := by omega
  refine congrArg (max · _) (congrArg (· + _) ?_)
  refine congrArg₂ (· + ·) (congrArg (_ + ·) (Finset.sum_congr rfl fun k _ => ?_)) (Finset.sum_congr rfl fun k _ => ?_)
  · rw [iblk1_0_apply V c t' k ⟨k.val, by omega⟩ (by show k.val = 4096 * (t'.val % 2) + k.val; omega),
      iblk1_1_apply V c t' q k ⟨1024 * (t.val / 2) + q.val, hr⟩ (by show 1024 * (t.val / 2) + q.val = 1024 * (t'.val / 2) + q.val; omega)
        ⟨k.val, by omega⟩ (by show k.val = 4096 * (t'.val % 2) + k.val; omega)]
  · rw [iblk1_0_apply V c t k ⟨k.val + 4096, by omega⟩ (by show k.val + 4096 = 4096 * (t.val % 2) + k.val; omega),
      iblk1_1_apply V c t q k ⟨1024 * (t.val / 2) + q.val, hr⟩ rfl
        ⟨k.val + 4096, by omega⟩ (by show k.val + 4096 = 4096 * (t.val % 2) + k.val; omega)]

/-- The result row after the region, whole. -/
theorem arr1_row (c : Dev nD) :
    (dat1 (F := Ideal) V c).arrAt 3 cfg1.N
      = mvRow1 (V c (Pipeline.arrRef spec1 0)) (V c (Pipeline.arrRef spec1 1)) (V c (Pipeline.arrRef spec1 2)) :=
  (dat1 V c).arrAt_eq_of_cover 3
    (mvRow1 (V c (Pipeline.arrRef spec1 0)) (V c (Pipeline.arrRef spec1 1)) (V c (Pipeline.arrRef spec1 2)))
    (fun t ht => flushed1_3 V c t ht) covered1_3

/-- Lane `j` of the result row after the region. -/
theorem arr1 (c : Dev nD) (j : Fin 4096) :
    (dat1 (F := Ideal) V c).arrAt 3 cfg1.N (ix2 0 j)
      = mvArr1 (V c (Pipeline.arrRef spec1 0)) (V c (Pipeline.arrRef spec1 1)) (V c (Pipeline.arrRef spec1 2)) j := by
  rw [arr1_row]
  rfl

end Cert.KernelIdeal.Hand

end
-- ==== Proof.KernelIdeal.Region2Value.lean ====
/- REGION 2 of @main (one tile of contraction per point): the block a point leaves in the output window, as a term of
   the point's three input blocks, at any float instance.

   The body resets the accumulator, adds the product of the row block with the weight block into it, reads it back,
   adds the bias block and stores the sum: so the output block is the bias-add payload of the accumulate payload of the
   reset payload — the read-backs of the accumulator are covered by the stores before them, whatever it held. -/
import proofs.«101019_j40913858462225_2_alg».proof.Proof.KernelIdeal.Region2
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz2 : (![0, 0] : Fin 2 → Nat) = fun _ => 0 := funext fun a => by fin_cases a <;> rfl

/-- What the body leaves in the output block's staging buffer, as a term of the three input blocks: the last store's
    payload — the accumulator it reads back is the accumulation store's payload over the reset store's, whatever the
    accumulator held before. -/
theorem out2_3_eq {F : FTy → Type} [FloatOps F] (c : Dev nD) (i : grid2.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond2_0 i) (hc1 : cond2_1 i)
    (x0 : Vec F S1x4096 .f32) (x1 : Vec F S1024x4096 .f32) (x2 : Vec F S1x1024 .f32) :
    out2_3 c i arg2 harg2 arg3 harg3 arg4 harg4 arg5 harg5 arg6 harg6 hc0 hc1 x0 x1 x2 = k2_pay3 (k2_pay2 x0 x1 k2_pay1) x2 := by
  unfold out2_3
  rw [View.read_writes_eq_canon _ _ _ (cover2_3 c i arg2 harg2 arg3 harg3 arg4 harg4 arg5 harg5 arg6 harg6 hc0 hc1 x0 x1 x2)]
  unfold kernelRun2
  dsimp only
  sl_unfold_words
  rw [View.canon_unit_zero (S := S1x1024) hz2]
  simp only [View.readCov_cons_toLoadRect]
  simp only [View.readAt_eq_ld, harg2.read_unread, harg3.read_unread, harg4.read_unread,
    View.ld_unit_zero (S := S1x4096) hz2, View.ld_unit_zero (S := S1024x4096) hz2, View.ld_unit_zero (S := S1x1024) hz2]

end Cert.KernelIdeal.Hand

end
-- ==== Proof.KernelIdeal.Region2Array.lean ====
/- REGION 2 of @main, gi = x · W_ihᵀ + b_ih: from the 12 blocks to the array, at the ideal instance.

   Point t holds the whole 1 x 4096 row x, rows 1024 t … 1024 t + 1023 of the 12288 x 4096 weight matrix and lanes
   1024 t … 1024 t + 1023 of the bias row, and writes back lanes 1024 t … 1024 t + 1023 of the result row; the 12 blocks
   tile the row. So lane j of the result row after the region is
       (0 + sum over the 4096 columns k of x (0, k) * W (j, k)) + b (0, j). -/
import proofs.«101019_j40913858462225_2_alg».proof.Proof.KernelIdeal.Region2Value
import proofs.«101019_j40913858462225_2_alg».proof.Proof.KernelIdeal.MatVecValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The blocks of the windows at a point -/

/-- At point `t` the row x is block (0, 0) of its array, the weight rows are block (t, 0), the bias and the result are
    block (0, t). -/
theorem idx2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The row block is the whole row x. -/
theorem iblk2_0_apply (c : Dev nD) (t : Fin cfg2.N) (k : Fin 4096) :
    (iblk2 V c 0 t : Vec F S1x4096 .f32) (ix2 0 k) = V c (Pipeline.arrRef spec2 0) (ix2 0 k) := by
  obtain ⟨e0, e1, -⟩ := idx2 t
  show V c (Pipeline.arrRef spec2 0) (((cfg2.win 0).blk t).view.emb (ix2 0 k)) = _
  refine congrArg _ (funext fun a => Fin.ext ?_)
  match a with
  | ⟨0, _⟩ => show win2_0.index t (0 : Fin 2) * 1 + 1 * 0 = 0; omega
  | ⟨1, _⟩ => show win2_0.index t (1 : Fin 2) * 4096 + 1 * k.val = k.val; omega

/-- Row `q` of the weight block at point `t` is row `1024 t + q` of the weight matrix. -/
theorem iblk2_1_apply (c : Dev nD) (t : Fin cfg2.N) (q : Fin 1024) (k : Fin 4096) (r : Fin 12288) (hr : r.val = 1024 * t.val + q.val) :
    (iblk2 V c 1 t : Vec F S1024x4096 .f32) (ix2 q k) = V c (Pipeline.arrRef spec2 1) (ix2 r k) := by
  obtain ⟨-, -, e0, e1, -⟩ := idx2 t
  show V c (Pipeline.arrRef spec2 1) (((cfg2.win 1).blk t).view.emb (ix2 q k)) = _
  refine congrArg _ (funext fun a => Fin.ext ?_)
  match a with
  | ⟨0, _⟩ => show win2_1.index t (0 : Fin 2) * 1024 + 1 * q.val = r.val; omega
  | ⟨1, _⟩ => show win2_1.index t (1 : Fin 2) * 4096 + 1 * k.val = k.val; omega

/-- Lane `q` of the bias block at point `t` is lane `1024 t + q` of the bias row. -/
theorem iblk2_2_apply (c : Dev nD) (t : Fin cfg2.N) (q : Fin 1024) (r : Fin 12288) (hr : r.val = 1024 * t.val + q.val) :
    (iblk2 V c 2 t : Vec F S1x1024 .f32) (ix2 0 q) = V c (Pipeline.arrRef spec2 2) (ix2 0 r) := by
  obtain ⟨-, -, -, -, e0, e1, -⟩ := idx2 t
  show V c (Pipeline.arrRef spec2 2) (((cfg2.win 2).blk t).view.emb (ix2 0 q)) = _
  refine congrArg _ (funext fun a => Fin.ext ?_)
  match a with
  | ⟨0, _⟩ => show win2_2.index t (0 : Fin 2) * 1 + 1 * 0 = 0; omega
  | ⟨1, _⟩ => show win2_2.index t (1 : Fin 2) * 1024 + 1 * q.val = r.val; omega

/-- An index of the result row is in point `t`'s block iff each coordinate is in the block's range on its axis. -/
theorem mem_blk2_3 (t : Fin cfg2.N) (i : S1x12288.Idx) :
    i ∈ ((cfg2.win 3).blk t).view.set ↔ ∀ a : Fin 2, win2_3.index t a * S1x1024.size a ≤ (i a).val ∧ (i a).val < win2_3.index t a * S1x1024.size a + S1x1024.size a := by
  show i ∈ ((View.whole main_v29).slice (win2_3.rect t)).set ↔ _
  rw [View.set_slice_whole, Rect.mem_set_unit]
  exact Iff.rfl

/-- The 12 blocks of 1024 lanes cover the result row: lane `j` is in the block of point `j / 1024`. -/
theorem covered2_3 (i : S1x12288.Idx) : ∃ t : Fin cfg2.N, (cfg2.win 3).flush t = true ∧ i ∈ ((cfg2.win 3).blk t).view.set := by
  have h0 : (i 0).val < 1 := (i 0).isLt
  have h1 : (i 1).val < 12288 := (i 1).isLt
  have hN : cfg2.N = 12 := N_2
  obtain ⟨t, ht⟩ : ∃ t : Fin cfg2.N, t.val = (i 1).val / 1024 := ⟨⟨(i 1).val / 1024, by rw [hN]; omega⟩, rfl⟩
  obtain ⟨-, -, -, -, -, -, e0, e1⟩ := idx2 t
  refine ⟨t, flush2_3 t, ?_⟩
  rw [mem_blk2_3]
  intro a
  match a with
  | ⟨0, _⟩ => show win2_3.index t (0 : Fin 2) * 1 ≤ (i 0).val ∧ (i 0).val < win2_3.index t (0 : Fin 2) * 1 + 1; omega
  | ⟨1, _⟩ => show win2_3.index t (1 : Fin 2) * 1024 ≤ (i 1).val ∧ (i 1).val < win2_3.index t (1 : Fin 2) * 1024 + 1024; omega

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The array the region leaves, at the ideal instance -/

/-- Lane `j` of the matrix-vector product with bias: the zero word plus the sum over the 4096 columns of the row
    times weight row `j`, plus the bias at `j`. -/
def mvArr2 (X : Vec Ideal S1x4096 .f32) (W : Vec Ideal S12288x4096 .f32) (B : Vec Ideal S1x12288 .f32) (j : Fin 12288) : Ideal .f32 :=
  (Ideal.ofBits .f32 0x00000000#32 + ∑ k : Fin 4096, X (ix2 0 k) * W (ix2 j k)) + B (ix2 0 j)

/-- The whole result row. -/
def mvRow2 (X : Vec Ideal S1x4096 .f32) (W : Vec Ideal S12288x4096 .f32) (B : Vec Ideal S1x12288 .f32) : Vec Ideal S1x12288 .f32 :=
  fun i => mvArr2 X W B ⟨(i 1).val, idx2_lt1 i⟩

variable (V : (c : Dev nD) → (b : Ref sig .tc) → Buf (Elt Ideal) ((c : Thread nD τ).loc b))

/-- What point `t` writes back is block `t` of the result row of the three arrays as the region finds them. -/
theorem flushed2_3 (c : Dev nD) (t : Fin cfg2.N) :
    (dat2 (F := Ideal) V c).flushed 3 t = ((cfg2.win 3).blk t).view.read (Elt Ideal)
      (mvRow2 (V c (Pipeline.arrRef spec2 0)) (V c (Pipeline.arrRef spec2 1)) (V c (Pipeline.arrRef spec2 2))) := by
  obtain ⟨-, -, -, -, -, -, e0, e1⟩ := idx2 t
  have hN : cfg2.N = 12 := N_2
  have ht : t.val < 12 := hN ▸ t.isLt
  show (cfg2.win 3).cut (grid2.coords t) ((dat2 V c).after 3 t) = _
  rw [after2_3]
  unfold outAt2
  rw [out2_3_eq]
  funext y
  obtain ⟨p, q, rfl⟩ : ∃ (p : Fin 1) (q : Fin 1024), y = ix2 p q := ⟨y 0, y 1, eq_ix2 y⟩
  obtain rfl : p = 0 := Subsingleton.elim _ _
  have hr : 1024 * t.val + q.val < 12288 := by have := q.isLt; omega
  show k2_pay3 (F := Ideal) (k2_pay2 (iblk2 V c 0 t) (iblk2 V c 1 t) (k2_pay1 (F := Ideal))) (iblk2 V c 2 t) (ix2 0 q)
    = mvRow2 (V c (Pipeline.arrRef spec2 0)) (V c (Pipeline.arrRef spec2 1)) (V c (Pipeline.arrRef spec2 2)) (((cfg2.win 3).blk t).view.emb (ix2 0 q))
  refine (k2_pay_apply (iblk2 V c 0 t) (iblk2 V c 1 t) (iblk2 V c 2 t) q).trans ?_
  have eG : mvRow2 (V c (Pipeline.arrRef spec2 0)) (V c (Pipeline.arrRef spec2 1)) (V c (Pipeline.arrRef spec2 2)) (((cfg2.win 3).blk t).view.emb (ix2 0 q))
      = mvArr2 (V c (Pipeline.arrRef spec2 0)) (V c (Pipeline.arrRef spec2 1)) (V c (Pipeline.arrRef spec2 2)) ⟨1024 * t.val + q.val, hr⟩ := by
    unfold mvRow2
    refine congrArg _ (Fin.ext ?_)
    show win2_3.index t (1 : Fin 2) * 1024 + 1 * q.val = 1024 * t.val + q.val
    omega
  rw [eG]
  unfold mv mvArr2
  rw [iblk2_2_apply V c t q ⟨1024 * t.val + q.val, hr⟩ rfl]
  refine congrArg (· + _) (congrArg (_ + ·) (Finset.sum_congr rfl fun k _ => ?_))
  rw [iblk2_0_apply V c t k, iblk2_1_apply V c t q k ⟨1024 * t.val + q.val, hr⟩ rfl]

/-- The result row after the region, whole. -/
theorem arr2_row (c : Dev nD) :
    (dat2 (F := Ideal) V c).arrAt 3 cfg2.N
      = mvRow2 (V c (Pipeline.arrRef spec2 0)) (V c (Pipeline.arrRef spec2 1)) (V c (Pipeline.arrRef spec2 2)) :=
  (dat2 V c).arrAt_eq_of_cover 3
    (mvRow2 (V c (Pipeline.arrRef spec2 0)) (V c (Pipeline.arrRef spec2 1)) (V c (Pipeline.arrRef spec2 2)))
    (fun t _ => flushed2_3 V c t) covered2_3

/-- Lane `j` of the result row after the region: the row's product with weight row `j`, plus the bias. -/
theorem arr2 (c : Dev nD) (j : Fin 12288) :
    (dat2 (F := Ideal) V c).arrAt 3 cfg2.N (ix2 0 j)
      = mvArr2 (V c (Pipeline.arrRef spec2 0)) (V c (Pipeline.arrRef spec2 1)) (V c (Pipeline.arrRef spec2 2)) j := by
  rw [arr2_row]
  rfl

end Cert.KernelIdeal.Hand

end
-- ==== Proof.KernelIdeal.Region3Value.lean ====
/- REGION 3 of @main, the GRU gate kernel: the value of the block it leaves, at the ideal instance, index by index.

   With gi and gh the two 1 x 12288 input blocks (three consecutive thirds of 4096 lanes: reset, update, candidate)
   and h the 1 x 4096 previous state, lane q of the output block is
       (1 - z) * n + z * h q,   r = logistic (gi q + gh q),   z = logistic (gi (q + 4096) + gh (q + 4096)),
                                n = tanh (gi (q + 8192) + r * gh (q + 8192)),
   every operation the extended reals' and the constant 1 the extended real its word denotes. -/
import proofs.«101019_j40913858462225_2_alg».proof.Proof.KernelIdeal.Region3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-! ## The three thirds of a 1 x 12288 block -/

/-- Lane `q` of the first third. -/
abbrev lane0 (q : Fin 4096) : Fin 12288 := ⟨q.val, by omega⟩
/-- Lane `q` of the second third. -/
abbrev lane1 (q : Fin 4096) : Fin 12288 := ⟨q.val + 4096, by omega⟩
/-- Lane `q` of the last third. -/
abbrev lane2 (q : Fin 4096) : Fin 12288 := ⟨q.val + 8192, by omega⟩

/-- A slice of 4096 lanes of a 1 x 12288 block starting at lane `off`, read at lane `q`, is the block at lane
    `off + q`. -/
theorem slice_lane {α : Type} (x : S1x12288.Idx → α) (off : Nat) (h : S1x12288.Slices ![0, off] S1x4096) (q : Fin 4096)
    (k : Fin 12288) (hk : k.val = off + q.val) :
    extractStridedSlice S1x4096 ![0, off] x h (ix2 0 q) = x (ix2 0 k) :=
  extractStridedSlice_apply ![0, off] x h (ix2 0 q) (ix2 0 k) fun a => match a with
    | ⟨0, _⟩ => by show (0 : ℕ) = 0 + 0; rfl
    | ⟨1, _⟩ => by show k.val = off + q.val; exact hk

/-! ## The elementwise transcendental operations at an index, at the ideal instance -/

/-- A logistic at an index is the logistic of the element. -/
theorem logistic_apply {s : Shape} {φ : FTy} (a : FVec Ideal s φ) (i : s.Idx) : logistic a i = Ideal.logistic (a i) := rfl
/-- A hyperbolic tangent at an index is that of the element. -/
theorem tanh_apply {s : Shape} {φ : FTy} (a : FVec Ideal s φ) (i : s.Idx) : tanh a i = Ideal.tanh (a i) := rfl

/-! ## The gate arithmetic at a lane -/

/-- The new state at lane `q` from the two gate blocks and the previous state: (1 - z) * n + z * h. -/
def gate (x0 x1 : Vec Ideal S1x12288 .f32) (x2 : Vec Ideal S1x4096 .f32) (q : Fin 4096) : Ideal .f32 :=
  (Ideal.ofBits .f32 0x3F800000#32 - Ideal.logistic (x0 (ix2 0 (lane1 q)) + x1 (ix2 0 (lane1 q))))
      * Ideal.tanh (x0 (ix2 0 (lane2 q)) + Ideal.logistic (x0 (ix2 0 (lane0 q)) + x1 (ix2 0 (lane0 q))) * x1 (ix2 0 (lane2 q)))
    + Ideal.logistic (x0 (ix2 0 (lane1 q)) + x1 (ix2 0 (lane1 q))) * x2 (ix2 0 q)

/-- The store's payload at lane `q` is the gate arithmetic there. -/
theorem k3_pay1_apply (x0 x1 : Vec Ideal S1x12288 .f32) (x2 : Vec Ideal S1x4096 .f32) (q : Fin 4096) :
    k3_pay1 (F := Ideal) x0 x1 x2 (ix2 0 q) = gate x0 x1 x2 q := by
  unfold k3_pay1 gate
  simp only [shapeCast_self]
  simp only [addf_apply, mulf_apply, subf_apply, broadcast_apply, logistic_apply, tanh_apply]
  rw [slice_lane x0 0 slices_S1x12288_o0_0_S1x4096 q (lane0 q) (Nat.zero_add _).symm,
    slice_lane x1 0 slices_S1x12288_o0_0_S1x4096 q (lane0 q) (Nat.zero_add _).symm,
    slice_lane x0 4096 slices_S1x12288_o0_4096_S1x4096 q (lane1 q) (Nat.add_comm _ _),
    slice_lane x1 4096 slices_S1x12288_o0_4096_S1x4096 q (lane1 q) (Nat.add_comm _ _),
    slice_lane x0 8192 slices_S1x12288_o0_8192_S1x4096 q (lane2 q) (Nat.add_comm _ _),
    slice_lane x1 8192 slices_S1x12288_o0_8192_S1x4096 q (lane2 q) (Nat.add_comm _ _)]
  rfl

/-! ## The output block at a lane -/

theorem offsets_zero : (![0, 0] : Fin 2 → Nat) = fun _ => 0 := funext fun a => by fin_cases a <;> rfl

/-- What the body leaves in the output window's buffer is the store's payload of the three input blocks: the loads
    and the store are through the whole buffers. -/
theorem out3_3_eq_pay {F : FTy → Type} [FloatOps F] (x0 x1 : Vec F S1x12288 .f32) (x2 : Vec F S1x4096 .f32) :
    out3_3 x0 x1 x2 = k3_pay1 x0 x1 x2 := by
  unfold out3_3
  rw [View.canon_unit_zero offsets_zero]
  simp only [View.ld_unit_zero (S := S1x12288) offsets_zero, View.ld_unit_zero (S := S1x4096) offsets_zero]

/-- Lane `q` of the output block is the gate arithmetic of the input blocks there. -/
theorem out3_3_apply (x0 x1 : Vec Ideal S1x12288 .f32) (x2 : Vec Ideal S1x4096 .f32) (q : Fin 4096) :
    out3_3 (F := Ideal) x0 x1 x2 (ix2 0 q) = gate x0 x1 x2 q := by
  rw [out3_3_eq_pay, k3_pay1_apply]

end Cert.KernelIdeal.Hand

end
-- ==== Proof.KernelIdeal.Region3Array.lean ====
/- REGION 3 of @main, the GRU gate kernel: from its one block to the array.

   The grid has one point and every window's block is its whole array (block index 0 on both axes), so each input
   block is the array the region finds, the one write-back covers the output array, and the array the region leaves
   is, lane by lane, the gate arithmetic (1 - z) * n + z * h of the three arrays it found. -/
import proofs.«101019_j40913858462225_2_alg».proof.Proof.KernelIdeal.Region3Value
import Idealize.ShloMosaic.Lib.Pipeline.Value
import Idealize.ShloMosaic.Lib.ValueIdx

set_option maxRecDepth 16384

noncomputable section

namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## Every window's block is its whole array -/

/-- At the one grid point every window's block index is 0 on both axes. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Reading gi's block off an array reads the array. -/
theorem blk_read3_0 (t : Fin cfg3.N) (G : Vec F S1x12288 .f32) :
    (((cfg3.win 0).blk t).view.read (Elt F) G : Vec F S1x12288 .f32) = G := by
  obtain ⟨e0, e1, -⟩ := idx3 t
  funext y
  show G (((cfg3.win 0).blk t).view.emb y) = G y
  refine congrArg _ (funext fun a => Fin.ext ?_)
  match a with
  | ⟨0, _⟩ => show win3_0.index t (0 : Fin 2) * 1 + 1 * (y 0).val = (y 0).val; omega
  | ⟨1, _⟩ => show win3_0.index t (1 : Fin 2) * 12288 + 1 * (y 1).val = (y 1).val; omega
/-- Reading gh's block off an array reads the array. -/
theorem blk_read3_1 (t : Fin cfg3.N) (G : Vec F S1x12288 .f32) :
    (((cfg3.win 1).blk t).view.read (Elt F) G : Vec F S1x12288 .f32) = G := by
  obtain ⟨-, -, e0, e1, -⟩ := idx3 t
  funext y
  show G (((cfg3.win 1).blk t).view.emb y) = G y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 12288 + 1 * (y 1).val = (y 1).val; omega
/-- Reading the previous state's block off an array reads the array. -/
theorem blk_read3_2 (t : Fin cfg3.N) (G : Vec F S1x4096 .f32) :
    (((cfg3.win 2).blk t).view.read (Elt F) G : Vec F S1x4096 .f32) = G := by
  obtain ⟨-, -, -, -, e0, e1, -⟩ := idx3 t
  funext y
  show G (((cfg3.win 2).blk t).view.emb y) = G y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 4096 + 1 * (y 1).val = (y 1).val; omega
/-- Reading the new state's block off an array reads the array. -/
theorem blk_read3_3 (t : Fin cfg3.N) (G : Vec F S1x4096 .f32) :
    (((cfg3.win 3).blk t).view.read (Elt F) G : Vec F S1x4096 .f32) = G := by
  obtain ⟨-, -, -, -, -, -, e0, e1⟩ := idx3 t
  funext y
  show G (((cfg3.win 3).blk t).view.emb y) = G y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 4096 + 1 * (y 1).val = (y 1).val; omega

/-- The block of gi is the array the region finds. -/
theorem iblk3_0_eq (c : Dev nD) (t : Fin cfg3.N) : (iblk3 V c 0 t : Vec F S1x12288 .f32) = V c (Pipeline.arrRef spec3 0) :=
  blk_read3_0 t _
/-- The block of gh is the array the region finds. -/
theorem iblk3_1_eq (c : Dev nD) (t : Fin cfg3.N) : (iblk3 V c 1 t : Vec F S1x12288 .f32) = V c (Pipeline.arrRef spec3 1) :=
  blk_read3_1 t _
/-- The block of the previous state is the array the region finds. -/
theorem iblk3_2_eq (c : Dev nD) (t : Fin cfg3.N) : (iblk3 V c 2 t : Vec F S1x4096 .f32) = V c (Pipeline.arrRef spec3 2) :=
  blk_read3_2 t _

/-! ## What the one point writes back, and that it covers the array -/

/-- What the point writes back is the (whole) block of the payload of the three arrays as the region finds them. -/
theorem flushed3_3 (c : Dev nD) (t : Fin cfg3.N) :
    (dat3 V c).flushed 3 t = ((cfg3.win 3).blk t).view.read (Elt F)
      (out3_3 (V c (Pipeline.arrRef spec3 0)) (V c (Pipeline.arrRef spec3 1)) (V c (Pipeline.arrRef spec3 2))) := by
  show (cfg3.win 3).cut (grid3.coords t) ((dat3 V c).after 3 t) = _
  rw [after3_3]
  refine Eq.trans ?_ (blk_read3_3 t _).symm
  exact (congrArg (fun x => out3_3 x (iblk3 V c 1 t) (iblk3 V c 2 t)) (iblk3_0_eq V c t)).trans
    ((congrArg (fun x => out3_3 (V c (Pipeline.arrRef spec3 0)) x (iblk3 V c 2 t)) (iblk3_1_eq V c t)).trans
      (congrArg (fun x => out3_3 (V c (Pipeline.arrRef spec3 0)) (V c (Pipeline.arrRef spec3 1)) x) (iblk3_2_eq V c t)))

/-- An index of the output array is in the point's block iff each coordinate is in the block's range on its axis. -/
theorem mem_blk3_3 (t : Fin cfg3.N) (i : S1x4096.Idx) :
    i ∈ ((cfg3.win 3).blk t).view.set ↔ ∀ a : Fin 2, win3_3.index t a * S1x4096.size a ≤ (i a).val ∧ (i a).val < win3_3.index t a * S1x4096.size a + S1x4096.size a := by
  show i ∈ ((View.whole main_v30).slice (win3_3.rect t)).set ↔ _
  rw [View.set_slice_whole, Rect.mem_set_unit]
  exact Iff.rfl

/-- The one point's block covers the output array. -/
theorem covered3_3 (i : S1x4096.Idx) : ∃ t : Fin cfg3.N, (cfg3.win 3).flush t = true ∧ i ∈ ((cfg3.win 3).blk t).view.set := by
  obtain ⟨-, -, -, -, -, -, e0, e1⟩ := idx3 t3_0
  have h0 : (i 0).val < 1 := (i 0).isLt
  have h1 : (i 1).val < 4096 := (i 1).isLt
  refine ⟨t3_0, flush3_3 t3_0, ?_⟩
  rw [mem_blk3_3]
  intro a
  match a with
  | ⟨0, _⟩ => show win3_3.index t3_0 (0 : Fin 2) * 1 ≤ (i 0).val ∧ (i 0).val < win3_3.index t3_0 (0 : Fin 2) * 1 + 1; omega
  | ⟨1, _⟩ => show win3_3.index t3_0 (1 : Fin 2) * 4096 ≤ (i 1).val ∧ (i 1).val < win3_3.index t3_0 (1 : Fin 2) * 4096 + 4096; omega

/-! ## The array the region leaves -/

/-- The output array after the region is the store's payload of the three arrays the region found, at any instance. -/
theorem arr3_pay (c : Dev nD) :
    (dat3 V c).arrAt 3 cfg3.N
      = k3_pay1 (V c (Pipeline.arrRef spec3 0)) (V c (Pipeline.arrRef spec3 1)) (V c (Pipeline.arrRef spec3 2)) :=
  ((dat3 V c).arrAt_eq_of_cover 3
      (out3_3 (V c (Pipeline.arrRef spec3 0)) (V c (Pipeline.arrRef spec3 1)) (V c (Pipeline.arrRef spec3 2)))
      (fun t _ => flushed3_3 V c t) covered3_3).trans (out3_3_eq_pay _ _ _)

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem

/-- At the ideal instance, lane `q` of the output array after the region is the gate arithmetic of the three arrays
    the region found: with gi, gh, h those arrays, (1 - z) * n + z * h q where r = logistic (gi q + gh q),
    z = logistic (gi (q + 4096) + gh (q + 4096)), n = tanh (gi (q + 8192) + r * gh (q + 8192)). -/
theorem arr3 (V : (c : Dev nD) → (b : Ref sig .tc) → Buf (Elt Ideal) ((c : Thread nD τ).loc b)) (c : Dev nD) (q : Fin 4096) :
    (dat3 (F := Ideal) V c).arrAt 3 cfg3.N (ix2 0 q)
      = gate (V c (Pipeline.arrRef spec3 0)) (V c (Pipeline.arrRef spec3 1)) (V c (Pipeline.arrRef spec3 2)) q := by
  rw [arr3_pay]
  exact k3_pay1_apply _ _ _ q

/-- The same with the arrays by name: gi is the third matrix-vector product, gh the first, h the reshaped state. -/
theorem arr3_named (V : (c : Dev nD) → (b : Ref sig .tc) → Buf (Elt Ideal) ((c : Thread nD τ).loc b)) (c : Dev nD) (q : Fin 4096) :
    (dat3 (F := Ideal) V c).arrAt 3 cfg3.N (ix2 0 q) = gate (V c main_v29) (V c main_v2) (V c main_v0) q :=
  arr3 V c q

end Cert.KernelIdeal.Hand

end
-- ==== Proof.KernelIdeal.Region4Value.lean ====
/- REGION 4 of @main (one tile of contraction per point): the block a point leaves in the output window, as a term of
   the point's three input blocks, at any float instance.

   The body resets the accumulator, adds the product of the row block with the weight block into it, reads it back,
   adds the bias block and stores the sum: so the output block is the bias-add payload of the accumulate payload of the
   reset payload — the read-backs of the accumulator are covered by the stores before them, whatever it held. -/
import proofs.«101019_j40913858462225_2_alg».proof.Proof.KernelIdeal.Region4
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz4 : (![0, 0] : Fin 2 → Nat) = fun _ => 0 := funext fun a => by fin_cases a <;> rfl

/-- What the body leaves in the output block's staging buffer, as a term of the three input blocks: the last store's
    payload — the accumulator it reads back is the accumulation store's payload over the reset store's, whatever the
    accumulator held before. -/
theorem out4_3_eq {F : FTy → Type} [FloatOps F] (c : Dev nD) (i : grid4.Coords)
    (arg2 : Memref sig .tc .vmem S1x4096 .f32) (harg2 : arg2.IsWhole) (arg3 : Memref sig .tc .vmem S1024x4096 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (hc0 : cond4_0 i) (hc1 : cond4_1 i)
    (x0 : Vec F S1x4096 .f32) (x1 : Vec F S1024x4096 .f32) (x2 : Vec F S1x1024 .f32) :
    out4_3 c i arg2 harg2 arg3 harg3 arg4 harg4 arg5 harg5 arg6 harg6 hc0 hc1 x0 x1 x2 = k4_pay3 (k4_pay2 x0 x1 k4_pay1) x2 := by
  unfold out4_3
  rw [View.read_writes_eq_canon _ _ _ (cover4_3 c i arg2 harg2 arg3 harg3 arg4 harg4 arg5 harg5 arg6 harg6 hc0 hc1 x0 x1 x2)]
  unfold kernelRun4
  dsimp only
  sl_unfold_words
  rw [View.canon_unit_zero (S := S1x1024) hz4]
  simp only [View.readCov_cons_toLoadRect]
  simp only [View.readAt_eq_ld, harg2.read_unread, harg3.read_unread, harg4.read_unread,
    View.ld_unit_zero (S := S1x4096) hz4, View.ld_unit_zero (S := S1024x4096) hz4, View.ld_unit_zero (S := S1x1024) hz4]

end Cert.KernelIdeal.Hand

end
-- ==== Proof.KernelIdeal.Region4Array.lean ====
/- REGION 4 of @main, logits = h' · W_outᵀ + b_out: from the 4 blocks to the array, at the ideal instance.

   Point t holds the whole 1 x 4096 row x, rows 1024 t … 1024 t + 1023 of the 4096 x 4096 weight matrix and lanes
   1024 t … 1024 t + 1023 of the bias row, and writes back lanes 1024 t … 1024 t + 1023 of the result row; the 4 blocks
   tile the row. So lane j of the result row after the region is
       (0 + sum over the 4096 columns k of x (0, k) * W (j, k)) + b (0, j). -/
import proofs.«101019_j40913858462225_2_alg».proof.Proof.KernelIdeal.Region4Value
import proofs.«101019_j40913858462225_2_alg».proof.Proof.KernelIdeal.MatVecValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The blocks of the windows at a point -/

/-- At point `t` the row x is block (0, 0) of its array, the weight rows are block (t, 0), the bias and the result are
    block (0, t). -/
theorem idx4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val
    ∧ win4_3.index t (0 : Fin 2) = 0 ∧ win4_3.index t (1 : Fin 2) = t.val :=
  (by decide +kernel : ∀ t : Fin grid4.N, _)

/-- The row block is the whole row x. -/
theorem iblk4_0_apply (c : Dev nD) (t : Fin cfg4.N) (k : Fin 4096) :
    (iblk4 V c 0 t : Vec F S1x4096 .f32) (ix2 0 k) = V c (Pipeline.arrRef spec4 0) (ix2 0 k) := by
  obtain ⟨e0, e1, -⟩ := idx4 t
  show V c (Pipeline.arrRef spec4 0) (((cfg4.win 0).blk t).view.emb (ix2 0 k)) = _
  refine congrArg _ (funext fun a => Fin.ext ?_)
  match a with
  | ⟨0, _⟩ => show win4_0.index t (0 : Fin 2) * 1 + 1 * 0 = 0; omega
  | ⟨1, _⟩ => show win4_0.index t (1 : Fin 2) * 4096 + 1 * k.val = k.val; omega

/-- Row `q` of the weight block at point `t` is row `1024 t + q` of the weight matrix. -/
theorem iblk4_1_apply (c : Dev nD) (t : Fin cfg4.N) (q : Fin 1024) (k : Fin 4096) (r : Fin 4096) (hr : r.val = 1024 * t.val + q.val) :
    (iblk4 V c 1 t : Vec F S1024x4096 .f32) (ix2 q k) = V c (Pipeline.arrRef spec4 1) (ix2 r k) := by
  obtain ⟨-, -, e0, e1, -⟩ := idx4 t
  show V c (Pipeline.arrRef spec4 1) (((cfg4.win 1).blk t).view.emb (ix2 q k)) = _
  refine congrArg _ (funext fun a => Fin.ext ?_)
  match a with
  | ⟨0, _⟩ => show win4_1.index t (0 : Fin 2) * 1024 + 1 * q.val = r.val; omega
  | ⟨1, _⟩ => show win4_1.index t (1 : Fin 2) * 4096 + 1 * k.val = k.val; omega

/-- Lane `q` of the bias block at point `t` is lane `1024 t + q` of the bias row. -/
theorem iblk4_2_apply (c : Dev nD) (t : Fin cfg4.N) (q : Fin 1024) (r : Fin 4096) (hr : r.val = 1024 * t.val + q.val) :
    (iblk4 V c 2 t : Vec F S1x1024 .f32) (ix2 0 q) = V c (Pipeline.arrRef spec4 2) (ix2 0 r) := by
  obtain ⟨-, -, -, -, e0, e1, -⟩ := idx4 t
  show V c (Pipeline.arrRef spec4 2) (((cfg4.win 2).blk t).view.emb (ix2 0 q)) = _
  refine congrArg _ (funext fun a => Fin.ext ?_)
  match a with
  | ⟨0, _⟩ => show win4_2.index t (0 : Fin 2) * 1 + 1 * 0 = 0; omega
  | ⟨1, _⟩ => show win4_2.index t (1 : Fin 2) * 1024 + 1 * q.val = r.val; omega

/-- An index of the result row is in point `t`'s block iff each coordinate is in the block's range on its axis. -/
theorem mem_blk4_3 (t : Fin cfg4.N) (i : S1x4096.Idx) :
    i ∈ ((cfg4.win 3).blk t).view.set ↔ ∀ a : Fin 2, win4_3.index t a * S1x1024.size a ≤ (i a).val ∧ (i a).val < win4_3.index t a * S1x1024.size a + S1x1024.size a := by
  show i ∈ ((View.whole main_v32).slice (win4_3.rect t)).set ↔ _
  rw [View.set_slice_whole, Rect.mem_set_unit]
  exact Iff.rfl

/-- The 4 blocks of 1024 lanes cover the result row: lane `j` is in the block of point `j / 1024`. -/
theorem covered4_3 (i : S1x4096.Idx) : ∃ t : Fin cfg4.N, (cfg4.win 3).flush t = true ∧ i ∈ ((cfg4.win 3).blk t).view.set := by
  have h0 : (i 0).val < 1 := (i 0).isLt
  have h1 : (i 1).val < 4096 := (i 1).isLt
  have hN : cfg4.N = 4 := N_4
  obtain ⟨t, ht⟩ : ∃ t : Fin cfg4.N, t.val = (i 1).val / 1024 := ⟨⟨(i 1).val / 1024, by rw [hN]; omega⟩, rfl⟩
  obtain ⟨-, -, -, -, -, -, e0, e1⟩ := idx4 t
  refine ⟨t, flush4_3 t, ?_⟩
  rw [mem_blk4_3]
  intro a
  match a with
  | ⟨0, _⟩ => show win4_3.index t (0 : Fin 2) * 1 ≤ (i 0).val ∧ (i 0).val < win4_3.index t (0 : Fin 2) * 1 + 1; omega
  | ⟨1, _⟩ => show win4_3.index t (1 : Fin 2) * 1024 ≤ (i 1).val ∧ (i 1).val < win4_3.index t (1 : Fin 2) * 1024 + 1024; omega

end Cert.KernelIdeal.Hand

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The array the region leaves, at the ideal instance -/

/-- Lane `j` of the matrix-vector product with bias: the zero word plus the sum over the 4096 columns of the row
    times weight row `j`, plus the bias at `j`. -/
def mvArr4 (X : Vec Ideal S1x4096 .f32) (W : Vec Ideal S4096x4096 .f32) (B : Vec Ideal S1x4096 .f32) (j : Fin 4096) : Ideal .f32 :=
  (Ideal.ofBits .f32 0x00000000#32 + ∑ k : Fin 4096, X (ix2 0 k) * W (ix2 j k)) + B (ix2 0 j)

/-- The whole result row. -/
def mvRow4 (X : Vec Ideal S1x4096 .f32) (W : Vec Ideal S4096x4096 .f32) (B : Vec Ideal S1x4096 .f32) : Vec Ideal S1x4096 .f32 :=
  fun i => mvArr4 X W B ⟨(i 1).val, idx2_lt1 i⟩

variable (V : (c : Dev nD) → (b : Ref sig .tc) → Buf (Elt Ideal) ((c : Thread nD τ).loc b))

/-- What point `t` writes back is block `t` of the result row of the three arrays as the region finds them. -/
theorem flushed4_3 (c : Dev nD) (t : Fin cfg4.N) :
    (dat4 (F := Ideal) V c).flushed 3 t = ((cfg4.win 3).blk t).view.read (Elt Ideal)
      (mvRow4 (V c (Pipeline.arrRef spec4 0)) (V c (Pipeline.arrRef spec4 1)) (V c (Pipeline.arrRef spec4 2))) := by
  obtain ⟨-, -, -, -, -, -, e0, e1⟩ := idx4 t
  have hN : cfg4.N = 4 := N_4
  have ht : t.val < 4 := hN ▸ t.isLt
  show (cfg4.win 3).cut (grid4.coords t) ((dat4 V c).after 3 t) = _
  rw [after4_3]
  unfold outAt4
  rw [out4_3_eq]
  funext y
  obtain ⟨p, q, rfl⟩ : ∃ (p : Fin 1) (q : Fin 1024), y = ix2 p q := ⟨y 0, y 1, eq_ix2 y⟩
  obtain rfl : p = 0 := Subsingleton.elim _ _
  have hr : 1024 * t.val + q.val < 4096 := by have := q.isLt; omega
  show k4_pay3 (F := Ideal) (k4_pay2 (iblk4 V c 0 t) (iblk4 V c 1 t) (k4_pay1 (F := Ideal))) (iblk4 V c 2 t) (ix2 0 q)
    = mvRow4 (V c (Pipeline.arrRef spec4 0)) (V c (Pipeline.arrRef spec4 1)) (V c (Pipeline.arrRef spec4 2)) (((cfg4.win 3).blk t).view.emb (ix2 0 q))
  refine (k4_pay_apply (iblk4 V c 0 t) (iblk4 V c 1 t) (iblk4 V c 2 t) q).trans ?_
  have eG : mvRow4 (V c (Pipeline.arrRef spec4 0)) (V c (Pipeline.arrRef spec4 1)) (V c (Pipeline.arrRef spec4 2)) (((cfg4.win 3).blk t).view.emb (ix2 0 q))
      = mvArr4 (V c (Pipeline.arrRef spec4 0)) (V c (Pipeline.arrRef spec4 1)) (V c (Pipeline.arrRef spec4 2)) ⟨1024 * t.val + q.val, hr⟩ := by
    unfold mvRow4
    refine congrArg _ (Fin.ext ?_)
    show win4_3.index t (1 : Fin 2) * 1024 + 1 * q.val = 1024 * t.val + q.val
    omega
  rw [eG]
  unfold mv mvArr4
  rw [iblk4_2_apply V c t q ⟨1024 * t.val + q.val, hr⟩ rfl]
  refine congrArg (· + _) (congrArg (_ + ·) (Finset.sum_congr rfl fun k _ => ?_))
  rw [iblk4_0_apply V c t k, iblk4_1_apply V c t q k ⟨1024 * t.val + q.val, hr⟩ rfl]

/-- The result row after the region, whole. -/
theorem arr4_row (c : Dev nD) :
    (dat4 (F := Ideal) V c).arrAt 3 cfg4.N
      = mvRow4 (V c (Pipeline.arrRef spec4 0)) (V c (Pipeline.arrRef spec4 1)) (V c (Pipeline.arrRef spec4 2)) :=
  (dat4 V c).arrAt_eq_of_cover 3
    (mvRow4 (V c (Pipeline.arrRef spec4 0)) (V c (Pipeline.arrRef spec4 1)) (V c (Pipeline.arrRef spec4 2)))
    (fun t _ => flushed4_3 V c t) covered4_3

/-- Lane `j` of the result row after the region: the row's product with weight row `j`, plus the bias. -/
theorem arr4 (c : Dev nD) (j : Fin 4096) :
    (dat4 (F := Ideal) V c).arrAt 3 cfg4.N (ix2 0 j)
      = mvArr4 (V c (Pipeline.arrRef spec4 0)) (V c (Pipeline.arrRef spec4 1)) (V c (Pipeline.arrRef spec4 2)) j := by
  rw [arr4_row]
  rfl

end Cert.KernelIdeal.Hand

end
-- ==== Proof.Spec.lean ====
/-
  The specification of one GRU-attention decoder step, at the ideal instance (entries are extended reals): every
  result as ONE function of the argument arrays. The dense stages are given index by index: a matrix-vector product
  with an OUTPUT-major weight W : [N, K] and a rank-1 bias is j ↦ (∑ k, x(0,k) · W(j,k)) + b(j); the rectifier is
  max · 0; the gate stage is h' = (1 − z)·n + z·h with r = σ(gi_r + gh_r), z = σ(gi_z + gh_z),
  n = tanh(gi_n + r·gh_n) over the three column blocks [0, 4096), [4096, 8192), [8192, 12288) of the two
  gate pre-activations, σ x = 1 / (1 + exp (−x)). The stages both programs compute by the same host operations (the
  embedding row chosen by the wrapped token index, the attention weights, a 15-way softmax of an affine map of the
  concatenated embedding and hidden state, the concatenation of the embedding with the attended context, and the final
  log-softmax) are carried as NAMED functions of their operands and are never opened.
  Also here: the splitting of a sum over 8192 terms into its two halves of 4096 (associativity only), which is how a
  contraction accumulated over two tiles of the contracted axis meets the one sum above, and the constant words of 1.0
  and 0.0 as the extended reals 1 and 0.
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-! ## Shapes (literal) -/

abbrev S_ : Shape := ⟨0, ![]⟩
abbrev S1 : Shape := ⟨1, ![1]⟩
abbrev S15 : Shape := ⟨1, ![15]⟩
abbrev S4096 : Shape := ⟨1, ![4096]⟩
abbrev S12288 : Shape := ⟨1, ![12288]⟩
abbrev S1x1 : Shape := ⟨2, ![1, 1]⟩
abbrev S1x15 : Shape := ⟨2, ![1, 15]⟩
abbrev S1x4096 : Shape := ⟨2, ![1, 4096]⟩
abbrev S1x8192 : Shape := ⟨2, ![1, 8192]⟩
abbrev S1x12288 : Shape := ⟨2, ![1, 12288]⟩
abbrev S15x4096 : Shape := ⟨2, ![15, 4096]⟩
abbrev S15x8192 : Shape := ⟨2, ![15, 8192]⟩
abbrev S8192x15 : Shape := ⟨2, ![8192, 15]⟩
abbrev S4096x4096 : Shape := ⟨2, ![4096, 4096]⟩
abbrev S4096x8192 : Shape := ⟨2, ![4096, 8192]⟩
abbrev S12288x4096 : Shape := ⟨2, ![12288, 4096]⟩
abbrev S1x1x4096 : Shape := ⟨3, ![1, 1, 4096]⟩

/-! ## The dense stages, index by index -/

/-- x · Wᵀ + b for x : [1, 4096], W : [12288, 4096] (output-major), b : [12288]. -/
def mv4096x12288 (x : FVec Ideal S1x4096 .f32) (W : FVec Ideal S12288x4096 .f32) (b : FVec Ideal S12288 .f32) :
    FVec Ideal S1x12288 .f32 :=
  fun j => (∑ k : Fin 4096, x (ix2 (0 : Fin 1) k) * W (ix2 (j 1 : Fin 12288) k)) + b (ix1 (j 1 : Fin 12288))

/-- x · Wᵀ + b for x : [1, 8192], W : [4096, 8192] (output-major), b : [4096]. -/
def mv8192x4096 (x : FVec Ideal S1x8192 .f32) (W : FVec Ideal S4096x8192 .f32) (b : FVec Ideal S4096 .f32) :
    FVec Ideal S1x4096 .f32 :=
  fun j => (∑ k : Fin 8192, x (ix2 (0 : Fin 1) k) * W (ix2 (j 1 : Fin 4096) k)) + b (ix1 (j 1 : Fin 4096))

/-- x · Wᵀ + b for x : [1, 4096], W : [4096, 4096] (output-major), b : [4096]. -/
def mv4096x4096 (x : FVec Ideal S1x4096 .f32) (W : FVec Ideal S4096x4096 .f32) (b : FVec Ideal S4096 .f32) :
    FVec Ideal S1x4096 .f32 :=
  fun j => (∑ k : Fin 4096, x (ix2 (0 : Fin 1) k) * W (ix2 (j 1 : Fin 4096) k)) + b (ix1 (j 1 : Fin 4096))

theorem mv4096x12288_apply (x : FVec Ideal S1x4096 .f32) (W : FVec Ideal S12288x4096 .f32) (b : FVec Ideal S12288 .f32)
    (p : Fin 1) (q : Fin 12288) :
    mv4096x12288 x W b (ix2 p q) = (∑ k : Fin 4096, x (ix2 (0 : Fin 1) k) * W (ix2 q k)) + b (ix1 q) := rfl
theorem mv8192x4096_apply (x : FVec Ideal S1x8192 .f32) (W : FVec Ideal S4096x8192 .f32) (b : FVec Ideal S4096 .f32)
    (p : Fin 1) (q : Fin 4096) :
    mv8192x4096 x W b (ix2 p q) = (∑ k : Fin 8192, x (ix2 (0 : Fin 1) k) * W (ix2 q k)) + b (ix1 q) := rfl
theorem mv4096x4096_apply (x : FVec Ideal S1x4096 .f32) (W : FVec Ideal S4096x4096 .f32) (b : FVec Ideal S4096 .f32)
    (p : Fin 1) (q : Fin 4096) :
    mv4096x4096 x W b (ix2 p q) = (∑ k : Fin 4096, x (ix2 (0 : Fin 1) k) * W (ix2 q k)) + b (ix1 q) := rfl

/-- The rectifier. -/
def relu (x : FVec Ideal S1x4096 .f32) : FVec Ideal S1x4096 .f32 := fun j => max (x j) 0
theorem relu_apply (x : FVec Ideal S1x4096 .f32) (j : S1x4096.Idx) : relu x j = max (x j) 0 := rfl

/-- Column q of the reset block [0, 4096) of a gate pre-activation row. -/
abbrev colR (q : Fin 4096) : S1x12288.Idx := ix2 (0 : Fin 1) (⟨q.val, by omega⟩ : Fin 12288)
/-- Column q of the update block [4096, 8192). -/
abbrev colZ (q : Fin 4096) : S1x12288.Idx := ix2 (0 : Fin 1) (⟨q.val + 4096, by omega⟩ : Fin 12288)
/-- Column q of the candidate block [8192, 12288). -/
abbrev colN (q : Fin 4096) : S1x12288.Idx := ix2 (0 : Fin 1) (⟨q.val + 8192, by omega⟩ : Fin 12288)

/-- The reset gate r = σ(gi_r + gh_r) at column q. -/
def gateR (gi gh : FVec Ideal S1x12288 .f32) (q : Fin 4096) : EReal := Ideal.logistic (gi (colR q) + gh (colR q))
/-- The update gate z = σ(gi_z + gh_z) at column q. -/
def gateZ (gi gh : FVec Ideal S1x12288 .f32) (q : Fin 4096) : EReal := Ideal.logistic (gi (colZ q) + gh (colZ q))
/-- The candidate n = tanh(gi_n + r · gh_n) at column q. -/
def gateN (gi gh : FVec Ideal S1x12288 .f32) (q : Fin 4096) : EReal :=
  Ideal.tanh (gi (colN q) + gateR gi gh q * gh (colN q))

/-- The new hidden state (1 − z) · n + z · h. -/
def gate (gi gh : FVec Ideal S1x12288 .f32) (h0 : FVec Ideal S1x4096 .f32) : FVec Ideal S1x4096 .f32 :=
  fun j => (1 - gateZ gi gh (j 1 : Fin 4096)) * gateN gi gh (j 1 : Fin 4096) + gateZ gi gh (j 1 : Fin 4096) * h0 j
theorem gate_apply (gi gh : FVec Ideal S1x12288 .f32) (h0 : FVec Ideal S1x4096 .f32) (p : Fin 1) (q : Fin 4096) :
    gate gi gh h0 (ix2 p q) = (1 - gateZ gi gh q) * gateN gi gh q + gateZ gi gh q * h0 (ix2 p q) := rfl

/-! ## The stages both programs compute by the same host operations, as named functions -/

theorem h_S_ : 0 < S_.numel := by decide
theorem shapeCasts_S1_S_ : S1.ShapeCasts S_ := by decide
theorem sliceFits_S4096x4096_S1x4096 : S4096x4096.Slices (fun _ => 0) S1x4096 := by decide
theorem shapeCasts_S1x1x4096_S1x4096 : S1x1x4096.ShapeCasts S1x4096 := by decide
theorem concatenates_S1x4096_S1x4096_S1x8192_d1 : Shape.Concatenates [S1x4096, S1x4096] S1x8192 1 := by decide
theorem transposes_S15x8192_S8192x15_1_0 : S15x8192.Transposes [1, 0] S8192x15 := by decide
theorem bcast_S15_S1x15_1 : S15.BroadcastsInDim S1x15 (![1] : Fin 1 → Fin S1x15.rank) := by decide
theorem reducesTo_S1x15_S1_d1 : S1x15.ReducesTo [1] S1 := by decide
theorem bcast_S_S1 : S_.BroadcastsInDim S1 (![] : Fin 0 → Fin S1.rank) := by decide
theorem bcast_S1_S1x1_0 : S1.BroadcastsInDim S1x1 (![0] : Fin 1 → Fin S1x1.rank) := by decide
theorem bcast_S1x1_S1x15_0_1 : S1x1.BroadcastsInDim S1x15 (![0, 1] : Fin 2 → Fin S1x15.rank) := by decide
theorem reducesTo_S1x4096_S1_d1 : S1x4096.ReducesTo [1] S1 := by decide
theorem bcast_S1x1_S1x4096_0_1 : S1x1.BroadcastsInDim S1x4096 (![0, 1] : Fin 2 → Fin S1x4096.rank) := by decide
theorem bcast_S1x4096_S1x1x4096_1_2 : S1x4096.BroadcastsInDim S1x1x4096 (![1, 2] : Fin 2 → Fin S1x1x4096.rank) := by decide
theorem dotAtt_wf : DotDims.WF S1x8192 S8192x15 S1x15 [1] [0] [0] [1] [] [] := by decide
theorem dotCtx_wf : DotDims.WF S1x15 S15x4096 S1x4096 [1] [0] [0] [1] [] [] := by decide

/-- [1, 8192] × [8192, 15], contracting the 8192 axis. -/
def dotAtt : DotDims S1x8192 S8192x15 S1x15 where
  lhsContracting := [1]
  rhsContracting := [0]
  lhsNonContracting := [0]
  rhsNonContracting := [1]
  lhsBatch := []
  rhsBatch := []
  wf := dotAtt_wf
/-- [1, 15] × [15, 4096], contracting the 15 axis. -/
def dotCtx : DotDims S1x15 S15x4096 S1x4096 where
  lhsContracting := [1]
  rhsContracting := [0]
  lhsNonContracting := [0]
  rhsNonContracting := [1]
  lhsBatch := []
  rhsBatch := []
  wf := dotCtx_wf

/-- The hidden state [1, 1, 4096] as a row [1, 4096]. -/
def h0of (hidden : FVec Ideal S1x1x4096 .f32) : FVec Ideal S1x4096 .f32 :=
  shapeCast S1x4096 hidden shapeCasts_S1x1x4096_S1x4096

/-- The token index as a scalar, a negative one wrapped by the table's 4096 rows. -/
def tokenIdx (ids : IVec S1 32) : IVec S_ 32 :=
  select (cmpi .slt (shapeCast S_ ids shapeCasts_S1_S_) (constantI S_ 32 0#32))
    (addi (shapeCast S_ ids shapeCasts_S1_S_) (constantI S_ 32 4096#32)) (shapeCast S_ ids shapeCasts_S1_S_)

/-- The embedding row: the [1, 4096] block of the table at row tokenIdx, column 0 (start indices clamped into the
    table, as a dynamic slice clamps them). -/
def embRow (ids : IVec S1 32) (embW : FVec Ideal S4096x4096 .f32) : FVec Ideal S1x4096 .f32 :=
  Host.dynamicSlice S1x4096 embW
    (fun k => ((![tokenIdx ids, constantI S_ 32 0#32] : Fin 2 → IVec S_ 32) k (Shape.Idx.first h_S_)).toInt)
    sliceFits_S4096x4096_S1x4096

/-- The attention logits [emb, h0] · attWᵀ + attb : [1, 15]. -/
def attLogits (emb h0 : FVec Ideal S1x4096 .f32) (attW : FVec Ideal S15x8192 .f32) (attb : FVec Ideal S15 .f32) :
    FVec Ideal S1x15 .f32 :=
  addf
    (Host.dotGeneral (F := Ideal) dotAtt none
      (concatenate S1x8192 1 [⟨S1x4096, emb⟩, ⟨S1x4096, h0⟩] concatenates_S1x4096_S1x4096_S1x8192_d1)
      (transpose S8192x15 [1, 0] attW transposes_S15x8192_S8192x15_1_0))
    (broadcastInDim S1x15 ![1] bcast_S15_S1x15_1 attb)

/-- exp (l − max l) along the 15 entries. -/
def softmaxNum (l : FVec Ideal S1x15 .f32) : FVec Ideal S1x15 .f32 :=
  Host.exp (F := Ideal) (subf l (broadcastInDim S1x15 ![0, 1] bcast_S1x1_S1x15_0_1 (broadcastInDim S1x1 ![0] bcast_S1_S1x1_0
    (maximumf (broadcastInDim S1 ![] bcast_S_S1 (constant (F := Ideal) S_ .f32 0xFF800000#32))
      (Host.reduce FloatOps.maximumf l (constant (F := Ideal) S_ .f32 0xFF800000#32) reducesTo_S1x15_S1_d1 h_S_)))))

/-- The 15-way softmax, as the host computes it. -/
def softmax15 (l : FVec Ideal S1x15 .f32) : FVec Ideal S1x15 .f32 :=
  Host.divf (F := Ideal) (softmaxNum l)
    (broadcastInDim S1x15 ![0, 1] bcast_S1x1_S1x15_0_1 (broadcastInDim S1x1 ![0] bcast_S1_S1x1_0
      (Host.reduceAdd (F := Ideal) (softmaxNum l) (constant (F := Ideal) S_ .f32 0x00000000#32) reducesTo_S1x15_S1_d1 h_S_)))

/-- The attention weights. -/
def attw (emb h0 : FVec Ideal S1x4096 .f32) (attW : FVec Ideal S15x8192 .f32) (attb : FVec Ideal S15 .f32) :
    FVec Ideal S1x15 .f32 :=
  softmax15 (attLogits emb h0 attW attb)

/-- The embedding joined with the attended context w · eseq: a row [1, 8192]. -/
def combined (emb : FVec Ideal S1x4096 .f32) (w : FVec Ideal S1x15 .f32) (eseq : FVec Ideal S15x4096 .f32) :
    FVec Ideal S1x8192 .f32 :=
  concatenate S1x8192 1 [⟨S1x4096, emb⟩, ⟨S1x4096, Host.dotGeneral (F := Ideal) dotCtx none w eseq⟩]
    concatenates_S1x4096_S1x4096_S1x8192_d1

/-- y − max y along the 4096 entries. -/
def lsmShift (y : FVec Ideal S1x4096 .f32) : FVec Ideal S1x4096 .f32 :=
  subf y (broadcastInDim S1x4096 ![0, 1] bcast_S1x1_S1x4096_0_1 (broadcastInDim S1x1 ![0] bcast_S1_S1x1_0
    (maximumf (broadcastInDim S1 ![] bcast_S_S1 (constant (F := Ideal) S_ .f32 0xFF800000#32))
      (Host.reduce FloatOps.maximumf y (constant (F := Ideal) S_ .f32 0xFF800000#32) reducesTo_S1x4096_S1_d1 h_S_))))

/-- The log-softmax along the 4096 entries, as the host computes it. -/
def logsm (y : FVec Ideal S1x4096 .f32) : FVec Ideal S1x4096 .f32 :=
  subf (lsmShift y) (broadcastInDim S1x4096 ![0, 1] bcast_S1x1_S1x4096_0_1 (Host.log (F := Ideal)
    (broadcastInDim S1x1 ![0] bcast_S1_S1x1_0
      (Host.reduceAdd (F := Ideal) (Host.exp (F := Ideal) (lsmShift y)) (constant (F := Ideal) S_ .f32 0x00000000#32)
        reducesTo_S1x4096_S1_d1 h_S_))))

/-- A row [1, 4096] as [1, 1, 4096]. -/
def row3 (h : FVec Ideal S1x4096 .f32) : FVec Ideal S1x1x4096 .f32 :=
  broadcastInDim S1x1x4096 ![1, 2] bcast_S1x4096_S1x1x4096_1_2 h

/-! ## The three results, of the argument arrays -/

/-- The hidden-side gate pre-activations h · Whhᵀ + bhh : [1, 12288]. -/
def ghOf (hidden : FVec Ideal S1x1x4096 .f32) (Whh : FVec Ideal S12288x4096 .f32) (bhh : FVec Ideal S12288 .f32) :
    FVec Ideal S1x12288 .f32 :=
  mv4096x12288 (h0of hidden) Whh bhh

/-- The joined row [emb, attended context] : [1, 8192], of the argument arrays. -/
def combOf (ids : IVec S1 32) (hidden : FVec Ideal S1x1x4096 .f32) (eseq : FVec Ideal S15x4096 .f32)
    (embW : FVec Ideal S4096x4096 .f32) (attW : FVec Ideal S15x8192 .f32) (attb : FVec Ideal S15 .f32) :
    FVec Ideal S1x8192 .f32 :=
  combined (embRow ids embW) (attw (embRow ids embW) (h0of hidden) attW attb) eseq

/-- The rectified first layer max (comb · combWᵀ + combb) 0 : [1, 4096]. -/
def xOf (ids : IVec S1 32) (hidden : FVec Ideal S1x1x4096 .f32) (eseq : FVec Ideal S15x4096 .f32)
    (embW : FVec Ideal S4096x4096 .f32) (attW : FVec Ideal S15x8192 .f32) (attb : FVec Ideal S15 .f32)
    (combW : FVec Ideal S4096x8192 .f32) (combb : FVec Ideal S4096 .f32) : FVec Ideal S1x4096 .f32 :=
  relu (mv8192x4096 (combOf ids hidden eseq embW attW attb) combW combb)

/-- The input-side gate pre-activations x · Wihᵀ + bih : [1, 12288]. -/
def giOf (ids : IVec S1 32) (hidden : FVec Ideal S1x1x4096 .f32) (eseq : FVec Ideal S15x4096 .f32)
    (embW : FVec Ideal S4096x4096 .f32) (attW : FVec Ideal S15x8192 .f32) (attb : FVec Ideal S15 .f32)
    (combW : FVec Ideal S4096x8192 .f32) (combb : FVec Ideal S4096 .f32) (Wih : FVec Ideal S12288x4096 .f32)
    (bih : FVec Ideal S12288 .f32) : FVec Ideal S1x12288 .f32 :=
  mv4096x12288 (xOf ids hidden eseq embW attW attb combW combb) Wih bih

/-- The new hidden state [1, 4096]. -/
def hnew (ids : IVec S1 32) (hidden : FVec Ideal S1x1x4096 .f32) (eseq : FVec Ideal S15x4096 .f32)
    (embW : FVec Ideal S4096x4096 .f32) (attW : FVec Ideal S15x8192 .f32) (attb : FVec Ideal S15 .f32)
    (combW : FVec Ideal S4096x8192 .f32) (combb : FVec Ideal S4096 .f32) (Wih Whh : FVec Ideal S12288x4096 .f32)
    (bih bhh : FVec Ideal S12288 .f32) : FVec Ideal S1x4096 .f32 :=
  gate (giOf ids hidden eseq embW attW attb combW combb Wih bih) (ghOf hidden Whh bhh) (h0of hidden)

/-- The output logits h' · outWᵀ + outb : [1, 4096]. -/
def logitsOf (ids : IVec S1 32) (hidden : FVec Ideal S1x1x4096 .f32) (eseq : FVec Ideal S15x4096 .f32)
    (embW : FVec Ideal S4096x4096 .f32) (attW : FVec Ideal S15x8192 .f32) (attb : FVec Ideal S15 .f32)
    (combW : FVec Ideal S4096x8192 .f32) (combb : FVec Ideal S4096 .f32) (Wih Whh : FVec Ideal S12288x4096 .f32)
    (bih bhh : FVec Ideal S12288 .f32) (outW : FVec Ideal S4096x4096 .f32) (outb : FVec Ideal S4096 .f32) :
    FVec Ideal S1x4096 .f32 :=
  mv4096x4096 (hnew ids hidden eseq embW attW attb combW combb Wih Whh bih bhh) outW outb

/-- Result 0: the log-probabilities [1, 4096]. -/
def out0 (ids : IVec S1 32) (hidden : FVec Ideal S1x1x4096 .f32) (eseq : FVec Ideal S15x4096 .f32)
    (embW : FVec Ideal S4096x4096 .f32) (attW : FVec Ideal S15x8192 .f32) (attb : FVec Ideal S15 .f32)
    (combW : FVec Ideal S4096x8192 .f32) (combb : FVec Ideal S4096 .f32) (Wih Whh : FVec Ideal S12288x4096 .f32)
    (bih bhh : FVec Ideal S12288 .f32) (outW : FVec Ideal S4096x4096 .f32) (outb : FVec Ideal S4096 .f32) :
    FVec Ideal S1x4096 .f32 :=
  logsm (logitsOf ids hidden eseq embW attW attb combW combb Wih Whh bih bhh outW outb)

/-- Result 1: the new hidden state as [1, 1, 4096]. -/
def out1 (ids : IVec S1 32) (hidden : FVec Ideal S1x1x4096 .f32) (eseq : FVec Ideal S15x4096 .f32)
    (embW : FVec Ideal S4096x4096 .f32) (attW : FVec Ideal S15x8192 .f32) (attb : FVec Ideal S15 .f32)
    (combW : FVec Ideal S4096x8192 .f32) (combb : FVec Ideal S4096 .f32) (Wih Whh : FVec Ideal S12288x4096 .f32)
    (bih bhh : FVec Ideal S12288 .f32) : FVec Ideal S1x1x4096 .f32 :=
  row3 (hnew ids hidden eseq embW attW attb combW combb Wih Whh bih bhh)

/-- Result 2: the attention weights [1, 15]. -/
def out2 (ids : IVec S1 32) (hidden : FVec Ideal S1x1x4096 .f32) (embW : FVec Ideal S4096x4096 .f32)
    (attW : FVec Ideal S15x8192 .f32) (attb : FVec Ideal S15 .f32) : FVec Ideal S1x15 .f32 :=
  attw (embRow ids embW) (h0of hidden) attW attb

/-! ## Constants and laws -/

/-- The word of 1.0 is the extended real 1. -/
theorem ofBits_one_f32 : Ideal.ofBits .f32 0x3F800000#32 = 1 := by
  simp [Ideal.ofBits, Ideal.ieee, -EReal.coe_mul]; norm_num

/-- The logistic function is 1 / (1 + exp (−x)) in the operations' own words, the constant 1 a word. -/
theorem logistic_eq_div_one (x : EReal) : Ideal.div 1 (1 + Ideal.exp (-x)) = Ideal.logistic x := rfl
theorem logistic_eq_div (x : EReal) :
    Ideal.div (Ideal.ofBits .f32 0x3F800000#32) (Ideal.ofBits .f32 0x3F800000#32 + Ideal.exp (-x)) = Ideal.logistic x := by
  rw [ofBits_one_f32]; rfl

/-- A sum over 8192 terms is the sum of its two halves of 4096 (associativity only). -/
theorem sum_halves (f : Fin 8192 → EReal) :
    (0 + ∑ k : Fin 4096, f ⟨k.val, by omega⟩) + ∑ k : Fin 4096, f ⟨k.val + 4096, by omega⟩ = ∑ k : Fin 8192, f k := by
  rw [zero_add]
  have h := Fin.sum_univ_add (M := EReal) (a := 4096) (b := 4096) (show Fin (4096 + 4096) → EReal from f)
  refine Eq.trans ?_ h.symm
  refine congrArg₂ (· + ·) (Finset.sum_congr rfl fun k _ => congrArg f (Fin.ext rfl))
    (Finset.sum_congr rfl fun k _ => congrArg f (Fin.ext (Nat.add_comm _ _)))

/-- The same with the two halves given as functions of their own that agree with f term by term: the form an
    accumulation over two tiles of a contracted axis meets. -/
theorem sum_halves_of (f : Fin 8192 → EReal) (g0 g1 : Fin 4096 → EReal)
    (h0 : ∀ k : Fin 4096, g0 k = f ⟨k.val, by omega⟩) (h1 : ∀ k : Fin 4096, g1 k = f ⟨k.val + 4096, by omega⟩) :
    (0 + ∑ k : Fin 4096, g0 k) + ∑ k : Fin 4096, g1 k = ∑ k : Fin 8192, f k := by
  rw [← sum_halves f]
  exact congrArg₂ (· + ·) (congrArg (0 + ·) (Finset.sum_congr rfl fun k _ => h0 k)) (Finset.sum_congr rfl fun k _ => h1 k)

end Cert.Spec

end
-- ==== Proof.KernelIdeal.ToSpec.lean ====
/- The kernel's dense stages and its gate stage are the specification's: identities of extended reals, lane by lane.

   A matrix-vector region leaves, at lane j, (0 + sum over the columns k of x (0, k) * W (j, k)) + b (0, j) with the
   zero the zero word: that is the specification's product plus bias, since the zero word is 0 and 0 + s = s, and the
   kernel's bias row is the bias vector read along its axis. The first layer's region accumulates its 8192 columns in
   two tiles of 4096 and clamps at the zero word: the two half-sums are the one sum (associativity), and the clamp is
   the rectifier. The gate region's arithmetic is the specification's gate stage, the word of 1.0 being 1 and the three
   thirds of a pre-activation row the reset, update and candidate columns. -/
import proofs.«101019_j40913858462225_2_alg».proof.Proof.Spec
import proofs.«101019_j40913858462225_2_alg».proof.Proof.KernelIdeal.Region0Array
import proofs.«101019_j40913858462225_2_alg».proof.Proof.KernelIdeal.Region1Array
import proofs.«101019_j40913858462225_2_alg».proof.Proof.KernelIdeal.Region2Array
import proofs.«101019_j40913858462225_2_alg».proof.Proof.KernelIdeal.Region3Array
import proofs.«101019_j40913858462225_2_alg».proof.Proof.KernelIdeal.Region4Array

set_option maxRecDepth 16384

noncomputable section

namespace Cert.KernelIdeal.Hand

open Cert.KernelIdeal
open Idealize.ShloMosaic Idealize.ShloMosaic.ValueIdx
open scoped BigOperators

/-! ## The kernel's dense stages are the specification's

Each is an identity of extended reals: the zero word is 0 and 0 + x = x; the bias row of the kernel is the bias
vector of the specification read along its one axis; a contraction accumulated over two tiles is the one sum. -/

/-- Region 0's result row, lane by lane, is the specification's hidden-side product. -/
theorem mvArr0_spec (X : Vec Ideal S1x4096 .f32) (W : Vec Ideal S12288x4096 .f32) (B : Vec Ideal S1x12288 .f32)
    (b : FVec Ideal Spec.S12288 .f32) (hB : ∀ j : Fin 12288, B (ix2 0 j) = b (ix1 j)) (j : Fin 12288) :
    mvArr0 X W B j = Spec.mv4096x12288 X W b (ix2 0 j) := by
  unfold mvArr0
  rw [Spec.mv4096x12288_apply, Ideal.ofBits_zero_f32, zero_add, hB]

/-- Region 2's result row is the specification's input-side product. -/
theorem mvArr2_spec (X : Vec Ideal S1x4096 .f32) (W : Vec Ideal S12288x4096 .f32) (B : Vec Ideal S1x12288 .f32)
    (b : FVec Ideal Spec.S12288 .f32) (hB : ∀ j : Fin 12288, B (ix2 0 j) = b (ix1 j)) (j : Fin 12288) :
    mvArr2 X W B j = Spec.mv4096x12288 X W b (ix2 0 j) := by
  unfold mvArr2
  rw [Spec.mv4096x12288_apply, Ideal.ofBits_zero_f32, zero_add, hB]

/-- Region 4's result row is the specification's output layer. -/
theorem mvArr4_spec (X : Vec Ideal S1x4096 .f32) (W : Vec Ideal S4096x4096 .f32) (B : Vec Ideal S1x4096 .f32)
    (b : FVec Ideal Spec.S4096 .f32) (hB : ∀ j : Fin 4096, B (ix2 0 j) = b (ix1 j)) (j : Fin 4096) :
    mvArr4 X W B j = Spec.mv4096x4096 X W b (ix2 0 j) := by
  unfold mvArr4
  rw [Spec.mv4096x4096_apply, Ideal.ofBits_zero_f32, zero_add, hB]

/-- Region 1's result row — two half-sums over the 8192 columns, the bias, the clamp at zero — is the specification's
    rectified first layer. -/
theorem mvArr1_spec (X : Vec Ideal S1x8192 .f32) (W : Vec Ideal S4096x8192 .f32) (B : Vec Ideal S1x4096 .f32)
    (b : FVec Ideal Spec.S4096 .f32) (hB : ∀ j : Fin 4096, B (ix2 0 j) = b (ix1 j)) (j : Fin 4096) :
    mvArr1 X W B j = Spec.relu (Spec.mv8192x4096 X W b) (ix2 0 j) := by
  unfold mvArr1
  rw [Spec.relu_apply, Spec.mv8192x4096_apply, Ideal.ofBits_zero_f32, hB,
    Spec.sum_halves_of (fun k : Fin 8192 => X (ix2 0 k) * W (ix2 j k)) _ _ (fun _ => rfl) (fun _ => rfl)]

/-- The gate kernel's arithmetic at lane `q` is the specification's gate stage there: the word of 1.0 is 1, and the
    three thirds of a pre-activation row are the specification's reset, update and candidate columns. -/
theorem gate_spec (gi gh : Vec Ideal S1x12288 .f32) (h0 : Vec Ideal S1x4096 .f32) (q : Fin 4096) :
    gate gi gh h0 q = Spec.gate gi gh h0 (ix2 0 q) := by
  unfold gate
  rw [Spec.gate_apply, Spec.ofBits_one_f32]
  rfl

end Cert.KernelIdeal.Hand

end
-- ==== Proof.KernelIdeal.HostSpec.lean ====
/- The host stretches of the kernel program's @main, read back for ANY contents of the buffers at their entry, as the
   specification's named functions.

   Between its five kernel regions @main runs plain host operations: reshapes of the hidden state and of the four
   bias vectors into rows (lane q of the row is entry q of the vector); the embedding row chosen by the wrapped token
   index, the attention weights of that row and the hidden-state row, and the row joined with the attended context;
   after the output layer the log-softmax of the logits and the new hidden state viewed as [1, 1, 4096]. Each result
   buffer after its stretch holds the specification's function of the stretch's operands — the same operations in the
   same order, so the two terms agree node by node. -/
import proofs.«101019_j40913858462225_2_alg».proof.Proof.Spec
import proofs.«101019_j40913858462225_2_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem

/-! ## The host stretches of @main, read back for any contents at their entry -/

/-- A vector of `n` entries viewed as a 1 x n row reads, at lane `q` of the row, entry `q`. -/
theorem shapeCast_row_apply {α : Type} {n : Nat} (v : (⟨1, ![n]⟩ : Shape).Idx → α)
    (h : (⟨1, ![n]⟩ : Shape).ShapeCasts ⟨2, ![1, n]⟩) (q : Fin n) :
    shapeCast (⟨2, ![1, n]⟩ : Shape) v h (ix2 0 q) = v (ix1 q) := by
  refine (shapeCast_addUnit_apply ![n] v h (ix2 0 q)).trans (congrArg v (funext fun a => ?_))
  match a with
  | ⟨0, _⟩ => rfl

variable (W : Valuation τ sig (Elt Ideal))

/-- The first stretch views the hidden state [1, 1, 4096] as the row [1, 4096]. -/
theorem after0_v0 :
    StableHlo.after (hostOps0 (F := Ideal)) W (Proc.devRef .tc main_v0) = Spec.h0of (W (Proc.devRef .tc main_arg1)) := by
  after_results
  rfl

/-- It views the hidden-side bias [12288] as a row: lane `q` of the row is entry `q`. -/
theorem after0_v1_apply (q : Fin 12288) :
    StableHlo.after (hostOps0 (F := Ideal)) W (Proc.devRef .tc main_v1) (ix2 0 q) = W (Proc.devRef .tc main_arg12) (ix1 q) := by
  have e : StableHlo.after (hostOps0 (F := Ideal)) W (Proc.devRef .tc main_v1)
      = shapeCast S1x12288 (W (Proc.devRef .tc main_arg12)) shapeCasts_S12288_S1x12288 := by
    after_results
    rfl
  rw [e]
  exact shapeCast_row_apply _ _ q

/-- The third stretch views the input-side bias [12288] as a row. -/
theorem after2_v28_apply (q : Fin 12288) :
    StableHlo.after (hostOps2 (F := Ideal)) W (Proc.devRef .tc main_v28) (ix2 0 q) = W (Proc.devRef .tc main_arg11) (ix1 q) := by
  have e : StableHlo.after (hostOps2 (F := Ideal)) W (Proc.devRef .tc main_v28)
      = shapeCast S1x12288 (W (Proc.devRef .tc main_arg11)) shapeCasts_S12288_S1x12288 := by
    after_results
    rfl
  rw [e]
  exact shapeCast_row_apply _ _ q

/-- The stretch before the output layer views its bias [4096] as a row. -/
theorem after4_v31_apply (q : Fin 4096) :
    StableHlo.after (hostOps4 (F := Ideal)) W (Proc.devRef .tc main_v31) (ix2 0 q) = W (Proc.devRef .tc main_arg14) (ix1 q) := by
  have e : StableHlo.after (hostOps4 (F := Ideal)) W (Proc.devRef .tc main_v31)
      = shapeCast S1x4096 (W (Proc.devRef .tc main_arg14)) shapeCasts_S4096_S1x4096 := by
    after_results
    rfl
  rw [e]
  exact shapeCast_row_apply _ _ q

/-- The last stretch views the new hidden state [1, 4096] as [1, 1, 4096]. -/
theorem after5_1_v34 :
    StableHlo.after (hostOps5_1 (F := Ideal)) W (Proc.devRef .tc main_v34) = Spec.row3 (W (Proc.devRef .tc main_v30)) := by
  after_results
  rfl

end Cert.KernelIdeal.Hand

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem

/-- The program's two host contractions are the specification's. -/
theorem dotAtt_eq : dot_S1x8192_S8192x15_S1x15_1_0_0_1_n_n = Spec.dotAtt := rfl
theorem dotCtx_eq : dot_S1x15_S15x4096_S1x4096_1_0_0_1_n_n = Spec.dotCtx := rfl

variable (W : Valuation τ sig (Elt Ideal))

/-- The second stretch picks the embedding row of the (wrapped) token index: the start indices of the slice are the
    wrapped index and zero. -/
theorem after1_v7 :
    StableHlo.after (hostOps1 (F := Ideal)) W (Proc.devRef .tc main_v7)
      = Spec.embRow (W (Proc.devRef .tc main_arg0)) (W (Proc.devRef .tc main_arg4)) := by
  unfold Spec.embRow Spec.tokenIdx
  after_results_simp <;> first
    | (congr 1 <;> first
        | rfl
        | (funext k; fin_cases k <;> (try simp only [Matrix.cons_val_zero', Matrix.cons_val_succ', Fin.zero_eta, Fin.mk_one, Matrix.cons_val_zero, Matrix.cons_val_one, Matrix.head_cons]) <;> (try after_results_simp) <;> rfl))
    | rfl

/-- It computes the attention weights of the embedding row and the hidden-state row (the row as the stretch holds it). -/
theorem after1_v23_raw :
    StableHlo.after (hostOps1 (F := Ideal)) W (Proc.devRef .tc main_v23)
      = Spec.attw (StableHlo.after (hostOps1 (F := Ideal)) W (Proc.devRef .tc main_v7)) (W (Proc.devRef .tc main_v0))
          (W (Proc.devRef .tc main_arg5)) (W (Proc.devRef .tc main_arg6)) := by
  unfold Spec.attw Spec.softmax15 Spec.softmaxNum Spec.attLogits
  rw [← dotAtt_eq]
  after_results_simp
  rfl

theorem after1_v23 :
    StableHlo.after (hostOps1 (F := Ideal)) W (Proc.devRef .tc main_v23)
      = Spec.attw (Spec.embRow (W (Proc.devRef .tc main_arg0)) (W (Proc.devRef .tc main_arg4))) (W (Proc.devRef .tc main_v0))
          (W (Proc.devRef .tc main_arg5)) (W (Proc.devRef .tc main_arg6)) := by
  rw [← after1_v7 W]
  exact after1_v23_raw W

/-- It joins the embedding row with the attended context (both as the stretch holds them). -/
theorem after1_v25_raw :
    StableHlo.after (hostOps1 (F := Ideal)) W (Proc.devRef .tc main_v25)
      = Spec.combined (StableHlo.after (hostOps1 (F := Ideal)) W (Proc.devRef .tc main_v7))
          (StableHlo.after (hostOps1 (F := Ideal)) W (Proc.devRef .tc main_v23)) (W (Proc.devRef .tc main_arg3)) := by
  unfold Spec.combined
  rw [← dotCtx_eq]
  after_results_simp
  rfl

theorem after1_v25 :
    StableHlo.after (hostOps1 (F := Ideal)) W (Proc.devRef .tc main_v25)
      = Spec.combined (Spec.embRow (W (Proc.devRef .tc main_arg0)) (W (Proc.devRef .tc main_arg4)))
          (Spec.attw (Spec.embRow (W (Proc.devRef .tc main_arg0)) (W (Proc.devRef .tc main_arg4))) (W (Proc.devRef .tc main_v0))
            (W (Proc.devRef .tc main_arg5)) (W (Proc.devRef .tc main_arg6)))
          (W (Proc.devRef .tc main_arg3)) := by
  rw [← after1_v23 W, ← after1_v7 W]
  exact after1_v25_raw W

/-- It views the first layer's bias [4096] as a row. -/
theorem after1_v26_apply (q : Fin 4096) :
    StableHlo.after (hostOps1 (F := Ideal)) W (Proc.devRef .tc main_v26) (ix2 0 q) = W (Proc.devRef .tc main_arg8) (ix1 q) := by
  have e : StableHlo.after (hostOps1 (F := Ideal)) W (Proc.devRef .tc main_v26)
      = shapeCast S1x4096 (W (Proc.devRef .tc main_arg8)) shapeCasts_S4096_S1x4096 := by
    after_results_simp
    rfl
  rw [e]
  exact shapeCast_row_apply _ _ q

/-- The stretch after the output layer is the log-softmax of the logits. -/
theorem after5_v33 :
    StableHlo.after (hostOps5 (F := Ideal)) W (Proc.devRef .tc main_v33) = Spec.logsm (W (Proc.devRef .tc main_v32)) := by
  after_results_simp
  simp only [cast_eq]
  rfl

end Cert.KernelIdeal.Hand

end
-- ==== Proof.KernelIdeal.Values.lean ====
/-
  The kernel program's three results as the specification's functions of the argument arrays, at the extended reals.

  Along the chain of valuations of Proof/KernelIdeal/Run.lean: each region's output array is one stage of the
  specification — the three one-tile matrix–vector calls a sum over 4096 columns plus a bias, the two-tile call the two
  half-sums joined into the sum over 8192 columns plus a bias and clamped at zero, the gate kernel the gate —, each host
  stretch applies the specification's named host functions to the buffers it reads, and a buffer keeps its contents
  through every item that does not write it. Only 0 + x = x and the associativity of addition are used: the argument
  arrays may hold any extended reals.
-/
import proofs.«101019_j40913858462225_2_alg».proof.Proof.KernelIdeal.Run
import proofs.«101019_j40913858462225_2_alg».proof.Proof.KernelIdeal.Region0Array
import proofs.«101019_j40913858462225_2_alg».proof.Proof.KernelIdeal.Region1Array
import proofs.«101019_j40913858462225_2_alg».proof.Proof.KernelIdeal.Region2Array
import proofs.«101019_j40913858462225_2_alg».proof.Proof.KernelIdeal.Region3Array
import proofs.«101019_j40913858462225_2_alg».proof.Proof.KernelIdeal.Region4Array
import proofs.«101019_j40913858462225_2_alg».proof.Proof.KernelIdeal.ToSpec
import proofs.«101019_j40913858462225_2_alg».proof.Proof.KernelIdeal.HostSpec
import proofs.«101019_j40913858462225_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## A buffer keeps its contents through the items that do not write it -/

theorem W1_from0 (c : Dev nD) (r : Ref sig .tc) (h1 : r ∉ hostOps0_W) :
    W1 m ρ c (Proc.devRef .tc r) = W0 m ρ c (Proc.devRef .tc r) :=
  (W1_keep m ρ c r h1)
theorem W2_from0 (c : Dev nD) (r : Ref sig .tc) (h1 : r ∉ hostOps0_W) (h2 : r ≠ main_v2) :
    W2 m ρ c (Proc.devRef .tc r) = W0 m ρ c (Proc.devRef .tc r) :=
  (W2_keep m ρ c r h2).trans <| (W1_keep m ρ c r h1)
theorem W3_from0 (c : Dev nD) (r : Ref sig .tc) (h1 : r ∉ hostOps0_W) (h2 : r ≠ main_v2) (h3 : r ∉ hostOps1_W) :
    W3 m ρ c (Proc.devRef .tc r) = W0 m ρ c (Proc.devRef .tc r) :=
  (W3_keep m ρ c r h3).trans <| (W2_keep m ρ c r h2).trans <| (W1_keep m ρ c r h1)
theorem W5_from0 (c : Dev nD) (r : Ref sig .tc) (h1 : r ∉ hostOps0_W) (h2 : r ≠ main_v2) (h3 : r ∉ hostOps1_W) (h4 : r ≠ main_v27) (h5 : r ∉ hostOps2_W) :
    W5 m ρ c (Proc.devRef .tc r) = W0 m ρ c (Proc.devRef .tc r) :=
  (W5_keep m ρ c r h5).trans <| (W4_keep m ρ c r h4).trans <| (W3_keep m ρ c r h3).trans <| (W2_keep m ρ c r h2).trans <| (W1_keep m ρ c r h1)
theorem W6_from0 (c : Dev nD) (r : Ref sig .tc) (h1 : r ∉ hostOps0_W) (h2 : r ≠ main_v2) (h3 : r ∉ hostOps1_W) (h4 : r ≠ main_v27) (h5 : r ∉ hostOps2_W) (h6 : r ≠ main_v29) :
    W6 m ρ c (Proc.devRef .tc r) = W0 m ρ c (Proc.devRef .tc r) :=
  (W6_keep m ρ c r h6).trans <| (W5_keep m ρ c r h5).trans <| (W4_keep m ρ c r h4).trans <| (W3_keep m ρ c r h3).trans <| (W2_keep m ρ c r h2).trans <| (W1_keep m ρ c r h1)
theorem W8_from0 (c : Dev nD) (r : Ref sig .tc) (h1 : r ∉ hostOps0_W) (h2 : r ≠ main_v2) (h3 : r ∉ hostOps1_W) (h4 : r ≠ main_v27) (h5 : r ∉ hostOps2_W) (h6 : r ≠ main_v29) (h7 : r ≠ main_v30) (h8 : r ∉ hostOps4_W) :
    W8 m ρ c (Proc.devRef .tc r) = W0 m ρ c (Proc.devRef .tc r) :=
  (W8_keep m ρ c r h8).trans <| (W7_keep m ρ c r h7).trans <| (W6_keep m ρ c r h6).trans <| (W5_keep m ρ c r h5).trans <| (W4_keep m ρ c r h4).trans <| (W3_keep m ρ c r h3).trans <| (W2_keep m ρ c r h2).trans <| (W1_keep m ρ c r h1)
theorem W3_from1 (c : Dev nD) (r : Ref sig .tc) (h2 : r ≠ main_v2) (h3 : r ∉ hostOps1_W) :
    W3 m ρ c (Proc.devRef .tc r) = W1 m ρ c (Proc.devRef .tc r) :=
  (W3_keep m ρ c r h3).trans <| (W2_keep m ρ c r h2)
theorem W6_from1 (c : Dev nD) (r : Ref sig .tc) (h2 : r ≠ main_v2) (h3 : r ∉ hostOps1_W) (h4 : r ≠ main_v27) (h5 : r ∉ hostOps2_W) (h6 : r ≠ main_v29) :
    W6 m ρ c (Proc.devRef .tc r) = W1 m ρ c (Proc.devRef .tc r) :=
  (W6_keep m ρ c r h6).trans <| (W5_keep m ρ c r h5).trans <| (W4_keep m ρ c r h4).trans <| (W3_keep m ρ c r h3).trans <| (W2_keep m ρ c r h2)
theorem W6_from2 (c : Dev nD) (r : Ref sig .tc) (h3 : r ∉ hostOps1_W) (h4 : r ≠ main_v27) (h5 : r ∉ hostOps2_W) (h6 : r ≠ main_v29) :
    W6 m ρ c (Proc.devRef .tc r) = W2 m ρ c (Proc.devRef .tc r) :=
  (W6_keep m ρ c r h6).trans <| (W5_keep m ρ c r h5).trans <| (W4_keep m ρ c r h4).trans <| (W3_keep m ρ c r h3)
theorem W11_from3 (c : Dev nD) (r : Ref sig .tc) (h4 : r ≠ main_v27) (h5 : r ∉ hostOps2_W) (h6 : r ≠ main_v29) (h7 : r ≠ main_v30) (h8 : r ∉ hostOps4_W) (h9 : r ≠ main_v32) (h10 : r ∉ hostOps5_W) (h11 : r ∉ hostOps5_1_W) :
    W11 m ρ c (Proc.devRef .tc r) = W3 m ρ c (Proc.devRef .tc r) :=
  (W11_keep m ρ c r h11).trans <| (W10_keep m ρ c r h10).trans <| (W9_keep m ρ c r h9).trans <| (W8_keep m ρ c r h8).trans <| (W7_keep m ρ c r h7).trans <| (W6_keep m ρ c r h6).trans <| (W5_keep m ρ c r h5).trans <| (W4_keep m ρ c r h4)
theorem W8_from7 (c : Dev nD) (r : Ref sig .tc) (h8 : r ∉ hostOps4_W) :
    W8 m ρ c (Proc.devRef .tc r) = W7 m ρ c (Proc.devRef .tc r) :=
  (W8_keep m ρ c r h8)
theorem W10_from7 (c : Dev nD) (r : Ref sig .tc) (h8 : r ∉ hostOps4_W) (h9 : r ≠ main_v32) (h10 : r ∉ hostOps5_W) :
    W10 m ρ c (Proc.devRef .tc r) = W7 m ρ c (Proc.devRef .tc r) :=
  (W10_keep m ρ c r h10).trans <| (W9_keep m ρ c r h9).trans <| (W8_keep m ρ c r h8)
theorem W11_from10 (c : Dev nD) (r : Ref sig .tc) (h11 : r ∉ hostOps5_1_W) :
    W11 m ρ c (Proc.devRef .tc r) = W10 m ρ c (Proc.devRef .tc r) :=
  (W11_keep m ρ c r h11)

/-- The launch valuation at an argument is the launch memory there. -/
theorem W0_arg (c : Dev nD) (r : Ref sig .tc) : W0 m ρ c (Proc.devRef .tc r) = m ((c : Thread nD τ).loc r) := rfl

/-! ## The arguments, named -/

abbrev a0 (c : Dev nD) := m ((c : Thread nD τ).loc main_arg0)
abbrev a1 (c : Dev nD) := m ((c : Thread nD τ).loc main_arg1)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)

/-! ## The stages -/

/-- The hidden state as a row, where region 0 finds it. -/
theorem V1_v0 (c : Dev nD) : V1 m ρ c main_v0 = Spec.h0of (a1 m c) :=
  after0_v0 (W0 m ρ c)

/-- REGION 0: the hidden-side gate pre-activations. -/
theorem W2_v2 (c : Dev nD) : V2 m ρ c main_v2 = Spec.ghOf (a1 m c) (a10 m c) (a12 m c) := by
  funext j
  obtain ⟨p, q, rfl⟩ : ∃ (p : Fin 1) (q : Fin 12288), j = ix2 p q := ⟨j 0, j 1, eq_ix2 j⟩
  obtain rfl : p = 0 := Subsingleton.elim _ _
  refine (congrFun (W2_arr m ρ c 3) (ix2 0 q)).trans ?_
  refine (arr0 (V1 m ρ) c q).trans ?_
  refine (mvArr0_spec _ _ _ (a12 m c) (fun j => after0_v1_apply (W0 m ρ c) j) q).trans ?_
  show Spec.mv4096x12288 (V1 m ρ c main_v0) (V1 m ρ c main_arg10) (a12 m c) (ix2 0 q) = _
  rw [V1_v0, show V1 m ρ c main_arg10 = a10 m c from W1_from0 m ρ c main_arg10 (by decide)]
  rfl

/-- The hidden state as a row, where the later items find it. -/
theorem V2_v0 (c : Dev nD) : V2 m ρ c main_v0 = Spec.h0of (a1 m c) :=
  (W2_keep m ρ c main_v0 (by decide)).trans (V1_v0 m ρ c)

/-- The embedding row. -/
theorem V3_v7 (c : Dev nD) : V3 m ρ c main_v7 = Spec.embRow (a0 m c) (a4 m c) := by
  refine (after1_v7 (W2 m ρ c)).trans ?_
  rw [show W2 m ρ c (Proc.devRef .tc main_arg0) = a0 m c from W2_from0 m ρ c main_arg0 (by decide) (by decide),
    show W2 m ρ c (Proc.devRef .tc main_arg4) = a4 m c from W2_from0 m ρ c main_arg4 (by decide) (by decide)]

/-- The attention weights: the third result. -/
theorem V3_v23 (c : Dev nD) : V3 m ρ c main_v23 = Spec.out2 (a0 m c) (a1 m c) (a4 m c) (a5 m c) (a6 m c) := by
  refine (after1_v23 (W2 m ρ c)).trans ?_
  rw [show W2 m ρ c (Proc.devRef .tc main_arg0) = a0 m c from W2_from0 m ρ c main_arg0 (by decide) (by decide),
    show W2 m ρ c (Proc.devRef .tc main_arg4) = a4 m c from W2_from0 m ρ c main_arg4 (by decide) (by decide),
    show W2 m ρ c (Proc.devRef .tc main_arg5) = a5 m c from W2_from0 m ρ c main_arg5 (by decide) (by decide),
    show W2 m ρ c (Proc.devRef .tc main_arg6) = a6 m c from W2_from0 m ρ c main_arg6 (by decide) (by decide),
    show W2 m ρ c (Proc.devRef .tc main_v0) = Spec.h0of (a1 m c) from V2_v0 m ρ c]
  rfl

/-- The joined row region 1 reads. -/
theorem V3_v25 (c : Dev nD) : V3 m ρ c main_v25 = Spec.combOf (a0 m c) (a1 m c) (a3 m c) (a4 m c) (a5 m c) (a6 m c) := by
  refine (after1_v25 (W2 m ρ c)).trans ?_
  rw [show W2 m ρ c (Proc.devRef .tc main_arg0) = a0 m c from W2_from0 m ρ c main_arg0 (by decide) (by decide),
    show W2 m ρ c (Proc.devRef .tc main_arg3) = a3 m c from W2_from0 m ρ c main_arg3 (by decide) (by decide),
    show W2 m ρ c (Proc.devRef .tc main_arg4) = a4 m c from W2_from0 m ρ c main_arg4 (by decide) (by decide),
    show W2 m ρ c (Proc.devRef .tc main_arg5) = a5 m c from W2_from0 m ρ c main_arg5 (by decide) (by decide),
    show W2 m ρ c (Proc.devRef .tc main_arg6) = a6 m c from W2_from0 m ρ c main_arg6 (by decide) (by decide),
    show W2 m ρ c (Proc.devRef .tc main_v0) = Spec.h0of (a1 m c) from V2_v0 m ρ c]
  rfl

/-- REGION 1: the rectified first layer. -/
theorem W4_v27 (c : Dev nD) : V4 m ρ c main_v27 = Spec.xOf (a0 m c) (a1 m c) (a3 m c) (a4 m c) (a5 m c) (a6 m c) (a7 m c) (a8 m c) := by
  funext j
  obtain ⟨p, q, rfl⟩ : ∃ (p : Fin 1) (q : Fin 4096), j = ix2 p q := ⟨j 0, j 1, eq_ix2 j⟩
  obtain rfl : p = 0 := Subsingleton.elim _ _
  refine (congrFun (W4_arr m ρ c 3) (ix2 0 q)).trans ?_
  refine (arr1 (V3 m ρ) c q).trans ?_
  refine (mvArr1_spec _ _ _ (a8 m c) (fun j => (after1_v26_apply (W2 m ρ c) j).trans
    (congrFun (W2_from0 m ρ c main_arg8 (by decide) (by decide)) _)) q).trans ?_
  show Spec.relu (Spec.mv8192x4096 (V3 m ρ c main_v25) (V3 m ρ c main_arg7) (a8 m c)) (ix2 0 q) = _
  rw [V3_v25, show V3 m ρ c main_arg7 = a7 m c from W3_from0 m ρ c main_arg7 (by decide) (by decide) (by decide)]
  rfl

/-- REGION 2: the input-side gate pre-activations. -/
theorem W6_v29 (c : Dev nD) : V6 m ρ c main_v29
    = Spec.giOf (a0 m c) (a1 m c) (a3 m c) (a4 m c) (a5 m c) (a6 m c) (a7 m c) (a8 m c) (a9 m c) (a11 m c) := by
  funext j
  obtain ⟨p, q, rfl⟩ : ∃ (p : Fin 1) (q : Fin 12288), j = ix2 p q := ⟨j 0, j 1, eq_ix2 j⟩
  obtain rfl : p = 0 := Subsingleton.elim _ _
  refine (congrFun (W6_arr m ρ c 3) (ix2 0 q)).trans ?_
  refine (arr2 (V5 m ρ) c q).trans ?_
  refine (mvArr2_spec _ _ _ (a11 m c) (fun j => (after2_v28_apply (W4 m ρ c) j).trans
    (congrFun ((W4_keep m ρ c main_arg11 (by decide)).trans (W3_from0 m ρ c main_arg11 (by decide) (by decide) (by decide))) _)) q).trans ?_
  show Spec.mv4096x12288 (V5 m ρ c main_v27) (V5 m ρ c main_arg9) (a11 m c) (ix2 0 q) = _
  rw [show V5 m ρ c main_v27 = V4 m ρ c main_v27 from W5_keep m ρ c main_v27 (by decide), W4_v27,
    show V5 m ρ c main_arg9 = a9 m c from W5_from0 m ρ c main_arg9 (by decide) (by decide) (by decide) (by decide) (by decide)]
  rfl

/-- REGION 3: the new hidden state. -/
theorem W7_v30 (c : Dev nD) : V7 m ρ c main_v30
    = Spec.hnew (a0 m c) (a1 m c) (a3 m c) (a4 m c) (a5 m c) (a6 m c) (a7 m c) (a8 m c) (a9 m c) (a10 m c) (a11 m c) (a12 m c) := by
  funext j
  obtain ⟨p, q, rfl⟩ : ∃ (p : Fin 1) (q : Fin 4096), j = ix2 p q := ⟨j 0, j 1, eq_ix2 j⟩
  obtain rfl : p = 0 := Subsingleton.elim _ _
  refine (congrFun (W7_arr m ρ c 3) (ix2 0 q)).trans ?_
  refine (arr3_named (V6 m ρ) c q).trans ?_
  refine (gate_spec _ _ _ q).trans ?_
  show Spec.gate (V6 m ρ c main_v29) (V6 m ρ c main_v2) (V6 m ρ c main_v0) (ix2 0 q) = _
  rw [W6_v29,
    show V6 m ρ c main_v2 = V2 m ρ c main_v2 from W6_from2 m ρ c main_v2 (by decide) (by decide) (by decide) (by decide), W2_v2,
    show V6 m ρ c main_v0 = V1 m ρ c main_v0 from W6_from1 m ρ c main_v0 (by decide) (by decide) (by decide) (by decide) (by decide), V1_v0]
  rfl

/-- REGION 4: the output logits. -/
theorem W9_v32 (c : Dev nD) : V9 m ρ c main_v32
    = Spec.logitsOf (a0 m c) (a1 m c) (a3 m c) (a4 m c) (a5 m c) (a6 m c) (a7 m c) (a8 m c) (a9 m c) (a10 m c) (a11 m c) (a12 m c) (a13 m c) (a14 m c) := by
  funext j
  obtain ⟨p, q, rfl⟩ : ∃ (p : Fin 1) (q : Fin 4096), j = ix2 p q := ⟨j 0, j 1, eq_ix2 j⟩
  obtain rfl : p = 0 := Subsingleton.elim _ _
  refine (congrFun (W9_arr m ρ c 3) (ix2 0 q)).trans ?_
  refine (arr4 (V8 m ρ) c q).trans ?_
  refine (mvArr4_spec _ _ _ (a14 m c) (fun j => (after4_v31_apply (W7 m ρ c) j).trans
    (congrFun ((W7_keep m ρ c main_arg14 (by decide)).trans (W6_from0 m ρ c main_arg14 (by decide) (by decide) (by decide) (by decide) (by decide) (by decide))) _)) q).trans ?_
  show Spec.mv4096x4096 (V8 m ρ c main_v30) (V8 m ρ c main_arg13) (a14 m c) (ix2 0 q) = _
  rw [show V8 m ρ c main_v30 = V7 m ρ c main_v30 from W8_from7 m ρ c main_v30 (by decide), W7_v30,
    show V8 m ρ c main_arg13 = a13 m c from W8_from0 m ρ c main_arg13 (by decide) (by decide) (by decide) (by decide) (by decide) (by decide) (by decide) (by decide)]
  rfl

/-! ## The three results at the end -/

/-- The log-probabilities. -/
theorem res0 (c : Dev nD) : W11 m ρ c (Proc.devRef .tc main_v33)
    = Spec.out0 (a0 m c) (a1 m c) (a3 m c) (a4 m c) (a5 m c) (a6 m c) (a7 m c) (a8 m c) (a9 m c) (a10 m c) (a11 m c) (a12 m c) (a13 m c) (a14 m c) := by
  refine (W11_from10 m ρ c main_v33 (by decide)).trans ?_
  refine (after5_v33 (W9 m ρ c)).trans ?_
  rw [show W9 m ρ c (Proc.devRef .tc main_v32) = V9 m ρ c main_v32 from rfl, W9_v32]
  rfl

/-- The new hidden state with its leading unit axis. -/
theorem res1 (c : Dev nD) : W11 m ρ c (Proc.devRef .tc main_v34)
    = Spec.out1 (a0 m c) (a1 m c) (a3 m c) (a4 m c) (a5 m c) (a6 m c) (a7 m c) (a8 m c) (a9 m c) (a10 m c) (a11 m c) (a12 m c) := by
  refine (after5_1_v34 (W10 m ρ c)).trans ?_
  rw [show W10 m ρ c (Proc.devRef .tc main_v30) = V7 m ρ c main_v30 from W10_from7 m ρ c main_v30 (by decide) (by decide) (by decide), W7_v30]
  rfl

/-- The attention weights. -/
theorem res2 (c : Dev nD) : W11 m ρ c (Proc.devRef .tc main_v23)
    = Spec.out2 (a0 m c) (a1 m c) (a4 m c) (a5 m c) (a6 m c) :=
  (W11_from3 m ρ c main_v23 (by decide) (by decide) (by decide) (by decide) (by decide) (by decide) (by decide) (by decide)).trans (V3_v23 m ρ c)

/-! ## The run, re-posted at the three results and the arguments -/

/-- Every weakly fair execution of the kernel program ends with the three results at the last valuation and every
    argument as launched. -/
theorem run_results : θ_run defs (onTc (τ := τ) (main (F := Ideal))) ⟨m, fun _ => 0, ρ⟩ (fun r => ∀ c : Dev nD,
      r.2.mem ((c.tc : Thread nD τ).loc main_v33) = W11 m ρ c (Proc.devRef .tc main_v33)
      ∧ r.2.mem ((c.tc : Thread nD τ).loc main_v34) = W11 m ρ c (Proc.devRef .tc main_v34)
      ∧ r.2.mem ((c.tc : Thread nD τ).loc main_v23) = W11 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v33 (by decide)), h c _ (mem_uc main_v34 (by decide)), h c _ (mem_uc main_v23 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c)⟩) (run_all m ρ)

end Cert.KernelIdeal.Hand

end
-- ==== Proof.RefRunP.lean ====
/- The reference's @main as the list of its 107 host operations (a called function's operations standing at its call),
   and what the fold of that list over the launch memory holds at the fifteen arguments, at the embedding row, at the
   new hidden state and at two of the three results.

   An argument ends as launched because no operation of the line writes it: each operation writes its one result
   reference, and no argument is among the 107. A result is the composed term of the arguments that the operations
   before it build. The one operation whose operands are read through a family of references is the dynamic slice
   that picks the embedding row: its two start indices (the wrapped token index, and zero) are compared by cases on
   the position in the family, once, for the row's own buffer; in each composed term the slice is then folded
   back into that buffer, so that the fold and the composed term hold the same term for it. The third result, the
   log-probabilities, and the run itself are in RefRunFull.lean. -/
import proofs.«101019_j40913858462225_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 107 operations, in order (a called function's operations stand in its call's place, spelt `TRef.…`). -/
abbrev ops : List (HloOp τ sig (Elt F)) :=
  [ reshape main_arg0 main_v0 rfl shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 4096#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 4096#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v3, main_v6] ⟨S_, .i32⟩ main_v7 ((fun x i => Host.dynamicSlice S1x4096 x (fun k => (i k (Shape.Idx.first h_S_)).toInt) sliceFits_S4096x4096_S1x4096) : (⟨S4096x4096, .f32⟩ : BufTy).Contents (Elt F) → (Fin 2 → (⟨S_, .i32⟩ : BufTy).Contents (Elt F)) → (⟨S1x4096, .f32⟩ : BufTy).Contents (Elt F)),
    reshape main_v7 main_v8 rfl shapeCasts_S1x4096_S4096,
    unary main_v8 main_v9 (broadcastInDim S1x4096 ![1] bcast_S4096_S1x4096_1 : (⟨S4096, .f32⟩ : BufTy).Contents (Elt F) → (⟨S1x4096, .f32⟩ : BufTy).Contents (Elt F)),
    reshape main_arg1 main_v10 rfl shapeCasts_S1x1x4096_S1x4096,
    binary main_v9 main_v10 main_v11 ((fun a b => concatenate S1x8192 1 [⟨S1x4096, a⟩, ⟨S1x4096, b⟩] concatenates_S1x4096_S1x4096_S1x8192_d1) : (⟨S1x4096, .f32⟩ : BufTy).Contents (Elt F) → (⟨S1x4096, .f32⟩ : BufTy).Contents (Elt F) → (⟨S1x8192, .f32⟩ : BufTy).Contents (Elt F)),
    unary main_arg5 main_v12 ((transpose S8192x15 [1, 0] · transposes_S15x8192_S8192x15_1_0) : (⟨S15x8192, .f32⟩ : BufTy).Contents (Elt F) → (⟨S8192x15, .f32⟩ : BufTy).Contents (Elt F)),
    binary main_v11 main_v12 main_v13 ((fun l r => Host.dotGeneral dot_S1x8192_S8192x15_S1x15_1_0_0_1_n_n none l r) : (⟨S1x8192, .f32⟩ : BufTy).Contents (Elt F) → (⟨S8192x15, .f32⟩ : BufTy).Contents (Elt F) → (⟨S1x15, .f32⟩ : BufTy).Contents (Elt F)),
    unary main_arg6 main_v14 (broadcastInDim S1x15 ![1] bcast_S15_S1x15_1 : (⟨S15, .f32⟩ : BufTy).Contents (Elt F) → (⟨S1x15, .f32⟩ : BufTy).Contents (Elt F)),
    binary main_v13 main_v14 main_v15 (addf : (⟨S1x15, .f32⟩ : BufTy).Contents (Elt F) → (⟨S1x15, .f32⟩ : BufTy).Contents (Elt F) → (⟨S1x15, .f32⟩ : BufTy).Contents (Elt F)),
    nullary main_cst (constant S_ .f32 0xFF800000#32),
    binary main_v15 main_cst main_v16 ((fun x v => Host.reduce FloatOps.maximumf x v reducesTo_S1x15_S1_d1 h_S_) : (⟨S1x15, .f32⟩ : BufTy).Contents (Elt F) → (⟨S_, .f32⟩ : BufTy).Contents (Elt F) → (⟨S1, .f32⟩ : BufTy).Contents (Elt F)),
    nullary main_cst_6 (constant S_ .f32 0xFF800000#32),
    unary main_cst_6 main_v17 (broadcastInDim S1 ![] bcast_S_S1 : (⟨S_, .f32⟩ : BufTy).Contents (Elt F) → (⟨S1, .f32⟩ : BufTy).Contents (Elt F)),
    binary main_v17 main_v16 main_v18 (maximumf : (⟨S1, .f32⟩ : BufTy).Contents (Elt F) → (⟨S1, .f32⟩ : BufTy).Contents (Elt F) → (⟨S1, .f32⟩ : BufTy).Contents (Elt F)),
    unary main_v18 main_v19 (broadcastInDim S1x1 ![0] bcast_S1_S1x1_0 : (⟨S1, .f32⟩ : BufTy).Contents (Elt F) → (⟨S1x1, .f32⟩ : BufTy).Contents (Elt F)),
    unary main_v19 main_v20 (broadcastInDim S1x15 ![0, 1] bcast_S1x1_S1x15_0_1 : (⟨S1x1, .f32⟩ : BufTy).Contents (Elt F) → (⟨S1x15, .f32⟩ : BufTy).Contents (Elt F)),
    binary main_v15 main_v20 main_v21 (subf : (⟨S1x15, .f32⟩ : BufTy).Contents (Elt F) → (⟨S1x15, .f32⟩ : BufTy).Contents (Elt F) → (⟨S1x15, .f32⟩ : BufTy).Contents (Elt F)),
    unary main_v21 main_v22 (Host.exp : (⟨S1x15, .f32⟩ : BufTy).Contents (Elt F) → (⟨S1x15, .f32⟩ : BufTy).Contents (Elt F)),
    nullary main_cst_7 (constant S_ .f32 0x00000000#32),
    binary main_v22 main_cst_7 main_v23 ((fun x v => Host.reduceAdd x v reducesTo_S1x15_S1_d1 h_S_) : (⟨S1x15, .f32⟩ : BufTy).Contents (Elt F) → (⟨S_, .f32⟩ : BufTy).Contents (Elt F) → (⟨S1, .f32⟩ : BufTy).Contents (Elt F)),
    unary main_v23 main_v24 (broadcastInDim S1x1 ![0] bcast_S1_S1x1_0 : (⟨S1, .f32⟩ : BufTy).Contents (Elt F) → (⟨S1x1, .f32⟩ : BufTy).Contents (Elt F)),
    unary main_v24 main_v25 (broadcastInDim S1x15 ![0, 1] bcast_S1x1_S1x15_0_1 : (⟨S1x1, .f32⟩ : BufTy).Contents (Elt F) → (⟨S1x15, .f32⟩ : BufTy).Contents (Elt F)),
    binary main_v22 main_v25 main_v26 (Host.divf : (⟨S1x15, .f32⟩ : BufTy).Contents (Elt F) → (⟨S1x15, .f32⟩ : BufTy).Contents (Elt F) → (⟨S1x15, .f32⟩ : BufTy).Contents (Elt F)),
    binary main_v26 main_arg3 main_v27 ((fun l r => Host.dotGeneral dot_S1x15_S15x4096_S1x4096_1_0_0_1_n_n none l r) : (⟨S1x15, .f32⟩ : BufTy).Contents (Elt F) → (⟨S15x4096, .f32⟩ : BufTy).Contents (Elt F) → (⟨S1x4096, .f32⟩ : BufTy).Contents (Elt F)),
    binary main_v9 main_v27 main_v28 ((fun a b => concatenate S1x8192 1 [⟨S1x4096, a⟩, ⟨S1x4096, b⟩] concatenates_S1x4096_S1x4096_S1x8192_d1) : (⟨S1x4096, .f32⟩ : BufTy).Contents (Elt F) → (⟨S1x4096, .f32⟩ : BufTy).Contents (Elt F) → (⟨S1x8192, .f32⟩ : BufTy).Contents (Elt F)),
    unary main_arg7 main_v29 ((transpose S8192x4096 [1, 0] · transposes_S4096x8192_S8192x4096_1_0) : (⟨S4096x8192, .f32⟩ : BufTy).Contents (Elt F) → (⟨S8192x4096, .f32⟩ : BufTy).Contents (Elt F)),
    binary main_v28 main_v29 main_v30 ((fun l r => Host.dotGeneral dot_S1x8192_S8192x4096_S1x4096_1_0_0_1_n_n none l r) : (⟨S1x8192, .f32⟩ : BufTy).Contents (Elt F) → (⟨S8192x4096, .f32⟩ : BufTy).Contents (Elt F) → (⟨S1x4096, .f32⟩ : BufTy).Contents (Elt F)),
    unary main_arg8 main_v31 (broadcastInDim S1x4096 ![1] bcast_S4096_S1x4096_1 : (⟨S4096, .f32⟩ : BufTy).Contents (Elt F) → (⟨S1x4096, .f32⟩ : BufTy).Contents (Elt F)),
    binary main_v30 main_v31 main_v32 (addf : (⟨S1x4096, .f32⟩ : BufTy).Contents (Elt F) → (⟨S1x4096, .f32⟩ : BufTy).Contents (Elt F) → (⟨S1x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x4096, .f32⟩) main_call0_v0) (broadcastInDim S1x4096 ![] bcast_S_S1x4096),
    TRef.binary (TRef.of (T := ⟨S1x4096, .f32⟩) main_v32) (TRef.of (T := ⟨S1x4096, .f32⟩) main_call0_v0) (TRef.of (T := ⟨S1x4096, .f32⟩) main_v33) maximumf,
    unary main_arg9 main_v34 ((transpose S4096x12288 [1, 0] · transposes_S12288x4096_S4096x12288_1_0) : (⟨S12288x4096, .f32⟩ : BufTy).Contents (Elt F) → (⟨S4096x12288, .f32⟩ : BufTy).Contents (Elt F)),
    binary main_v33 main_v34 main_v35 ((fun l r => Host.dotGeneral dot_S1x4096_S4096x12288_S1x12288_1_0_0_1_n_n none l r) : (⟨S1x4096, .f32⟩ : BufTy).Contents (Elt F) → (⟨S4096x12288, .f32⟩ : BufTy).Contents (Elt F) → (⟨S1x12288, .f32⟩ : BufTy).Contents (Elt F)),
    unary main_arg11 main_v36 (broadcastInDim S1x12288 ![1] bcast_S12288_S1x12288_1 : (⟨S12288, .f32⟩ : BufTy).Contents (Elt F) → (⟨S1x12288, .f32⟩ : BufTy).Contents (Elt F)),
    binary main_v35 main_v36 main_v37 (addf : (⟨S1x12288, .f32⟩ : BufTy).Contents (Elt F) → (⟨S1x12288, .f32⟩ : BufTy).Contents (Elt F) → (⟨S1x12288, .f32⟩ : BufTy).Contents (Elt F)),
    unary main_arg10 main_v38 ((transpose S4096x12288 [1, 0] · transposes_S12288x4096_S4096x12288_1_0) : (⟨S12288x4096, .f32⟩ : BufTy).Contents (Elt F) → (⟨S4096x12288, .f32⟩ : BufTy).Contents (Elt F)),
    binary main_v10 main_v38 main_v39 ((fun l r => Host.dotGeneral dot_S1x4096_S4096x12288_S1x12288_1_0_0_1_n_n none l r) : (⟨S1x4096, .f32⟩ : BufTy).Contents (Elt F) → (⟨S4096x12288, .f32⟩ : BufTy).Contents (Elt F) → (⟨S1x12288, .f32⟩ : BufTy).Contents (Elt F)),
    unary main_arg12 main_v40 (broadcastInDim S1x12288 ![1] bcast_S12288_S1x12288_1 : (⟨S12288, .f32⟩ : BufTy).Contents (Elt F) → (⟨S1x12288, .f32⟩ : BufTy).Contents (Elt F)),
    binary main_v39 main_v40 main_v41 (addf : (⟨S1x12288, .f32⟩ : BufTy).Contents (Elt F) → (⟨S1x12288, .f32⟩ : BufTy).Contents (Elt F) → (⟨S1x12288, .f32⟩ : BufTy).Contents (Elt F)),
    unary main_v37 main_v42 ((extractStridedSlice S1x4096 ![0, 0] · slices_S1x12288_S1x4096_0_0) : (⟨S1x12288, .f32⟩ : BufTy).Contents (Elt F) → (⟨S1x4096, .f32⟩ : BufTy).Contents (Elt F)),
    unary main_v37 main_v43 ((extractStridedSlice S1x4096 ![0, 4096] · slices_S1x12288_S1x4096_0_4096) : (⟨S1x12288, .f32⟩ : BufTy).Contents (Elt F) → (⟨S1x4096, .f32⟩ : BufTy).Contents (Elt F)),
    unary main_v37 main_v44 ((extractStridedSlice S1x4096 ![0, 8192] · slices_S1x12288_S1x4096_0_8192) : (⟨S1x12288, .f32⟩ : BufTy).Contents (Elt F) → (⟨S1x4096, .f32⟩ : BufTy).Contents (Elt F)),
    unary main_v41 main_v45 ((extractStridedSlice S1x4096 ![0, 0] · slices_S1x12288_S1x4096_0_0) : (⟨S1x12288, .f32⟩ : BufTy).Contents (Elt F) → (⟨S1x4096, .f32⟩ : BufTy).Contents (Elt F)),
    unary main_v41 main_v46 ((extractStridedSlice S1x4096 ![0, 4096] · slices_S1x12288_S1x4096_0_4096) : (⟨S1x12288, .f32⟩ : BufTy).Contents (Elt F) → (⟨S1x4096, .f32⟩ : BufTy).Contents (Elt F)),
    unary main_v41 main_v47 ((extractStridedSlice S1x4096 ![0, 8192] · slices_S1x12288_S1x4096_0_8192) : (⟨S1x12288, .f32⟩ : BufTy).Contents (Elt F) → (⟨S1x4096, .f32⟩ : BufTy).Contents (Elt F)),
    binary main_v42 main_v45 main_v48 (addf : (⟨S1x4096, .f32⟩ : BufTy).Contents (Elt F) → (⟨S1x4096, .f32⟩ : BufTy).Contents (Elt F) → (⟨S1x4096, .f32⟩ : BufTy).Contents (Elt F)),
    unary main_v48 main_v49 (Host.negf : (⟨S1x4096, .f32⟩ : BufTy).Contents (Elt F) → (⟨S1x4096, .f32⟩ : BufTy).Contents (Elt F)),
    unary main_v49 main_v50 (Host.exp : (⟨S1x4096, .f32⟩ : BufTy).Contents (Elt F) → (⟨S1x4096, .f32⟩ : BufTy).Contents (Elt F)),
    nullary main_cst_8 (constant S_ .f32 0x3F800000#32),
    unary main_cst_8 main_v51 (broadcastInDim S1x4096 ![] bcast_S_S1x4096 : (⟨S_, .f32⟩ : BufTy).Contents (Elt F) → (⟨S1x4096, .f32⟩ : BufTy).Contents (Elt F)),
    binary main_v51 main_v50 main_v52 (addf : (⟨S1x4096, .f32⟩ : BufTy).Contents (Elt F) → (⟨S1x4096, .f32⟩ : BufTy).Contents (Elt F) → (⟨S1x4096, .f32⟩ : BufTy).Contents (Elt F)),
    nullary main_cst_9 (constant S_ .f32 0x3F800000#32),
    unary main_cst_9 main_v53 (broadcastInDim S1x4096 ![] bcast_S_S1x4096 : (⟨S_, .f32⟩ : BufTy).Contents (Elt F) → (⟨S1x4096, .f32⟩ : BufTy).Contents (Elt F)),
    binary main_v53 main_v52 main_v54 (Host.divf : (⟨S1x4096, .f32⟩ : BufTy).Contents (Elt F) → (⟨S1x4096, .f32⟩ : BufTy).Contents (Elt F) → (⟨S1x4096, .f32⟩ : BufTy).Contents (Elt F)),
    binary main_v43 main_v46 main_v55 (addf : (⟨S1x4096, .f32⟩ : BufTy).Contents (Elt F) → (⟨S1x4096, .f32⟩ : BufTy).Contents (Elt F) → (⟨S1x4096, .f32⟩ : BufTy).Contents (Elt F)),
    unary main_v55 main_v56 (Host.negf : (⟨S1x4096, .f32⟩ : BufTy).Contents (Elt F) → (⟨S1x4096, .f32⟩ : BufTy).Contents (Elt F)),
    unary main_v56 main_v57 (Host.exp : (⟨S1x4096, .f32⟩ : BufTy).Contents (Elt F) → (⟨S1x4096, .f32⟩ : BufTy).Contents (Elt F)),
    nullary main_cst_10 (constant S_ .f32 0x3F800000#32),
    unary main_cst_10 main_v58 (broadcastInDim S1x4096 ![] bcast_S_S1x4096 : (⟨S_, .f32⟩ : BufTy).Contents (Elt F) → (⟨S1x4096, .f32⟩ : BufTy).Contents (Elt F)),
    binary main_v58 main_v57 main_v59 (addf : (⟨S1x4096, .f32⟩ : BufTy).Contents (Elt F) → (⟨S1x4096, .f32⟩ : BufTy).Contents (Elt F) → (⟨S1x4096, .f32⟩ : BufTy).Contents (Elt F)),
    nullary main_cst_11 (constant S_ .f32 0x3F800000#32),
    unary main_cst_11 main_v60 (broadcastInDim S1x4096 ![] bcast_S_S1x4096 : (⟨S_, .f32⟩ : BufTy).Contents (Elt F) → (⟨S1x4096, .f32⟩ : BufTy).Contents (Elt F)),
    binary main_v60 main_v59 main_v61 (Host.divf : (⟨S1x4096, .f32⟩ : BufTy).Contents (Elt F) → (⟨S1x4096, .f32⟩ : BufTy).Contents (Elt F) → (⟨S1x4096, .f32⟩ : BufTy).Contents (Elt F)),
    binary main_v54 main_v47 main_v62 (mulf : (⟨S1x4096, .f32⟩ : BufTy).Contents (Elt F) → (⟨S1x4096, .f32⟩ : BufTy).Contents (Elt F) → (⟨S1x4096, .f32⟩ : BufTy).Contents (Elt F)),
    binary main_v44 main_v62 main_v63 (addf : (⟨S1x4096, .f32⟩ : BufTy).Contents (Elt F) → (⟨S1x4096, .f32⟩ : BufTy).Contents (Elt F) → (⟨S1x4096, .f32⟩ : BufTy).Contents (Elt F)),
    unary main_v63 main_v64 (Host.tanh : (⟨S1x4096, .f32⟩ : BufTy).Contents (Elt F) → (⟨S1x4096, .f32⟩ : BufTy).Contents (Elt F)),
    nullary main_cst_12 (constant S_ .f32 0x3F800000#32),
    unary main_cst_12 main_v65 (broadcastInDim S1x4096 ![] bcast_S_S1x4096 : (⟨S_, .f32⟩ : BufTy).Contents (Elt F) → (⟨S1x4096, .f32⟩ : BufTy).Contents (Elt F)),
    binary main_v65 main_v61 main_v66 (subf : (⟨S1x4096, .f32⟩ : BufTy).Contents (Elt F) → (⟨S1x4096, .f32⟩ : BufTy).Contents (Elt F) → (⟨S1x4096, .f32⟩ : BufTy).Contents (Elt F)),
    binary main_v66 main_v64 main_v67 (mulf : (⟨S1x4096, .f32⟩ : BufTy).Contents (Elt F) → (⟨S1x4096, .f32⟩ : BufTy).Contents (Elt F) → (⟨S1x4096, .f32⟩ : BufTy).Contents (Elt F)),
    binary main_v61 main_v10 main_v68 (mulf : (⟨S1x4096, .f32⟩ : BufTy).Contents (Elt F) → (⟨S1x4096, .f32⟩ : BufTy).Contents (Elt F) → (⟨S1x4096, .f32⟩ : BufTy).Contents (Elt F)),
    binary main_v67 main_v68 main_v69 (addf : (⟨S1x4096, .f32⟩ : BufTy).Contents (Elt F) → (⟨S1x4096, .f32⟩ : BufTy).Contents (Elt F) → (⟨S1x4096, .f32⟩ : BufTy).Contents (Elt F)),
    unary main_arg13 main_v70 ((transpose S4096x4096 [1, 0] · transposes_S4096x4096_S4096x4096_1_0) : (⟨S4096x4096, .f32⟩ : BufTy).Contents (Elt F) → (⟨S4096x4096, .f32⟩ : BufTy).Contents (Elt F)),
    binary main_v69 main_v70 main_v71 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_arg14 main_v72 (broadcastInDim S1x4096 ![1] bcast_S4096_S1x4096_1 : (⟨S4096, .f32⟩ : BufTy).Contents (Elt F) → (⟨S1x4096, .f32⟩ : BufTy).Contents (Elt F)),
    binary main_v71 main_v72 main_v73 (addf : (⟨S1x4096, .f32⟩ : BufTy).Contents (Elt F) → (⟨S1x4096, .f32⟩ : BufTy).Contents (Elt F) → (⟨S1x4096, .f32⟩ : BufTy).Contents (Elt F)),
    TRef.nullary (TRef.of (T := ⟨S_, .f32⟩) main_call1_cst) (constant S_ .f32 0xFF800000#32),
    TRef.binary (TRef.of (T := ⟨S1x4096, .f32⟩) main_v73) (TRef.of (T := ⟨S_, .f32⟩) main_call1_cst) (TRef.of (T := ⟨S1, .f32⟩) main_call1_v0) (fun x v => Host.reduce FloatOps.maximumf x v reducesTo_S1x4096_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x4096, .f32⟩) main_call1_v4) (broadcastInDim S1x4096 ![0, 1] bcast_S1x1_S1x4096_0_1),
    TRef.binary (TRef.of (T := ⟨S1x4096, .f32⟩) main_v73) (TRef.of (T := ⟨S1x4096, .f32⟩) main_call1_v4) (TRef.of (T := ⟨S1x4096, .f32⟩) main_call1_v5) subf,
    TRef.unary (TRef.of (T := ⟨S1x4096, .f32⟩) main_call1_v5) (TRef.of (T := ⟨S1x4096, .f32⟩) main_call1_v6) Host.exp,
    TRef.nullary (TRef.of (T := ⟨S_, .f32⟩) main_call1_cst_1) (constant S_ .f32 0x00000000#32),
    TRef.binary (TRef.of (T := ⟨S1x4096, .f32⟩) main_call1_v6) (TRef.of (T := ⟨S_, .f32⟩) main_call1_cst_1) (TRef.of (T := ⟨S1, .f32⟩) main_call1_v7) (fun x v => Host.reduceAdd x v reducesTo_S1x4096_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x4096, .f32⟩) main_call1_v10) (broadcastInDim S1x4096 ![0, 1] bcast_S1x1_S1x4096_0_1),
    TRef.binary (TRef.of (T := ⟨S1x4096, .f32⟩) main_call1_v5) (TRef.of (T := ⟨S1x4096, .f32⟩) main_call1_v10) (TRef.of (T := ⟨S1x4096, .f32⟩) main_v74) subf,
    unary main_v69 main_v75 (broadcastInDim S1x1x4096 ![1, 2] bcast_S1x4096_S1x1x4096_1_2 : (⟨S1x4096, .f32⟩ : BufTy).Contents (Elt F) → (⟨S1x1x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

set_option maxRecDepth 8192 in
/-- `main_v26`'s composed term of the arguments (named: it is long). -/
def res_main_v26 (m : (ℓ : Loc nD τ sig) → Buf (Elt F) ℓ) (c : Dev nD) : Buf (Elt F) ((c.tc : Thread nD τ).loc main_v26) :=
  Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))

/-- `res_main_v26` by its position among the values @main returns, 2 counting from 0: the name for hand proofs to cite, since
    a re-print renumbers `main_v26`. An abbreviation: it unfolds to the `res_main_v26` that `run` states. -/
abbrev res_out2 (m : (ℓ : Loc nD τ sig) → Buf (Elt F) ℓ) (c : Dev nD) : Buf (Elt F) ((c.tc : Thread nD τ).loc main_v26) := res_main_v26 m c

set_option maxRecDepth 8192 in
/-- `main_v75`'s composed term of the arguments (named: it is long). -/
def res_main_v75 (m : (ℓ : Loc nD τ sig) → Buf (Elt F) ℓ) (c : Dev nD) : Buf (Elt F) ((c.tc : Thread nD τ).loc main_v75) :=
  broadcastInDim S1x1x4096 ![1, 2] bcast_S1x4096_S1x1x4096_1_2 (addf (mulf (subf (broadcastInDim S1x4096 ![] bcast_S_S1x4096 (constant S_ .f32 0x3F800000#32)) (Host.divf (broadcastInDim S1x4096 ![] bcast_S_S1x4096 (constant S_ .f32 0x3F800000#32)) (addf (broadcastInDim S1x4096 ![] bcast_S_S1x4096 (constant S_ .f32 0x3F800000#32)) (Host.exp (Host.negf (addf (extractStridedSlice S1x4096 ![0, 4096] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_4096) (extractStridedSlice S1x4096 ![0, 4096] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_4096))))))) (Host.tanh (addf (extractStridedSlice S1x4096 ![0, 8192] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_8192) (mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (extractStridedSlice S1x4096 ![0, 0] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_0) (extractStridedSlice S1x4096 ![0, 0] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_0)))))) (extractStridedSlice S1x4096 ![0, 8192] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_8192))))) (mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (extractStridedSlice S1x4096 ![0, 4096] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_4096) (extractStridedSlice S1x4096 ![0, 4096] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_4096)))))) (shapeCast _ (m ((c.tc : Thread nD τ).loc main_arg1)) shapeCasts_S1x1x4096_S1x4096)))

/-- `res_main_v75` by its position among the values @main returns, 1 counting from 0: the name for hand proofs to cite, since
    a re-print renumbers `main_v75`. An abbreviation: it unfolds to the `res_main_v75` that `run` states. -/
abbrev res_out1 (m : (ℓ : Loc nD τ sig) → Buf (Elt F) ℓ) (c : Dev nD) : Buf (Elt F) ((c.tc : Thread nD τ).loc main_v75) := res_main_v75 m c

set_option maxRecDepth 8192 in
/-- `main_v69`'s composed term of the arguments: the new hidden state as a row (the term inside `res_main_v75`). -/
def res_main_v69 (m : (ℓ : Loc nD τ sig) → Buf (Elt F) ℓ) (c : Dev nD) : Buf (Elt F) ((c.tc : Thread nD τ).loc main_v69) :=
  (addf (mulf (subf (broadcastInDim S1x4096 ![] bcast_S_S1x4096 (constant S_ .f32 0x3F800000#32)) (Host.divf (broadcastInDim S1x4096 ![] bcast_S_S1x4096 (constant S_ .f32 0x3F800000#32)) (addf (broadcastInDim S1x4096 ![] bcast_S_S1x4096 (constant S_ .f32 0x3F800000#32)) (Host.exp (Host.negf (addf (extractStridedSlice S1x4096 ![0, 4096] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_4096) (extractStridedSlice S1x4096 ![0, 4096] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_4096))))))) (Host.tanh (addf (extractStridedSlice S1x4096 ![0, 8192] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_8192) (mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (extractStridedSlice S1x4096 ![0, 0] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_0) (extractStridedSlice S1x4096 ![0, 0] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_0)))))) (extractStridedSlice S1x4096 ![0, 8192] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_8192))))) (mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (extractStridedSlice S1x4096 ![0, 4096] (addf (Host.dotGeneral dot_S1x4096_S4096x12288_S1x12288_1_0_0_1_n_n none (maximumf (addf (Host.dotGeneral dot_S1x8192_S8192x4096_S1x4096_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (Host.dotGeneral dot_S1x15_S15x4096_S1x4096_1_0_0_1_n_n none (Host.divf (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (broadcastInDim S1x15 ![0, 1] bcast_S1x1_S1x15_0_1 (broadcastInDim S1x1 ![0] bcast_S1_S1x1_0 (Host.reduceAdd (Host.exp (subf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (broadcastInDim S1x15 ![0, 1] bcast_S1x1_S1x15_0_1 (broadcastInDim S1x1 ![0] bcast_S1_S1x1_0 (maximumf (broadcastInDim S1 ![] bcast_S_S1 (constant S_ .f32 0xFF800000#32)) (Host.reduce FloatOps.maximumf (addf (Host.dotGeneral dot_S1x8192_S8192x15_S1x15_1_0_0_1_n_n none (concatenate S1x8192 1 [⟨S1x4096, (broadcastInDim S1x4096 ![1] bcast_S4096_S1x4096_1 (shapeCast _ (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) shapeCasts_S1x4096_S4096))⟩, ⟨S1x4096, (shapeCast _ (m ((c.tc : Thread nD τ).loc main_arg1)) shapeCasts_S1x1x4096_S1x4096)⟩] concatenates_S1x4096_S1x4096_S1x8192_d1) (transpose S8192x15 [1, 0] (m ((c.tc : Thread nD τ).loc main_arg5)) transposes_S15x8192_S8192x15_1_0)) (broadcastInDim S1x15 ![1] bcast_S15_S1x15_1 (m ((c.tc : Thread nD τ).loc main_arg6)))) (constant S_ .f32 0xFF800000#32) reducesTo_S1x15_S1_d1 h_S_)))))) (constant S_ .f32 0x00000000#32) reducesTo_S1x15_S1_d1 h_S_)))) (m ((c.tc : Thread nD τ).loc main_arg3)))⟩] concatenates_S1x4096_S1x4096_S1x8192_d1) (transpose S8192x4096 [1, 0] (m ((c.tc : Thread nD τ).loc main_arg7)) transposes_S4096x8192_S8192x4096_1_0)) (broadcastInDim S1x4096 ![1] bcast_S4096_S1x4096_1 (m ((c.tc : Thread nD τ).loc main_arg8)))) (broadcastInDim S1x4096 ![] bcast_S_S1x4096 (constant S_ .f32 0x00000000#32))) (transpose S4096x12288 [1, 0] (m ((c.tc : Thread nD τ).loc main_arg9)) transposes_S12288x4096_S4096x12288_1_0)) (broadcastInDim S1x12288 ![1] bcast_S12288_S1x12288_1 (m ((c.tc : Thread nD τ).loc main_arg11)))) slices_S1x12288_S1x4096_0_4096) (extractStridedSlice S1x4096 ![0, 4096] (addf (Host.dotGeneral dot_S1x4096_S4096x12288_S1x12288_1_0_0_1_n_n none (shapeCast _ (m ((c.tc : Thread nD τ).loc main_arg1)) shapeCasts_S1x1x4096_S1x4096) (transpose S4096x12288 [1, 0] (m ((c.tc : Thread nD τ).loc main_arg10)) transposes_S12288x4096_S4096x12288_1_0)) (broadcastInDim S1x12288 ![1] bcast_S12288_S1x12288_1 (m ((c.tc : Thread nD τ).loc main_arg12)))) slices_S1x12288_S1x4096_0_4096)))))) (shapeCast _ (m ((c.tc : Thread nD τ).loc main_arg1)) shapeCasts_S1x1x4096_S1x4096)))

/-! ## What the fold holds at the arguments and at the results -/

/-- The references the 107 operations write, in order. -/
abbrev ops_W : List (Ref sig .tc) := [main_v0, main_c, main_v1, main_c_0, main_v2, main_v3, main_c_1, main_c_2, main_v4, main_c_3, main_c_4, main_v5, main_c_5, main_v6, main_v7, main_v8, main_v9, main_v10, main_v11, main_v12, main_v13, main_v14, main_v15, main_cst, main_v16, main_cst_6, main_v17, main_v18, main_v19, main_v20, main_v21, main_v22, main_cst_7, main_v23, main_v24, main_v25, main_v26, main_v27, main_v28, main_v29, main_v30, main_v31, main_v32, main_call0_cst, main_call0_v0, main_v33, main_v34, main_v35, main_v36, main_v37, main_v38, main_v39, main_v40, main_v41, main_v42, main_v43, main_v44, main_v45, main_v46, main_v47, main_v48, main_v49, main_v50, main_cst_8, main_v51, main_v52, main_cst_9, main_v53, main_v54, main_v55, main_v56, main_v57, main_cst_10, main_v58, main_v59, main_cst_11, main_v60, main_v61, main_v62, main_v63, main_v64, main_cst_12, main_v65, main_v66, main_v67, main_v68, main_v69, main_v70, main_v71, main_v72, main_v73, main_call1_cst, main_call1_v0, main_call1_cst_0, main_call1_v1, main_call1_v2, main_call1_v3, main_call1_v4, main_call1_v5, main_call1_v6, main_call1_cst_1, main_call1_v7, main_call1_v8, main_call1_v9, main_call1_v10, main_v74, main_v75]
set_option maxRecDepth 8192 in
/-- Each operation writes its one result reference. -/
theorem ops_writes : (ops : List (HloOp τ sig (Elt F))).Forall fun op => op.writes ⊆ (ops_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxRecDepth 8192 in
set_option maxHeartbeats 4000000 in
/-- The embedding row's buffer after the line: the dynamic slice at the two start indices the line computes
    (its operand family is read under a binder, so the two indices are compared one by one). -/
theorem after_main_v7 (m : (ℓ : Loc nD τ sig) → Buf (Elt F) ℓ) (c : Dev nD) :
    after (ops (F := F)) (launchContents m c) (Proc.devRef .tc main_v7)
      = (Host.dynamicSlice S1x4096 (m ((c.tc : Thread nD τ).loc main_arg4)) (fun k => (((![select (cmpi .slt (shapeCast _ (m ((c.tc : Thread nD τ).loc main_arg0)) shapeCasts_S1_S_) (constantI S_ 32 0#32)) (addi (shapeCast _ (m ((c.tc : Thread nD τ).loc main_arg0)) shapeCasts_S1_S_) (constantI S_ 32 4096#32)) (shapeCast _ (m ((c.tc : Thread nD τ).loc main_arg0)) shapeCasts_S1_S_), select (cmpi .slt (constantI S_ 32 0#32) (constantI S_ 32 0#32)) (addi (constantI S_ 32 0#32) (constantI S_ 32 4096#32)) (constantI S_ 32 0#32)] : Fin 2 → (⟨S_, .i32⟩ : BufTy).Contents (Elt F))) k (Shape.Idx.first h_S_)).toInt) sliceFits_S4096x4096_S1x4096) := by
  after_results_simp <;> first
    | (congr 1 <;> first
        | rfl
        | (funext k; fin_cases k <;> (try simp only [Matrix.cons_val_zero', Matrix.cons_val_succ', Fin.zero_eta, Fin.mk_one, Matrix.cons_val_zero, Matrix.cons_val_one, Matrix.head_cons]) <;> (try after_results_simp) <;> rfl))
    | rfl

set_option maxRecDepth 8192 in
set_option maxHeartbeats 42800000 in
/-- Result 2 (the attention weights) read back: the slice inside the composed term is first folded back into the embedding row's
    buffer, so that both sides hold the same term for it and the comparison never opens it. -/
theorem after_main_v26 (m : (ℓ : Loc nD τ sig) → Buf (Elt F) ℓ) (c : Dev nD) :
    after (ops (F := F)) (launchContents m c) (Proc.devRef .tc main_v26) = res_main_v26 m c := by
  unfold res_main_v26
  rw [← after_main_v7 m c]
  after_results_simp
  rfl

set_option maxRecDepth 8192 in
set_option maxHeartbeats 42800000 in
/-- Result 1 (the new hidden state) read back, likewise. -/
theorem after_main_v75 (m : (ℓ : Loc nD τ sig) → Buf (Elt F) ℓ) (c : Dev nD) :
    after (ops (F := F)) (launchContents m c) (Proc.devRef .tc main_v75) = res_main_v75 m c := by
  unfold res_main_v75
  rw [← after_main_v7 m c]
  after_results_simp
  rfl

set_option maxRecDepth 8192 in
set_option maxHeartbeats 42800000 in
/-- The new hidden state as a row read back, likewise. -/
theorem after_main_v69 (m : (ℓ : Loc nD τ sig) → Buf (Elt F) ℓ) (c : Dev nD) :
    after (ops (F := F)) (launchContents m c) (Proc.devRef .tc main_v69) = res_main_v69 m c := by
  unfold res_main_v69
  rw [← after_main_v7 m c]
  after_results_simp
  rfl

end Cert.ReferenceIdeal.ValueP

end
-- ==== Proof.RefRunFull.lean ====
/- The reference's run, and its third result read stretch-wise.

   The line of 107 operations is its first 87 — which end with the new hidden state as a row — followed by its last 20:
   the output layer (the transposed weight, the contraction, the bias row, their sum), the fifteen operations of the
   log-softmax, and the view of the new hidden state as [1, 1, 4096]. A fold over a concatenation is the fold over the
   second list from the contents the first list leaves. For ANY contents at their entry the last 20 operations leave,
   in the log-probabilities' buffer, the log-softmax of the output layer of what the hidden-state row and the two
   output-layer arguments held, and they write none of those three buffers; so after the whole line the
   log-probabilities' buffer holds the log-softmax of the output layer of the hidden-state row's composed term
   (RefRunP.lean) and of the two arguments as launched. The log-softmax's operations act on references typed by their
   tensor types, whose contents are transported along an equation of types that holds by reflexivity: the transports
   are the identity. -/
import proofs.«101019_j40913858462225_2_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation: the second list from where the first ends. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first 87 operations of the line: through the new hidden state as a row. -/
abbrev opsA : List (HloOp τ sig (Elt F)) :=
  [ reshape main_arg0 main_v0 rfl shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 4096#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 4096#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v3, main_v6] ⟨S_, .i32⟩ main_v7 ((fun x i => Host.dynamicSlice S1x4096 x (fun k => (i k (Shape.Idx.first h_S_)).toInt) sliceFits_S4096x4096_S1x4096) : (⟨S4096x4096, .f32⟩ : BufTy).Contents (Elt F) → (Fin 2 → (⟨S_, .i32⟩ : BufTy).Contents (Elt F)) → (⟨S1x4096, .f32⟩ : BufTy).Contents (Elt F)),
    reshape main_v7 main_v8 rfl shapeCasts_S1x4096_S4096,
    unary main_v8 main_v9 (broadcastInDim S1x4096 ![1] bcast_S4096_S1x4096_1 : (⟨S4096, .f32⟩ : BufTy).Contents (Elt F) → (⟨S1x4096, .f32⟩ : BufTy).Contents (Elt F)),
    reshape main_arg1 main_v10 rfl shapeCasts_S1x1x4096_S1x4096,
    binary main_v9 main_v10 main_v11 ((fun a b => concatenate S1x8192 1 [⟨S1x4096, a⟩, ⟨S1x4096, b⟩] concatenates_S1x4096_S1x4096_S1x8192_d1) : (⟨S1x4096, .f32⟩ : BufTy).Contents (Elt F) → (⟨S1x4096, .f32⟩ : BufTy).Contents (Elt F) → (⟨S1x8192, .f32⟩ : BufTy).Contents (Elt F)),
    unary main_arg5 main_v12 ((transpose S8192x15 [1, 0] · transposes_S15x8192_S8192x15_1_0) : (⟨S15x8192, .f32⟩ : BufTy).Contents (Elt F) → (⟨S8192x15, .f32⟩ : BufTy).Contents (Elt F)),
    binary main_v11 main_v12 main_v13 ((fun l r => Host.dotGeneral dot_S1x8192_S8192x15_S1x15_1_0_0_1_n_n none l r) : (⟨S1x8192, .f32⟩ : BufTy).Contents (Elt F) → (⟨S8192x15, .f32⟩ : BufTy).Contents (Elt F) → (⟨S1x15, .f32⟩ : BufTy).Contents (Elt F)),
    unary main_arg6 main_v14 (broadcastInDim S1x15 ![1] bcast_S15_S1x15_1 : (⟨S15, .f32⟩ : BufTy).Contents (Elt F) → (⟨S1x15, .f32⟩ : BufTy).Contents (Elt F)),
    binary main_v13 main_v14 main_v15 (addf : (⟨S1x15, .f32⟩ : BufTy).Contents (Elt F) → (⟨S1x15, .f32⟩ : BufTy).Contents (Elt F) → (⟨S1x15, .f32⟩ : BufTy).Contents (Elt F)),
    nullary main_cst (constant S_ .f32 0xFF800000#32),
    binary main_v15 main_cst main_v16 ((fun x v => Host.reduce FloatOps.maximumf x v reducesTo_S1x15_S1_d1 h_S_) : (⟨S1x15, .f32⟩ : BufTy).Contents (Elt F) → (⟨S_, .f32⟩ : BufTy).Contents (Elt F) → (⟨S1, .f32⟩ : BufTy).Contents (Elt F)),
    nullary main_cst_6 (constant S_ .f32 0xFF800000#32),
    unary main_cst_6 main_v17 (broadcastInDim S1 ![] bcast_S_S1 : (⟨S_, .f32⟩ : BufTy).Contents (Elt F) → (⟨S1, .f32⟩ : BufTy).Contents (Elt F)),
    binary main_v17 main_v16 main_v18 (maximumf : (⟨S1, .f32⟩ : BufTy).Contents (Elt F) → (⟨S1, .f32⟩ : BufTy).Contents (Elt F) → (⟨S1, .f32⟩ : BufTy).Contents (Elt F)),
    unary main_v18 main_v19 (broadcastInDim S1x1 ![0] bcast_S1_S1x1_0 : (⟨S1, .f32⟩ : BufTy).Contents (Elt F) → (⟨S1x1, .f32⟩ : BufTy).Contents (Elt F)),
    unary main_v19 main_v20 (broadcastInDim S1x15 ![0, 1] bcast_S1x1_S1x15_0_1 : (⟨S1x1, .f32⟩ : BufTy).Contents (Elt F) → (⟨S1x15, .f32⟩ : BufTy).Contents (Elt F)),
    binary main_v15 main_v20 main_v21 (subf : (⟨S1x15, .f32⟩ : BufTy).Contents (Elt F) → (⟨S1x15, .f32⟩ : BufTy).Contents (Elt F) → (⟨S1x15, .f32⟩ : BufTy).Contents (Elt F)),
    unary main_v21 main_v22 (Host.exp : (⟨S1x15, .f32⟩ : BufTy).Contents (Elt F) → (⟨S1x15, .f32⟩ : BufTy).Contents (Elt F)),
    nullary main_cst_7 (constant S_ .f32 0x00000000#32),
    binary main_v22 main_cst_7 main_v23 ((fun x v => Host.reduceAdd x v reducesTo_S1x15_S1_d1 h_S_) : (⟨S1x15, .f32⟩ : BufTy).Contents (Elt F) → (⟨S_, .f32⟩ : BufTy).Contents (Elt F) → (⟨S1, .f32⟩ : BufTy).Contents (Elt F)),
    unary main_v23 main_v24 (broadcastInDim S1x1 ![0] bcast_S1_S1x1_0 : (⟨S1, .f32⟩ : BufTy).Contents (Elt F) → (⟨S1x1, .f32⟩ : BufTy).Contents (Elt F)),
    unary main_v24 main_v25 (broadcastInDim S1x15 ![0, 1] bcast_S1x1_S1x15_0_1 : (⟨S1x1, .f32⟩ : BufTy).Contents (Elt F) → (⟨S1x15, .f32⟩ : BufTy).Contents (Elt F)),
    binary main_v22 main_v25 main_v26 (Host.divf : (⟨S1x15, .f32⟩ : BufTy).Contents (Elt F) → (⟨S1x15, .f32⟩ : BufTy).Contents (Elt F) → (⟨S1x15, .f32⟩ : BufTy).Contents (Elt F)),
    binary main_v26 main_arg3 main_v27 ((fun l r => Host.dotGeneral dot_S1x15_S15x4096_S1x4096_1_0_0_1_n_n none l r) : (⟨S1x15, .f32⟩ : BufTy).Contents (Elt F) → (⟨S15x4096, .f32⟩ : BufTy).Contents (Elt F) → (⟨S1x4096, .f32⟩ : BufTy).Contents (Elt F)),
    binary main_v9 main_v27 main_v28 ((fun a b => concatenate S1x8192 1 [⟨S1x4096, a⟩, ⟨S1x4096, b⟩] concatenates_S1x4096_S1x4096_S1x8192_d1) : (⟨S1x4096, .f32⟩ : BufTy).Contents (Elt F) → (⟨S1x4096, .f32⟩ : BufTy).Contents (Elt F) → (⟨S1x8192, .f32⟩ : BufTy).Contents (Elt F)),
    unary main_arg7 main_v29 ((transpose S8192x4096 [1, 0] · transposes_S4096x8192_S8192x4096_1_0) : (⟨S4096x8192, .f32⟩ : BufTy).Contents (Elt F) → (⟨S8192x4096, .f32⟩ : BufTy).Contents (Elt F)),
    binary main_v28 main_v29 main_v30 ((fun l r => Host.dotGeneral dot_S1x8192_S8192x4096_S1x4096_1_0_0_1_n_n none l r) : (⟨S1x8192, .f32⟩ : BufTy).Contents (Elt F) → (⟨S8192x4096, .f32⟩ : BufTy).Contents (Elt F) → (⟨S1x4096, .f32⟩ : BufTy).Contents (Elt F)),
    unary main_arg8 main_v31 (broadcastInDim S1x4096 ![1] bcast_S4096_S1x4096_1 : (⟨S4096, .f32⟩ : BufTy).Contents (Elt F) → (⟨S1x4096, .f32⟩ : BufTy).Contents (Elt F)),
    binary main_v30 main_v31 main_v32 (addf : (⟨S1x4096, .f32⟩ : BufTy).Contents (Elt F) → (⟨S1x4096, .f32⟩ : BufTy).Contents (Elt F) → (⟨S1x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x4096, .f32⟩) main_call0_v0) (broadcastInDim S1x4096 ![] bcast_S_S1x4096),
    TRef.binary (TRef.of (T := ⟨S1x4096, .f32⟩) main_v32) (TRef.of (T := ⟨S1x4096, .f32⟩) main_call0_v0) (TRef.of (T := ⟨S1x4096, .f32⟩) main_v33) maximumf,
    unary main_arg9 main_v34 ((transpose S4096x12288 [1, 0] · transposes_S12288x4096_S4096x12288_1_0) : (⟨S12288x4096, .f32⟩ : BufTy).Contents (Elt F) → (⟨S4096x12288, .f32⟩ : BufTy).Contents (Elt F)),
    binary main_v33 main_v34 main_v35 ((fun l r => Host.dotGeneral dot_S1x4096_S4096x12288_S1x12288_1_0_0_1_n_n none l r) : (⟨S1x4096, .f32⟩ : BufTy).Contents (Elt F) → (⟨S4096x12288, .f32⟩ : BufTy).Contents (Elt F) → (⟨S1x12288, .f32⟩ : BufTy).Contents (Elt F)),
    unary main_arg11 main_v36 (broadcastInDim S1x12288 ![1] bcast_S12288_S1x12288_1 : (⟨S12288, .f32⟩ : BufTy).Contents (Elt F) → (⟨S1x12288, .f32⟩ : BufTy).Contents (Elt F)),
    binary main_v35 main_v36 main_v37 (addf : (⟨S1x12288, .f32⟩ : BufTy).Contents (Elt F) → (⟨S1x12288, .f32⟩ : BufTy).Contents (Elt F) → (⟨S1x12288, .f32⟩ : BufTy).Contents (Elt F)),
    unary main_arg10 main_v38 ((transpose S4096x12288 [1, 0] · transposes_S12288x4096_S4096x12288_1_0) : (⟨S12288x4096, .f32⟩ : BufTy).Contents (Elt F) → (⟨S4096x12288, .f32⟩ : BufTy).Contents (Elt F)),
    binary main_v10 main_v38 main_v39 ((fun l r => Host.dotGeneral dot_S1x4096_S4096x12288_S1x12288_1_0_0_1_n_n none l r) : (⟨S1x4096, .f32⟩ : BufTy).Contents (Elt F) → (⟨S4096x12288, .f32⟩ : BufTy).Contents (Elt F) → (⟨S1x12288, .f32⟩ : BufTy).Contents (Elt F)),
    unary main_arg12 main_v40 (broadcastInDim S1x12288 ![1] bcast_S12288_S1x12288_1 : (⟨S12288, .f32⟩ : BufTy).Contents (Elt F) → (⟨S1x12288, .f32⟩ : BufTy).Contents (Elt F)),
    binary main_v39 main_v40 main_v41 (addf : (⟨S1x12288, .f32⟩ : BufTy).Contents (Elt F) → (⟨S1x12288, .f32⟩ : BufTy).Contents (Elt F) → (⟨S1x12288, .f32⟩ : BufTy).Contents (Elt F)),
    unary main_v37 main_v42 ((extractStridedSlice S1x4096 ![0, 0] · slices_S1x12288_S1x4096_0_0) : (⟨S1x12288, .f32⟩ : BufTy).Contents (Elt F) → (⟨S1x4096, .f32⟩ : BufTy).Contents (Elt F)),
    unary main_v37 main_v43 ((extractStridedSlice S1x4096 ![0, 4096] · slices_S1x12288_S1x4096_0_4096) : (⟨S1x12288, .f32⟩ : BufTy).Contents (Elt F) → (⟨S1x4096, .f32⟩ : BufTy).Contents (Elt F)),
    unary main_v37 main_v44 ((extractStridedSlice S1x4096 ![0, 8192] · slices_S1x12288_S1x4096_0_8192) : (⟨S1x12288, .f32⟩ : BufTy).Contents (Elt F) → (⟨S1x4096, .f32⟩ : BufTy).Contents (Elt F)),
    unary main_v41 main_v45 ((extractStridedSlice S1x4096 ![0, 0] · slices_S1x12288_S1x4096_0_0) : (⟨S1x12288, .f32⟩ : BufTy).Contents (Elt F) → (⟨S1x4096, .f32⟩ : BufTy).Contents (Elt F)),
    unary main_v41 main_v46 ((extractStridedSlice S1x4096 ![0, 4096] · slices_S1x12288_S1x4096_0_4096) : (⟨S1x12288, .f32⟩ : BufTy).Contents (Elt F) → (⟨S1x4096, .f32⟩ : BufTy).Contents (Elt F)),
    unary main_v41 main_v47 ((extractStridedSlice S1x4096 ![0, 8192] · slices_S1x12288_S1x4096_0_8192) : (⟨S1x12288, .f32⟩ : BufTy).Contents (Elt F) → (⟨S1x4096, .f32⟩ : BufTy).Contents (Elt F)),
    binary main_v42 main_v45 main_v48 (addf : (⟨S1x4096, .f32⟩ : BufTy).Contents (Elt F) → (⟨S1x4096, .f32⟩ : BufTy).Contents (Elt F) → (⟨S1x4096, .f32⟩ : BufTy).Contents (Elt F)),
    unary main_v48 main_v49 (Host.negf : (⟨S1x4096, .f32⟩ : BufTy).Contents (Elt F) → (⟨S1x4096, .f32⟩ : BufTy).Contents (Elt F)),
    unary main_v49 main_v50 (Host.exp : (⟨S1x4096, .f32⟩ : BufTy).Contents (Elt F) → (⟨S1x4096, .f32⟩ : BufTy).Contents (Elt F)),
    nullary main_cst_8 (constant S_ .f32 0x3F800000#32),
    unary main_cst_8 main_v51 (broadcastInDim S1x4096 ![] bcast_S_S1x4096 : (⟨S_, .f32⟩ : BufTy).Contents (Elt F) → (⟨S1x4096, .f32⟩ : BufTy).Contents (Elt F)),
    binary main_v51 main_v50 main_v52 (addf : (⟨S1x4096, .f32⟩ : BufTy).Contents (Elt F) → (⟨S1x4096, .f32⟩ : BufTy).Contents (Elt F) → (⟨S1x4096, .f32⟩ : BufTy).Contents (Elt F)),
    nullary main_cst_9 (constant S_ .f32 0x3F800000#32),
    unary main_cst_9 main_v53 (broadcastInDim S1x4096 ![] bcast_S_S1x4096 : (⟨S_, .f32⟩ : BufTy).Contents (Elt F) → (⟨S1x4096, .f32⟩ : BufTy).Contents (Elt F)),
    binary main_v53 main_v52 main_v54 (Host.divf : (⟨S1x4096, .f32⟩ : BufTy).Contents (Elt F) → (⟨S1x4096, .f32⟩ : BufTy).Contents (Elt F) → (⟨S1x4096, .f32⟩ : BufTy).Contents (Elt F)),
    binary main_v43 main_v46 main_v55 (addf : (⟨S1x4096, .f32⟩ : BufTy).Contents (Elt F) → (⟨S1x4096, .f32⟩ : BufTy).Contents (Elt F) → (⟨S1x4096, .f32⟩ : BufTy).Contents (Elt F)),
    unary main_v55 main_v56 (Host.negf : (⟨S1x4096, .f32⟩ : BufTy).Contents (Elt F) → (⟨S1x4096, .f32⟩ : BufTy).Contents (Elt F)),
    unary main_v56 main_v57 (Host.exp : (⟨S1x4096, .f32⟩ : BufTy).Contents (Elt F) → (⟨S1x4096, .f32⟩ : BufTy).Contents (Elt F)),
    nullary main_cst_10 (constant S_ .f32 0x3F800000#32),
    unary main_cst_10 main_v58 (broadcastInDim S1x4096 ![] bcast_S_S1x4096 : (⟨S_, .f32⟩ : BufTy).Contents (Elt F) → (⟨S1x4096, .f32⟩ : BufTy).Contents (Elt F)),
    binary main_v58 main_v57 main_v59 (addf : (⟨S1x4096, .f32⟩ : BufTy).Contents (Elt F) → (⟨S1x4096, .f32⟩ : BufTy).Contents (Elt F) → (⟨S1x4096, .f32⟩ : BufTy).Contents (Elt F)),
    nullary main_cst_11 (constant S_ .f32 0x3F800000#32),
    unary main_cst_11 main_v60 (broadcastInDim S1x4096 ![] bcast_S_S1x4096 : (⟨S_, .f32⟩ : BufTy).Contents (Elt F) → (⟨S1x4096, .f32⟩ : BufTy).Contents (Elt F)),
    binary main_v60 main_v59 main_v61 (Host.divf : (⟨S1x4096, .f32⟩ : BufTy).Contents (Elt F) → (⟨S1x4096, .f32⟩ : BufTy).Contents (Elt F) → (⟨S1x4096, .f32⟩ : BufTy).Contents (Elt F)),
    binary main_v54 main_v47 main_v62 (mulf : (⟨S1x4096, .f32⟩ : BufTy).Contents (Elt F) → (⟨S1x4096, .f32⟩ : BufTy).Contents (Elt F) → (⟨S1x4096, .f32⟩ : BufTy).Contents (Elt F)),
    binary main_v44 main_v62 main_v63 (addf : (⟨S1x4096, .f32⟩ : BufTy).Contents (Elt F) → (⟨S1x4096, .f32⟩ : BufTy).Contents (Elt F) → (⟨S1x4096, .f32⟩ : BufTy).Contents (Elt F)),
    unary main_v63 main_v64 (Host.tanh : (⟨S1x4096, .f32⟩ : BufTy).Contents (Elt F) → (⟨S1x4096, .f32⟩ : BufTy).Contents (Elt F)),
    nullary main_cst_12 (constant S_ .f32 0x3F800000#32),
    unary main_cst_12 main_v65 (broadcastInDim S1x4096 ![] bcast_S_S1x4096 : (⟨S_, .f32⟩ : BufTy).Contents (Elt F) → (⟨S1x4096, .f32⟩ : BufTy).Contents (Elt F)),
    binary main_v65 main_v61 main_v66 (subf : (⟨S1x4096, .f32⟩ : BufTy).Contents (Elt F) → (⟨S1x4096, .f32⟩ : BufTy).Contents (Elt F) → (⟨S1x4096, .f32⟩ : BufTy).Contents (Elt F)),
    binary main_v66 main_v64 main_v67 (mulf : (⟨S1x4096, .f32⟩ : BufTy).Contents (Elt F) → (⟨S1x4096, .f32⟩ : BufTy).Contents (Elt F) → (⟨S1x4096, .f32⟩ : BufTy).Contents (Elt F)),
    binary main_v61 main_v10 main_v68 (mulf : (⟨S1x4096, .f32⟩ : BufTy).Contents (Elt F) → (⟨S1x4096, .f32⟩ : BufTy).Contents (Elt F) → (⟨S1x4096, .f32⟩ : BufTy).Contents (Elt F)),
    binary main_v67 main_v68 main_v69 (addf : (⟨S1x4096, .f32⟩ : BufTy).Contents (Elt F) → (⟨S1x4096, .f32⟩ : BufTy).Contents (Elt F) → (⟨S1x4096, .f32⟩ : BufTy).Contents (Elt F)) ]

/-- The last 20: the output layer, the log-softmax, the new hidden state viewed as [1, 1, 4096]. -/
abbrev opsT : List (HloOp τ sig (Elt F)) :=
  [ unary main_arg13 main_v70 ((transpose S4096x4096 [1, 0] · transposes_S4096x4096_S4096x4096_1_0) : (⟨S4096x4096, .f32⟩ : BufTy).Contents (Elt F) → (⟨S4096x4096, .f32⟩ : BufTy).Contents (Elt F)),
    binary main_v69 main_v70 main_v71 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_arg14 main_v72 (broadcastInDim S1x4096 ![1] bcast_S4096_S1x4096_1 : (⟨S4096, .f32⟩ : BufTy).Contents (Elt F) → (⟨S1x4096, .f32⟩ : BufTy).Contents (Elt F)),
    binary main_v71 main_v72 main_v73 (addf : (⟨S1x4096, .f32⟩ : BufTy).Contents (Elt F) → (⟨S1x4096, .f32⟩ : BufTy).Contents (Elt F) → (⟨S1x4096, .f32⟩ : BufTy).Contents (Elt F)),
    TRef.nullary (TRef.of (T := ⟨S_, .f32⟩) main_call1_cst) (constant S_ .f32 0xFF800000#32),
    TRef.binary (TRef.of (T := ⟨S1x4096, .f32⟩) main_v73) (TRef.of (T := ⟨S_, .f32⟩) main_call1_cst) (TRef.of (T := ⟨S1, .f32⟩) main_call1_v0) (fun x v => Host.reduce FloatOps.maximumf x v reducesTo_S1x4096_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x4096, .f32⟩) main_call1_v4) (broadcastInDim S1x4096 ![0, 1] bcast_S1x1_S1x4096_0_1),
    TRef.binary (TRef.of (T := ⟨S1x4096, .f32⟩) main_v73) (TRef.of (T := ⟨S1x4096, .f32⟩) main_call1_v4) (TRef.of (T := ⟨S1x4096, .f32⟩) main_call1_v5) subf,
    TRef.unary (TRef.of (T := ⟨S1x4096, .f32⟩) main_call1_v5) (TRef.of (T := ⟨S1x4096, .f32⟩) main_call1_v6) Host.exp,
    TRef.nullary (TRef.of (T := ⟨S_, .f32⟩) main_call1_cst_1) (constant S_ .f32 0x00000000#32),
    TRef.binary (TRef.of (T := ⟨S1x4096, .f32⟩) main_call1_v6) (TRef.of (T := ⟨S_, .f32⟩) main_call1_cst_1) (TRef.of (T := ⟨S1, .f32⟩) main_call1_v7) (fun x v => Host.reduceAdd x v reducesTo_S1x4096_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x4096, .f32⟩) main_call1_v10) (broadcastInDim S1x4096 ![0, 1] bcast_S1x1_S1x4096_0_1),
    TRef.binary (TRef.of (T := ⟨S1x4096, .f32⟩) main_call1_v5) (TRef.of (T := ⟨S1x4096, .f32⟩) main_call1_v10) (TRef.of (T := ⟨S1x4096, .f32⟩) main_v74) subf,
    unary main_v69 main_v75 (broadcastInDim S1x1x4096 ![1, 2] bcast_S1x4096_S1x1x4096_1_2 : (⟨S1x4096, .f32⟩ : BufTy).Contents (Elt F) → (⟨S1x1x4096, .f32⟩ : BufTy).Contents (Elt F)) ]

set_option maxRecDepth 8192 in
theorem ops_split : (ops : List (HloOp τ sig (Elt F))) = opsA ++ opsT := rfl

/-- The output layer: the row contracted with the transposed weight, plus the bias as a row. -/
def logitsOf (h : (⟨S1x4096, .f32⟩ : BufTy).Contents (Elt F)) (x13 : (⟨S4096x4096, .f32⟩ : BufTy).Contents (Elt F)) (x14 : (⟨S4096, .f32⟩ : BufTy).Contents (Elt F)) :
    (⟨S1x4096, .f32⟩ : BufTy).Contents (Elt F) :=
  (addf (Host.dotGeneral dot_S1x4096_S4096x4096_S1x4096_1_0_0_1_n_n none h (transpose S4096x4096 [1, 0] x13 transposes_S4096x4096_S4096x4096_1_0)) (broadcastInDim S1x4096 ![1] bcast_S4096_S1x4096_1 x14))

/-- The log-softmax of a row, as the called function spells it: the row less its maximum, less the logarithm of the sum
    of the exponentials of that difference. -/
def logSoftmaxOf (y : (⟨S1x4096, .f32⟩ : BufTy).Contents (Elt F)) : (⟨S1x4096, .f32⟩ : BufTy).Contents (Elt F) :=
  subf (subf y (broadcastInDim S1x4096 ![0, 1] bcast_S1x1_S1x4096_0_1 (broadcastInDim S1x1 ![0] bcast_S1_S1x1_0 (maximumf (broadcastInDim S1 ![] bcast_S_S1 (constant S_ .f32 0xFF800000#32)) (Host.reduce FloatOps.maximumf y (constant S_ .f32 0xFF800000#32) reducesTo_S1x4096_S1_d1 h_S_))))) (broadcastInDim S1x4096 ![0, 1] bcast_S1x1_S1x4096_0_1 (Host.log (broadcastInDim S1x1 ![0] bcast_S1_S1x1_0 (Host.reduceAdd (Host.exp (subf y (broadcastInDim S1x4096 ![0, 1] bcast_S1x1_S1x4096_0_1 (broadcastInDim S1x1 ![0] bcast_S1_S1x1_0 (maximumf (broadcastInDim S1 ![] bcast_S_S1 (constant S_ .f32 0xFF800000#32)) (Host.reduce FloatOps.maximumf y (constant S_ .f32 0xFF800000#32) reducesTo_S1x4096_S1_d1 h_S_)))))) (constant S_ .f32 0x00000000#32) reducesTo_S1x4096_S1_d1 h_S_))))

/-- `main_v74`'s term of the arguments: the log-softmax of the output layer of the new hidden state. -/
def res_main_v74 (m : (ℓ : Loc nD τ sig) → Buf (Elt F) ℓ) (c : Dev nD) : Buf (Elt F) ((c.tc : Thread nD τ).loc main_v74) :=
  logSoftmaxOf (logitsOf (res_main_v69 m c) (m ((c.tc : Thread nD τ).loc main_arg13)) (m ((c.tc : Thread nD τ).loc main_arg14)))

/-- `res_main_v74` by its position among the values @main returns, 0 counting from 0. -/
abbrev res_out0 (m : (ℓ : Loc nD τ sig) → Buf (Elt F) ℓ) (c : Dev nD) : Buf (Elt F) ((c.tc : Thread nD τ).loc main_v74) := res_main_v74 m c

section Tail

variable (W : Valuation τ sig (Elt F))

set_option maxRecDepth 8192 in
/-- From any contents, the last 20 operations leave the log-softmax of the output layer in the log-probabilities' buffer. -/
theorem afterT_v74 :
    after (opsT (F := F)) W (Proc.devRef .tc main_v74)
      = logSoftmaxOf (logitsOf (W (Proc.devRef .tc main_v69)) (W (Proc.devRef .tc main_arg13)) (W (Proc.devRef .tc main_arg14))) := by
  unfold logSoftmaxOf logitsOf
  after_results_simp
  simp only [cast_eq]

set_option maxRecDepth 8192 in
/-- They write neither the hidden-state row nor the two output-layer arguments. -/
theorem afterT_v69 : after (opsT (F := F)) W (Proc.devRef .tc main_v69) = W (Proc.devRef .tc main_v69) := by
  after_results_simp <;> rfl
set_option maxRecDepth 8192 in
theorem afterT_arg13 : after (opsT (F := F)) W (Proc.devRef .tc main_arg13) = W (Proc.devRef .tc main_arg13) := by
  after_results_simp <;> rfl
set_option maxRecDepth 8192 in
theorem afterT_arg14 : after (opsT (F := F)) W (Proc.devRef .tc main_arg14) = W (Proc.devRef .tc main_arg14) := by
  after_results_simp <;> rfl

end Tail

/-- Result 0 (the log-probabilities) read back: the last 20 operations from what the first 87 leave. -/
theorem after_main_v74 (m : (ℓ : Loc nD τ sig) → Buf (Elt F) ℓ) (c : Dev nD) :
    after (ops (F := F)) (launchContents m c) (Proc.devRef .tc main_v74) = res_main_v74 m c := by
  have e69 : after (opsA (F := F)) (launchContents m c) (Proc.devRef .tc main_v69) = res_main_v69 m c := by
    rw [← afterT_v69 (after opsA (launchContents m c)), ← after_append', ← ops_split]
    exact after_main_v69 m c
  have e13 : after (opsA (F := F)) (launchContents m c) (Proc.devRef .tc main_arg13) = m ((c.tc : Thread nD τ).loc main_arg13) := by
    rw [← afterT_arg13 (after opsA (launchContents m c)), ← after_append', ← ops_split]
    exact after_of_writes_sub ops _ ops_writes (by decide)
  have e14 : after (opsA (F := F)) (launchContents m c) (Proc.devRef .tc main_arg14) = m ((c.tc : Thread nD τ).loc main_arg14) := by
    rw [← afterT_arg14 (after opsA (launchContents m c)), ← after_append', ← ops_split]
    exact after_of_writes_sub ops _ ops_writes (by decide)
  unfold res_main_v74
  rw [ops_split, after_append', afterT_v74, e69, e13, e14]

set_option maxRecDepth 8192 in
set_option maxHeartbeats 42800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = res_main_v74 m c
      ∧ r.2.mem ((c.tc : Thread nD τ).loc main_v75) = res_main_v75 m c
      ∧ r.2.mem ((c.tc : Thread nD τ).loc main_v26) = res_main_v26 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v74).trans (after_main_v74 m c),
      (h c main_v75).trans (after_main_v75 m c),
      (h c main_v26).trans (after_main_v26 m c),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide))⟩)
    (run_seq scopedRefs_eq scopedSems_eq defs main (fun _ => ops) main_eq (fun _ => ops_sub) m ρ)

end Cert.ReferenceIdeal.ValueP

end
-- ==== Proof.RefValue.lean ====
/-
  The reference program's three results, at the ideal instance, are the specification's functions of the argument
  arrays (Spec.lean). Stage by stage: the reference's embedding row (a dynamic slice, then a reshape to a vector and a
  broadcast back to a row, which together are the identity index by index; its second start index is a select between
  constants that is the constant 0) is the specification's; its hidden-state row, attention weights, joined row and
  log-softmax are the specification's named host chains on the same operands (never opened: the same operations on
  equal operands); each dense layer x · Wᵀ + b, which the reference computes by transposing the output-major weight
  and contracting, read at an index is the one sum over the contracted axis; the rectifier is max · 0; and the gate
  stage, whose two logistic functions the reference spells 1 / (1 + exp (−x)), is (1 − z)·n + z·h.
-/
import proofs.«101019_j40913858462225_2_alg».proof.Proof.RefReadP
import proofs.«101019_j40913858462225_2_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

variable (x0 : (⟨S1, .i32⟩ : BufTy).Contents (Elt Ideal)) (x1 : (⟨S1x1x4096, .f32⟩ : BufTy).Contents (Elt Ideal))
  (x3 : (⟨S15x4096, .f32⟩ : BufTy).Contents (Elt Ideal)) (x4 : (⟨S4096x4096, .f32⟩ : BufTy).Contents (Elt Ideal))
  (x5 : (⟨S15x8192, .f32⟩ : BufTy).Contents (Elt Ideal)) (x6 : (⟨S15, .f32⟩ : BufTy).Contents (Elt Ideal))
  (x7 : (⟨S4096x8192, .f32⟩ : BufTy).Contents (Elt Ideal)) (x8 : (⟨S4096, .f32⟩ : BufTy).Contents (Elt Ideal))
  (x9 x10 : (⟨S12288x4096, .f32⟩ : BufTy).Contents (Elt Ideal)) (x11 x12 : (⟨S12288, .f32⟩ : BufTy).Contents (Elt Ideal))
  (x13 : (⟨S4096x4096, .f32⟩ : BufTy).Contents (Elt Ideal)) (x14 : (⟨S4096, .f32⟩ : BufTy).Contents (Elt Ideal))

/-! ## Indices: the generated index functions at ix2 p q are the specification's constructors -/

/-- The reshape to a vector and the broadcast back to a row read the row where it is asked. -/
theorem idx_v8_v9 (p : Fin 1) (q : Fin 4096) : idx_main_v8 (idx_main_v9 (ix2 p q)) = ix2 p q :=
  funext fun a => Fin.ext (by
    match a with
    | ⟨0, _⟩ => show 0 = p.val; omega
    | ⟨1, _⟩ => show q.val % 4096 = q.val; omega)

theorem lidx_v30 (p : Fin 1) (q : Fin 4096) (k : Fin 8192) : lidx_main_v30 (ix2 p q) k = ix2 (0 : Fin 1) k :=
  funext fun a => Fin.ext (by
    match a with
    | ⟨0, _⟩ => show p.val = 0; omega
    | ⟨1, _⟩ => rfl)
theorem ridx_v30 (p : Fin 1) (q : Fin 4096) (k : Fin 8192) : idx_main_v29 (ridx_main_v30 (ix2 p q) k) = ix2 q k :=
  funext fun a => Fin.ext (by
    match a with
    | ⟨0, _⟩ => rfl
    | ⟨1, _⟩ => rfl)
theorem idx_v31 (p : Fin 1) (q : Fin 4096) : idx_main_v31 (ix2 p q) = ix1 q :=
  funext fun a => Fin.ext (by
    match a with
    | ⟨0, _⟩ => rfl)

theorem lidx_v35 (p : Fin 1) (q : Fin 12288) (k : Fin 4096) : lidx_main_v35 (ix2 p q) k = ix2 (0 : Fin 1) k :=
  funext fun a => Fin.ext (by
    match a with
    | ⟨0, _⟩ => show p.val = 0; omega
    | ⟨1, _⟩ => rfl)
theorem ridx_v35 (p : Fin 1) (q : Fin 12288) (k : Fin 4096) : idx_main_v34 (ridx_main_v35 (ix2 p q) k) = ix2 q k :=
  funext fun a => Fin.ext (by
    match a with
    | ⟨0, _⟩ => rfl
    | ⟨1, _⟩ => rfl)
theorem idx_v36 (p : Fin 1) (q : Fin 12288) : idx_main_v36 (ix2 p q) = ix1 q :=
  funext fun a => Fin.ext (by
    match a with
    | ⟨0, _⟩ => rfl)

theorem lidx_v39 (p : Fin 1) (q : Fin 12288) (k : Fin 4096) : lidx_main_v39 (ix2 p q) k = ix2 (0 : Fin 1) k :=
  funext fun a => Fin.ext (by
    match a with
    | ⟨0, _⟩ => show p.val = 0; omega
    | ⟨1, _⟩ => rfl)
theorem ridx_v39 (p : Fin 1) (q : Fin 12288) (k : Fin 4096) : idx_main_v38 (ridx_main_v39 (ix2 p q) k) = ix2 q k :=
  funext fun a => Fin.ext (by
    match a with
    | ⟨0, _⟩ => rfl
    | ⟨1, _⟩ => rfl)
theorem idx_v40 (p : Fin 1) (q : Fin 12288) : idx_main_v40 (ix2 p q) = ix1 q :=
  funext fun a => Fin.ext (by
    match a with
    | ⟨0, _⟩ => rfl)

theorem lidx_v71 (p : Fin 1) (q : Fin 4096) (k : Fin 4096) : lidx_main_v71 (ix2 p q) k = ix2 (0 : Fin 1) k :=
  funext fun a => Fin.ext (by
    match a with
    | ⟨0, _⟩ => show p.val = 0; omega
    | ⟨1, _⟩ => rfl)
theorem ridx_v71 (p : Fin 1) (q : Fin 4096) (k : Fin 4096) : idx_main_v70 (ridx_main_v71 (ix2 p q) k) = ix2 q k :=
  funext fun a => Fin.ext (by
    match a with
    | ⟨0, _⟩ => rfl
    | ⟨1, _⟩ => rfl)
theorem idx_v72 (p : Fin 1) (q : Fin 4096) : idx_main_v72 (ix2 p q) = ix1 q :=
  funext fun a => Fin.ext (by
    match a with
    | ⟨0, _⟩ => rfl)

/-- The three column blocks of a gate pre-activation row, as the reference slices them. -/
theorem idx_v42 (p : Fin 1) (q : Fin 4096) : idx_main_v42 (ix2 p q) = Spec.colR q :=
  funext fun a => Fin.ext (by
    match a with
    | ⟨0, _⟩ => show p.val = 0; omega
    | ⟨1, _⟩ => rfl)
theorem idx_v43 (p : Fin 1) (q : Fin 4096) : idx_main_v43 (ix2 p q) = Spec.colZ q :=
  funext fun a => Fin.ext (by
    match a with
    | ⟨0, _⟩ => show p.val = 0; omega
    | ⟨1, _⟩ => show 4096 + q.val = q.val + 4096; omega)
theorem idx_v44 (p : Fin 1) (q : Fin 4096) : idx_main_v44 (ix2 p q) = Spec.colN q :=
  funext fun a => Fin.ext (by
    match a with
    | ⟨0, _⟩ => show p.val = 0; omega
    | ⟨1, _⟩ => show 8192 + q.val = q.val + 8192; omega)
theorem idx_v45 (p : Fin 1) (q : Fin 4096) : idx_main_v45 (ix2 p q) = Spec.colR q :=
  funext fun a => Fin.ext (by
    match a with
    | ⟨0, _⟩ => show p.val = 0; omega
    | ⟨1, _⟩ => rfl)
theorem idx_v46 (p : Fin 1) (q : Fin 4096) : idx_main_v46 (ix2 p q) = Spec.colZ q :=
  funext fun a => Fin.ext (by
    match a with
    | ⟨0, _⟩ => show p.val = 0; omega
    | ⟨1, _⟩ => show 4096 + q.val = q.val + 4096; omega)
theorem idx_v47 (p : Fin 1) (q : Fin 4096) : idx_main_v47 (ix2 p q) = Spec.colN q :=
  funext fun a => Fin.ext (by
    match a with
    | ⟨0, _⟩ => show p.val = 0; omega
    | ⟨1, _⟩ => show 8192 + q.val = q.val + 8192; omega)

/-! ## The shared host chains -/

/-- The hidden state as a row. -/
theorem h0_eq : val_main_v10 (F := Ideal) x1 = Spec.h0of x1 := rfl

/-- The reference's start indices of the embedding slice are the specification's: the wrapped token index, and a select
    between constants that is 0. -/
theorem emb_start :
    (fun k : Fin 2 => (((![val_main_v3 (F := Ideal) x0, val_main_v6 (F := Ideal)] : Fin 2 → (⟨S_, .i32⟩ : BufTy).Contents (Elt Ideal))) k
      (Shape.Idx.first h_S_)).toInt)
    = (fun k : Fin 2 => ((![Spec.tokenIdx x0, constantI Spec.S_ 32 0#32] : Fin 2 → IVec Spec.S_ 32) k (Shape.Idx.first Spec.h_S_)).toInt) := by
  funext k
  fin_cases k
  · rfl
  · rfl

/-- The embedding row: the slice, reshaped to a vector and broadcast back to a row. -/
theorem emb_eq : val_main_v9 (F := Ideal) x0 x4 = Spec.embRow x0 x4 := by
  funext i
  obtain ⟨p, q, rfl⟩ : ∃ (p : Fin 1) (q : Fin 4096), i = ix2 p q := ⟨i 0, i 1, eq_ix2 i⟩
  rw [val_main_v9_apply, val_main_v8_apply, idx_v8_v9]
  unfold val_main_v7 Spec.embRow
  exact congrFun (congrArg (fun st => Host.dynamicSlice S1x4096 x4 st sliceFits_S4096x4096_S1x4096) (emb_start x0)) (ix2 p q)

/-- The attention weights are the named softmax of the named logits, on the reference's embedding and hidden rows. -/
theorem attw_eq : val_main_v26 (F := Ideal) x0 x1 x4 x5 x6
    = Spec.attw (val_main_v9 (F := Ideal) x0 x4) (val_main_v10 (F := Ideal) x1) x5 x6 := by
  unfold val_main_v26 val_main_v25 val_main_v24 val_main_v23 val_main_v22 val_main_v21 val_main_v20 val_main_v19 val_main_v18
    val_main_v17 val_main_v16 val_main_v15 val_main_v14 val_main_v13 val_main_v12 val_main_v11 val_main_cst val_main_cst_6 val_main_cst_7
  generalize val_main_v9 (F := Ideal) x0 x4 = e
  generalize val_main_v10 (F := Ideal) x1 = h
  rfl

/-- The joined row: the embedding and the attended context. -/
theorem comb_eq : val_main_v28 (F := Ideal) x0 x1 x3 x4 x5 x6
    = Spec.combined (val_main_v9 (F := Ideal) x0 x4) (val_main_v26 (F := Ideal) x0 x1 x4 x5 x6) x3 := by
  unfold val_main_v28 val_main_v27
  generalize val_main_v9 (F := Ideal) x0 x4 = e
  generalize val_main_v26 (F := Ideal) x0 x1 x4 x5 x6 = w
  rfl

/-- The log-softmax of the logits. -/
theorem logsm_eq : val_main_v74 (F := Ideal) x0 x1 x3 x4 x5 x6 x7 x8 x9 x10 x11 x12 x13 x14
    = Spec.logsm (val_main_v73 (F := Ideal) x0 x1 x3 x4 x5 x6 x7 x8 x9 x10 x11 x12 x13 x14) := by
  unfold val_main_v74 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst
  generalize val_main_v73 (F := Ideal) x0 x1 x3 x4 x5 x6 x7 x8 x9 x10 x11 x12 x13 x14 = y
  rfl

/-- The new hidden state as [1, 1, 4096]. -/
theorem row3_eq : val_main_v75 (F := Ideal) x0 x1 x3 x4 x5 x6 x7 x8 x9 x10 x11 x12
    = Spec.row3 (val_main_v69 (F := Ideal) x0 x1 x3 x4 x5 x6 x7 x8 x9 x10 x11 x12) := by
  unfold val_main_v75
  generalize val_main_v69 (F := Ideal) x0 x1 x3 x4 x5 x6 x7 x8 x9 x10 x11 x12 = y
  rfl

/-! ## The dense stages -/

/-- The rectified first layer: max (x · combWᵀ + combb) 0 of the joined row. -/
theorem x_eq : val_main_v33 (F := Ideal) x0 x1 x3 x4 x5 x6 x7 x8
    = Spec.relu (Spec.mv8192x4096 (val_main_v28 (F := Ideal) x0 x1 x3 x4 x5 x6) x7 x8) := by
  funext i
  obtain ⟨p, q, rfl⟩ : ∃ (p : Fin 1) (q : Fin 4096), i = ix2 p q := ⟨i 0, i 1, eq_ix2 i⟩
  rw [val_main_v33_apply, val_main_v32_apply, val_main_v30_apply, val_main_v31_apply, val_main_call0_v0_apply,
    val_main_call0_cst_apply]
  generalize val_main_v28 (F := Ideal) x0 x1 x3 x4 x5 x6 = c
  simp only [val_main_v29_apply, lidx_v30, ridx_v30, idx_v31, Ideal.maximumf_def, Ideal.addf_def, Ideal.ofBits_def,
    Ideal.ofBits_zero_f32, Spec.relu_apply, Spec.mv8192x4096_apply]
  all_goals rfl

/-- The input-side gate pre-activations x · Wihᵀ + bih. -/
theorem gi_eq : val_main_v37 (F := Ideal) x0 x1 x3 x4 x5 x6 x7 x8 x9 x11
    = Spec.mv4096x12288 (val_main_v33 (F := Ideal) x0 x1 x3 x4 x5 x6 x7 x8) x9 x11 := by
  funext i
  obtain ⟨p, q, rfl⟩ : ∃ (p : Fin 1) (q : Fin 12288), i = ix2 p q := ⟨i 0, i 1, eq_ix2 i⟩
  rw [val_main_v37_apply, val_main_v35_apply, val_main_v36_apply]
  generalize val_main_v33 (F := Ideal) x0 x1 x3 x4 x5 x6 x7 x8 = c
  simp only [val_main_v34_apply, lidx_v35, ridx_v35, idx_v36, Ideal.addf_def, Spec.mv4096x12288_apply]
  all_goals rfl

/-- The hidden-side gate pre-activations h · Whhᵀ + bhh. -/
theorem gh_eq : val_main_v41 (F := Ideal) x1 x10 x12 = Spec.mv4096x12288 (val_main_v10 (F := Ideal) x1) x10 x12 := by
  funext i
  obtain ⟨p, q, rfl⟩ : ∃ (p : Fin 1) (q : Fin 12288), i = ix2 p q := ⟨i 0, i 1, eq_ix2 i⟩
  rw [val_main_v41_apply, val_main_v39_apply, val_main_v40_apply]
  generalize val_main_v10 (F := Ideal) x1 = c
  simp only [val_main_v38_apply, lidx_v39, ridx_v39, idx_v40, Ideal.addf_def, Spec.mv4096x12288_apply]
  all_goals rfl

/-- The output logits h' · outWᵀ + outb. -/
theorem logits_eq : val_main_v73 (F := Ideal) x0 x1 x3 x4 x5 x6 x7 x8 x9 x10 x11 x12 x13 x14
    = Spec.mv4096x4096 (val_main_v69 (F := Ideal) x0 x1 x3 x4 x5 x6 x7 x8 x9 x10 x11 x12) x13 x14 := by
  funext i
  obtain ⟨p, q, rfl⟩ : ∃ (p : Fin 1) (q : Fin 4096), i = ix2 p q := ⟨i 0, i 1, eq_ix2 i⟩
  rw [val_main_v73_apply, val_main_v71_apply, val_main_v72_apply]
  generalize val_main_v69 (F := Ideal) x0 x1 x3 x4 x5 x6 x7 x8 x9 x10 x11 x12 = c
  simp only [val_main_v70_apply, lidx_v71, ridx_v71, idx_v72, Ideal.addf_def, Spec.mv4096x4096_apply]
  all_goals rfl

/-! ## The gate stage -/

/-- The new hidden state: the reference's expanded logistic functions are the logistic function, its constant 1.0 the
    real 1. -/
theorem gate_eq : val_main_v69 (F := Ideal) x0 x1 x3 x4 x5 x6 x7 x8 x9 x10 x11 x12
    = Spec.gate (val_main_v37 (F := Ideal) x0 x1 x3 x4 x5 x6 x7 x8 x9 x11) (val_main_v41 (F := Ideal) x1 x10 x12)
        (val_main_v10 (F := Ideal) x1) := by
  funext i
  obtain ⟨p, q, rfl⟩ : ∃ (p : Fin 1) (q : Fin 4096), i = ix2 p q := ⟨i 0, i 1, eq_ix2 i⟩
  rw [val_main_v69_apply, val_main_v67_apply, val_main_v68_apply, val_main_v66_apply, val_main_v65_apply, val_main_cst_12_apply,
    val_main_v64_apply, val_main_v63_apply, val_main_v62_apply, val_main_v61_apply, val_main_v60_apply, val_main_cst_11_apply,
    val_main_v59_apply, val_main_v58_apply, val_main_cst_10_apply, val_main_v57_apply, val_main_v56_apply, val_main_v55_apply,
    val_main_v54_apply, val_main_v53_apply, val_main_cst_9_apply, val_main_v52_apply, val_main_v51_apply, val_main_cst_8_apply,
    val_main_v50_apply, val_main_v49_apply, val_main_v48_apply, val_main_v47_apply, val_main_v46_apply, val_main_v45_apply,
    val_main_v44_apply, val_main_v43_apply, val_main_v42_apply]
  generalize val_main_v37 (F := Ideal) x0 x1 x3 x4 x5 x6 x7 x8 x9 x11 = gi
  generalize val_main_v41 (F := Ideal) x1 x10 x12 = gh
  generalize val_main_v10 (F := Ideal) x1 = h
  simp only [idx_v42, idx_v43, idx_v44, idx_v45, idx_v46, idx_v47, Ideal.addf_def, Ideal.subf_def, Ideal.mulf_def,
    Ideal.hostDivf_def, Ideal.hostUnary_exp_def, Ideal.hostUnary_tanh_def, Ideal.hostNegf_def, Ideal.negf_def, Ideal.ofBits_def,
    Spec.logistic_eq_div, Spec.logistic_eq_div_one, Spec.ofBits_one_f32, Spec.gate_apply, Spec.gateZ, Spec.gateN, Spec.gateR]
  all_goals rfl

/-! ## The three results -/

/-- The new hidden state, of the argument arrays. -/
theorem hnew_eq : val_main_v69 (F := Ideal) x0 x1 x3 x4 x5 x6 x7 x8 x9 x10 x11 x12
    = Spec.hnew x0 x1 x3 x4 x5 x6 x7 x8 x9 x10 x11 x12 := by
  rw [gate_eq, gi_eq, gh_eq, x_eq, comb_eq, attw_eq, emb_eq, h0_eq]
  rfl

theorem val_v74_eq : val_main_v74 (F := Ideal) x0 x1 x3 x4 x5 x6 x7 x8 x9 x10 x11 x12 x13 x14
    = Spec.out0 x0 x1 x3 x4 x5 x6 x7 x8 x9 x10 x11 x12 x13 x14 := by
  rw [logsm_eq, logits_eq, hnew_eq]
  rfl

theorem val_v75_eq : val_main_v75 (F := Ideal) x0 x1 x3 x4 x5 x6 x7 x8 x9 x10 x11 x12
    = Spec.out1 x0 x1 x3 x4 x5 x6 x7 x8 x9 x10 x11 x12 := by
  rw [row3_eq, hnew_eq]
  rfl

theorem val_v26_eq : val_main_v26 (F := Ideal) x0 x1 x4 x5 x6 = Spec.out2 x0 x1 x4 x5 x6 := by
  rw [attw_eq, emb_eq, h0_eq]
  rfl

end Cert.ReferenceIdeal.RefValue

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo

/-- Result 0 of the reference's run is the specification's log-probabilities of the arguments' launch contents. -/
theorem out0_eq (m : (ℓ : Loc nD τ sig) → Buf (Elt Ideal) ℓ) (c : Dev nD) :
    Cert.ReferenceIdeal.ValueP.res_main_v74 (F := Ideal) m c
    = Cert.Spec.out0 (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) :=
  (val_main_v74_eq (F := Ideal) m c).trans (val_v74_eq _ _ _ _ _ _ _ _ _ _ _ _ _ _)

/-- Result 1 of the reference's run is the specification's new hidden state. -/
theorem out1_eq (m : (ℓ : Loc nD τ sig) → Buf (Elt Ideal) ℓ) (c : Dev nD) :
    Cert.ReferenceIdeal.ValueP.res_main_v75 (F := Ideal) m c
    = Cert.Spec.out1 (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) :=
  (val_main_v75_eq (F := Ideal) m c).trans (val_v75_eq _ _ _ _ _ _ _ _ _ _ _ _)

/-- Result 2 of the reference's run is the specification's attention weights. -/
theorem out2_eq (m : (ℓ : Loc nD τ sig) → Buf (Elt Ideal) ℓ) (c : Dev nD) :
    Cert.ReferenceIdeal.ValueP.res_main_v26 (F := Ideal) m c
    = Cert.Spec.out2 (m ((c.tc : Thread nD τ).loc main_arg0)) (m ((c.tc : Thread nD τ).loc main_arg1))
        (m ((c.tc : Thread nD τ).loc main_arg4)) (m ((c.tc : Thread nD τ).loc main_arg5)) (m ((c.tc : Thread nD τ).loc main_arg6)) :=
  (val_main_v26_eq (F := Ideal) m c).trans (val_v26_eq _ _ _ _ _)

end Cert.ReferenceIdeal.RefValue

end
-- ==== Proof.lean ====
/-
  The proof of `Cert.Claim`: one GRU-attention decoder step computed by five kernel regions with host operations
  around them (a tiled matrix–vector kernel called four times, a gate kernel), against the same step in plain host
  operations.

  The three frames. Each kernel program is run as the chain of its eleven items — host stretches and regions — with the
  contents of every unscoped buffer followed from the launch to the end (Proof/Kernel/Run.lean at the word-level
  instance, Proof/KernelIdeal/Run.lean at the extended reals: one text at both instances); no item writes an argument.
  The reference has no kernel: its frame is its run with the results dropped (Proof/RefRunP.lean, Proof/RefRunFull.lean).

  `preserves` has no entry: the idealized kernel is the kernel's own text read at the extended reals.

  The algebraic claim. At the extended reals every region's output array is one stage of the specification
  (Proof/Spec.lean): three of the matrix–vector calls contract their 4096 columns in one tile, the fourth adds the two
  halves of a sum over 8192 columns in an accumulator carried from one grid point to the next — the same sum, by
  associativity alone —; the gate kernel's one `logistic` is the reference's 1 / (1 + exp (−x)) by definition; the host
  operations between the regions are the reference's own, literal for literal.
-/
import proofs.«101019_j40913858462225_2_alg».proof.Defs
import proofs.«101019_j40913858462225_2_alg».proof.Proof.Gen.Kernel
import proofs.«101019_j40913858462225_2_alg».proof.Proof.Gen.KernelIdeal
import proofs.«101019_j40913858462225_2_alg».proof.Proof.Gen.ReferenceIdeal
import proofs.«101019_j40913858462225_2_alg».proof.Proof.Gen.Pre_finite_inputs
import proofs.«101019_j40913858462225_2_alg».proof.Proof.Kernel.Run
import proofs.«101019_j40913858462225_2_alg».proof.Proof.KernelIdeal.Run
import proofs.«101019_j40913858462225_2_alg».proof.Proof.KernelIdeal.Values
import proofs.«101019_j40913858462225_2_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ
/-- So does its reading at the extended reals. -/
theorem frame_ki : Cert.frame_KernelIdeal := fun m ρ _ => Cert.KernelIdeal.Hand.frame (F := Ideal) m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)
/-- The ideal pass rewrote nothing. -/
theorem preserves : Cert.preserves_Kernel_KernelIdeal := trivial

/-- Both idealized programs end with the specification's three functions of the arguments: the kernel program by the
    chain of its items, the reference by its run read back; the arguments agree. -/
theorem algebraic : Cert.algebraic_KernelIdeal_ReferenceIdeal := by
  intro m ρ m' ρ' _ hagree
  refine ⟨fun c => Cert.KernelIdeal.Hand.W11 m ρ c (Proc.devRef .tc Cert.KernelIdeal.main_v33),
    fun c => Cert.KernelIdeal.Hand.W11 m ρ c (Proc.devRef .tc Cert.KernelIdeal.main_v34),
    fun c => Cert.KernelIdeal.Hand.W11 m ρ c (Proc.devRef .tc Cert.KernelIdeal.main_v23),
    Cert.KernelIdeal.Hand.run_results m ρ, ?_⟩
  refine (θ_run Cert.ReferenceIdeal.defs _ _).mono (fun r h c => ?_) (Cert.ReferenceIdeal.ValueP.run (F := Ideal) m' ρ')
  obtain ⟨e0, e1, e2, e3, e4, e5, e6, e7, e8, e9, e10, e11, e12, e13, e14⟩ := hagree c
  refine ⟨(h c).1.trans ?_, (h c).2.1.trans ?_, (h c).2.2.1.trans ?_, (h c).2.2.2⟩
  · rw [Cert.ReferenceIdeal.RefValue.out0_eq, e0, e1, e3, e4, e5, e6, e7, e8, e9, e10, e11, e12, e13, e14]
    exact (Cert.KernelIdeal.Hand.res0 m ρ c).symm
  · rw [Cert.ReferenceIdeal.RefValue.out1_eq, e0, e1, e3, e4, e5, e6, e7, e8, e9, e10, e11, e12]
    exact (Cert.KernelIdeal.Hand.res1 m ρ c).symm
  · rw [Cert.ReferenceIdeal.RefValue.out2_eq, e0, e1, e4, e5, e6]
    exact (Cert.KernelIdeal.Hand.res2 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
